-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S16384x2048 .f32) (main_arg1 : FVec F S2048x2048 .f32) (main_arg2 : FVec F S2048x2048 .f32) (main_arg3 : FVec F S2048x2048 .f32) (main_arg4 : FVec F S2048 .f32) (main_arg5 : FVec F S2048x2048 .f32) (main_arg6 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S2048x16384 : Shape := ⟨2, ![2048, 16384]⟩
abbrev S2048x256 : Shape := ⟨2, ![2048, 256]⟩
abbrev S128x16384 : Shape := ⟨2, ![128, 16384]⟩
abbrev S128 : Shape := ⟨1, ![128]⟩
abbrev S128x1 : Shape := ⟨2, ![128, 1]⟩
abbrev S2048x128 : Shape := ⟨2, ![2048, 128]⟩
abbrev S128x2048 : Shape := ⟨2, ![128, 2048]⟩
abbrev S2048x512 : Shape := ⟨2, ![2048, 512]⟩
abbrev S512x2048 : Shape := ⟨2, ![512, 2048]⟩

abbrev nBuf : Space → Nat
  | .hbm => 20
  | .vmem => 42
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S2048x2048, .f32⟩
  | .hbm, ⟨9, _⟩ => ⟨S1x2048, .f32⟩
  | .hbm, ⟨10, _⟩ => ⟨S2048x2048, .f32⟩
  | .hbm, ⟨11, _⟩ => ⟨S1x2048, .f32⟩
  | .hbm, ⟨12, _⟩ => ⟨S16384x2048, .f32⟩
  | .hbm, ⟨13, _⟩ => ⟨S2048x16384, .f32⟩
  | .hbm, ⟨14, _⟩ => ⟨S2048x16384, .bf16⟩
  | .hbm, ⟨15, _⟩ => ⟨S2048x2048, .f32⟩
  | .hbm, ⟨16, _⟩ => ⟨S2048x2048, .bf16⟩
  | .hbm, ⟨17, _⟩ => ⟨S2048x2048, .bf16⟩
  | .hbm, ⟨18, _⟩ => ⟨S16384x2048, .f32⟩
  | .hbm, ⟨19, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S2048x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S2048x2048, .f32⟩
  | .local _ .vmem, ⟨15, _⟩ => ⟨S1x2048, .f32⟩
  | .local _ .vmem, ⟨16, _⟩ => ⟨S2048x2048, .f32⟩
  | .local _ .vmem, ⟨17, _⟩ => ⟨S256x2048, .f32⟩
  | .local _ .vmem, ⟨18, _⟩ => ⟨S256x2048, .f32⟩
  | .local _ .vmem, ⟨19, _⟩ => ⟨S2048x2048, .f32⟩
  | .local _ .vmem, ⟨20, _⟩ => ⟨S256x2048, .f32⟩
  | .local _ .vmem, ⟨21, _⟩ => ⟨S256x2048, .f32⟩
  | .local _ .vmem, ⟨22, _⟩ => ⟨S2048x256, .f32⟩
  | .local _ .vmem, ⟨23, _⟩ => ⟨S2048x256, .f32⟩
  | .local _ .vmem, ⟨24, _⟩ => ⟨S128x16384, .f32⟩
  | .local _ .vmem, ⟨25, _⟩ => ⟨S128x16384, .f32⟩
  | .local _ .vmem, ⟨26, _⟩ => ⟨S128x16384, .bf16⟩
  | .local _ .vmem, ⟨27, _⟩ => ⟨S128x16384, .bf16⟩
  | .local _ .vmem, ⟨28, _⟩ => ⟨S2048x128, .bf16⟩
  | .local _ .vmem, ⟨29, _⟩ => ⟨S2048x128, .bf16⟩
  | .local _ .vmem, ⟨30, _⟩ => ⟨S128x2048, .f32⟩
  | .local _ .vmem, ⟨31, _⟩ => ⟨S128x2048, .f32⟩
  | .local _ .vmem, ⟨32, _⟩ => ⟨S2048x2048, .f32⟩
  | .local _ .vmem, ⟨33, _⟩ => ⟨S2048x2048, .f32⟩
  | .local _ .vmem, ⟨34, _⟩ => ⟨S2048x512, .bf16⟩
  | .local _ .vmem, ⟨35, _⟩ => ⟨S2048x512, .bf16⟩
  | .local _ .vmem, ⟨36, _⟩ => ⟨S2048x2048, .bf16⟩
  | .local _ .vmem, ⟨37, _⟩ => ⟨S2048x2048, .bf16⟩
  | .local _ .vmem, ⟨38, _⟩ => ⟨S512x2048, .f32⟩
  | .local _ .vmem, ⟨39, _⟩ => ⟨S512x2048, .f32⟩
  | .local _ .vmem, ⟨40, _⟩ => ⟨S512x2048, .f32⟩
  | .local _ .vmem, ⟨41, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_scratch0 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc6_stg4_0 : Ref sig .tc := ⟨.vmem, 40, rfl⟩
abbrev cc6_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38
abbrev cc6_sem4_0 : DmaSem sig := 39
abbrev cc6_sem4_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S2048x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x16384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x16384 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![128], ![false]⟩

def k5_cond2 (i : grid5.Coords) : BitVec 1 :=
  let arg0 : BitVec 32 := BitVec.ofNat 32 (i 0).val
  let c127_i32 : BitVec 32 := 127#32
  let v13 : BitVec 1 := Scalar.cmpi .eq arg0 c127_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2048x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2048x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S2048x2048 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x2048 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S2048x2048_S2048x2048 : S2048x2048.ShapeCasts S2048x2048
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  reduces_S128x16384_S128 : S128x16384.Reduces [1] S128
  shapeCasts_S128_S128x1 : S128.ShapeCasts S128x1
  broadcasts_S128x1_S128x16384 : S128x1.Broadcasts S128x16384
  bitsLt_bf16_f32 : FTy.bits .bf16 < FTy.bits .f32
  packedbf16_S128x16384_S128x16384_0_0 : (Rect.unit (s := S128x16384) ![0, 0] S128x16384.size inb_S128x16384_S128x16384_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x2048_S128x2048_0_0 : ∀ a, (![0, 0] : Fin 2 → Nat) a + S128x2048.size a ≤ S128x2048.size a
  h_S128x2048 : 0 < S128x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  dot_S256x2048_S2048x2048_S256x2048_1_1_0_0_n_n_wf : DotDims.WF S256x2048 S2048x2048 S256x2048 [1] [1] [0] [0] [] []
  dot_S2048x2048_S256x2048_S2048x256_1_1_0_0_n_n_wf : DotDims.WF S2048x2048 S256x2048 S2048x256 [1] [1] [0] [0] [] []
  dot_S2048x128_S128x2048_S2048x2048_1_0_0_1_n_n_wf : DotDims.WF S2048x128 S128x2048 S2048x2048 [1] [0] [0] [1] [] []
  dot_S2048x512_S2048x2048_S512x2048_0_0_1_1_n_n_wf : DotDims.WF S2048x512 S2048x2048 S512x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .f32 = 32 ∨ (Rect.block (s := S2048x2048) S2048x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S2048x2048.size a
  hwx1_3 : ∀ i : grid1.Coords, EltTy.bits .f32 = 32 ∨ (Rect.block (s := S2048x2048) S256x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S16384x2048.size a
  hwx2_0 : ∀ i : grid2.Coords, EltTy.bits .f32 = 32 ∨ (Rect.block (s := S16384x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .f32 = 32 ∨ (Rect.block (s := S2048x2048) S2048x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S2048x2048.size a
  hwx2_3 : ∀ i : grid2.Coords, EltTy.bits .f32 = 32 ∨ (Rect.block (s := S2048x2048) S2048x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x2048.size a ≤ S16384x2048.size a
  hwx2_4 : ∀ i : grid2.Coords, EltTy.bits .f32 = 32 ∨ (Rect.block (s := S16384x2048) S256x2048.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S2048x2048.size a
  hwx3_0 : ∀ i : grid3.Coords, EltTy.bits .f32 = 32 ∨ (Rect.block (s := S2048x2048) S2048x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S16384x2048.size a
  hwx3_1 : ∀ i : grid3.Coords, EltTy.bits .f32 = 32 ∨ (Rect.block (s := S16384x2048) S256x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S2048x16384.size a
  hwx3_2 : ∀ i : grid3.Coords, EltTy.bits .f32 = 32 ∨ (Rect.block (s := S2048x16384) S2048x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x16384.size a ≤ S2048x16384.size a
  hwx4_0 : ∀ i : grid4.Coords, EltTy.bits .f32 = 32 ∨ (Rect.block (s := S2048x16384) S128x16384.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x16384.size a ≤ S2048x16384.size a
  hwx4_1 : ∀ i : grid4.Coords, EltTy.bits .bf16 = 32 ∨ (Rect.block (s := S2048x16384) S128x16384.size (cc4_transform_1 i) (hinb4_1 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S2048x16384.size a
  hwx5_0 : ∀ i : grid5.Coords, EltTy.bits .bf16 = 32 ∨ (Rect.block (s := S2048x16384) S2048x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x2048.size a ≤ S16384x2048.size a
  hwx5_1 : ∀ i : grid5.Coords, EltTy.bits .f32 = 32 ∨ (Rect.block (s := S16384x2048) S128x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x2048.size a ≤ S2048x2048.size a
  hwx5_2 : ∀ i : grid5.Coords, EltTy.bits .f32 = 32 ∨ (Rect.block (s := S2048x2048) S2048x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x512.size a ≤ S2048x16384.size a
  hwx6_0 : ∀ i : grid6.Coords, EltTy.bits .bf16 = 32 ∨ (Rect.block (s := S2048x16384) S2048x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x2048.size a ≤ S2048x2048.size a
  hwx6_1 : ∀ i : grid6.Coords, EltTy.bits .bf16 = 32 ∨ (Rect.block (s := S2048x2048) S2048x2048.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S2048x2048.size a ≤ S2048x2048.size a
  hwx6_2 : ∀ i : grid6.Coords, EltTy.bits .bf16 = 32 ∨ (Rect.block (s := S2048x2048) S2048x2048.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x2048.size a ≤ S16384x2048.size a
  hwx6_3 : ∀ i : grid6.Coords, EltTy.bits .f32 = 32 ∨ (Rect.block (s := S16384x2048) S512x2048.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S512x2048.size a ≤ S16384x2048.size a
  hwx6_4 : ∀ i : grid6.Coords, EltTy.bits .f32 = 32 ∨ (Rect.block (s := S16384x2048) S512x2048.size (cc6_transform_4 i) (hinb6_4 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x512_S2048x2048_S512x2048_0_0_1_1_n_n : DotDims S2048x512 S2048x2048 S512x2048 where
  lhsContracting := [0]
  rhsContracting := [0]
  lhsNonContracting := [1]
  rhsNonContracting := [1]
  lhsBatch := []
  rhsBatch := []
  wf := dot_S2048x512_S2048x2048_S512x2048_0_0_1_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S2048x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S256x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v3) S2048x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v5) S256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v6) S128x16384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S128x16384.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v7) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S128x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v8) S2048x2048.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v7) S2048x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S2048x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v10) S2048x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v11_0) S512x2048.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v11_1) S512x2048.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S2048x16384 : Shape := ⟨2, ![2048, 16384]⟩
abbrev S_ : Shape := ⟨0, ![]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S16384x2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S16384x2048, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x16384, .f32⟩
  | .hbm, ⟨27, _⟩ => ⟨S2048x16384, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x16384, .f32⟩
  | .hbm, ⟨35, _⟩ => ⟨S2048x16384, .f32⟩
  | .hbm, ⟨36, _⟩ => ⟨S2048x16384, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x16384, .f32⟩
  | .hbm, ⟨41, _⟩ => ⟨S2048x16384, .f32⟩
  | .hbm, ⟨42, _⟩ => ⟨S2048x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S1x2048_S2048x2048_0_1 : S1x2048.BroadcastsInDim S2048x2048 (![0, 1] : Fin 2 → Fin S2048x2048.rank)
  transposes_S16384x2048_S2048x16384_1_0 : S16384x2048.Transposes [1, 0] S2048x16384
  reducesTo_S2048x16384_S2048_d1 : S2048x16384.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x16384_0_1 : S2048x1.BroadcastsInDim S2048x16384 (![0, 1] : Fin 2 → Fin S2048x16384.rank)
  transposes_S2048x16384_S16384x2048_1_0 : S2048x16384.Transposes [1, 0] S16384x2048
  dot_S16384x2048_S2048x2048_S16384x2048_1_0_0_1_n_n_wf : DotDims.WF S16384x2048 S2048x2048 S16384x2048 [1] [0] [0] [1] [] []
  dot_S2048x2048_S2048x2048_S2048x2048_1_0_0_1_n_n_wf : DotDims.WF S2048x2048 S2048x2048 S2048x2048 [1] [0] [0] [1] [] []
  dot_S2048x2048_S2048x16384_S2048x16384_1_0_0_1_n_n_wf : DotDims.WF S2048x2048 S2048x16384 S2048x16384 [1] [0] [0] [1] [] []
  dot_S2048x16384_S16384x2048_S2048x2048_1_0_0_1_n_n_wf : DotDims.WF S2048x16384 S16384x2048 S2048x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x16384_S2048x16384_1_0_0_1_n_n : DotDims S2048x2048 S2048x16384 S2048x16384 where
  lhsContracting := [1]
  rhsContracting := [0]
  lhsNonContracting := [0]
  rhsNonContracting := [1]
  lhsBatch := []
  rhsBatch := []
  wf := dot_S2048x2048_S2048x16384_S2048x16384_1_0_0_1_n_n_wf
def dot_S2048x16384_S16384x2048_S2048x2048_1_0_0_1_n_n : DotDims S2048x16384 S16384x2048 S2048x2048 where
  lhsContracting := [1]
  rhsContracting := [0]
  lhsNonContracting := [0]
  rhsNonContracting := [1]
  lhsBatch := []
  rhsBatch := []
  wf := dot_S2048x16384_S16384x2048_S2048x2048_1_0_0_1_n_n_wf

class Facts : Prop extends Facts₀ where

variable [Facts]
-- ==== Proof.K.Body0.lean ====
/-
  Region 0 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether fetched there or kept from the point
    before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether fetched there or kept from the point
    before (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether fetched there or kept from the point
    before (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Output window 3's buffer after the body: the one store, over the whole block, of the body's value at the input blocks. -/
def out0_3 (x0 : Vec F S256x2048 .f32) (x1 : Vec F S2048x2048 .f32) (x2 : Vec F S1x2048 .f32) : Vec F S256x2048 .f32 :=
  View.canon [⟨(Rect.unit (s := S256x2048) ![0, 0] S256x2048.size inb_S256x2048_S256x2048_0_0), k0_pay1 (View.ld x0 (Rect.unit (s := S256x2048) ![0, 0] S256x2048.size inb_S256x2048_S256x2048_0_0)) (View.ld x1 (Rect.unit (s := S2048x2048) ![0, 0] S2048x2048.size inb_S2048x2048_S2048x2048_0_0)) (View.ld x2 (Rect.unit (s := S1x2048) ![0, 0] S1x2048.size inb_S1x2048_S1x2048_0_0))⟩]

/-- That store covers the block. -/
theorem cover0_3 (p0 : Vec F S256x2048 .f32) (y : S256x2048.Idx) :
    ∃ pc ∈ ([⟨(Rect.unit (s := S256x2048) ![0, 0] S256x2048.size inb_S256x2048_S256x2048_0_0), p0⟩] : List (View.Piece (Elt F) S256x2048 .f32)), y ∈ pc.1.set :=
  View.cover_of_tiled [⟨(Rect.unit (s := S256x2048) ![0, 0] S256x2048.size inb_S256x2048_S256x2048_0_0), p0⟩] S256x2048.size (by rfl) y

set_option maxHeartbeats 4000000 in
/-- The body on whole staging buffers, the inputs' at `x` and the outputs' at anything, runs to the end leaving the
    inputs' as they were and each output's at its value of the inputs'. -/
theorem sound_kernel0 (c : Dev nD) (E : Set ℕ) (i : grid0.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S256x2048 .f32) (harg4 : arg4.IsWhole)
    (x0 : Vec F S256x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_f32_kernel i arg1 harg1 arg2 harg2 arg3 harg3 arg4 harg4) K := by
  simp only [cc0__fc_f32_kernel_eq_skeleton]; unfold cc0__fc_f32_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer at its block and each output's at its value of the input blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's specification at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  Region 1 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether fetched there or kept from the point
    before (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current buffer holds its block at every point, whether fetched there or kept from the point
    before (then the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current buffer holds its block at every point, whether fetched there or kept from the point
    before (then the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Output window 3's buffer after the body: the one store, over the whole block, of the body's value at the input blocks. -/
def out1_3 (x0 : Vec F S256x2048 .f32) (x1 : Vec F S2048x2048 .f32) (x2 : Vec F S1x2048 .f32) : Vec F S256x2048 .f32 :=
  View.canon [⟨(Rect.unit (s := S256x2048) ![0, 0] S256x2048.size inb_S256x2048_S256x2048_0_0), k1_pay1 (View.ld x0 (Rect.unit (s := S256x2048) ![0, 0] S256x2048.size inb_S256x2048_S256x2048_0_0)) (View.ld x1 (Rect.unit (s := S2048x2048) ![0, 0] S2048x2048.size inb_S2048x2048_S2048x2048_0_0)) (View.ld x2 (Rect.unit (s := S1x2048) ![0, 0] S1x2048.size inb_S1x2048_S1x2048_0_0))⟩]

/-- That store covers the block. -/
theorem cover1_3 (p0 : Vec F S256x2048 .f32) (y : S256x2048.Idx) :
    ∃ pc ∈ ([⟨(Rect.unit (s := S256x2048) ![0, 0] S256x2048.size inb_S256x2048_S256x2048_0_0), p0⟩] : List (View.Piece (Elt F) S256x2048 .f32)), y ∈ pc.1.set :=
  View.cover_of_tiled [⟨(Rect.unit (s := S256x2048) ![0, 0] S256x2048.size inb_S256x2048_S256x2048_0_0), p0⟩] S256x2048.size (by rfl) y

set_option maxHeartbeats 4000000 in
/-- The body on whole staging buffers, the inputs' at `x` and the outputs' at anything, runs to the end leaving the
    inputs' as they were and each output's at its value of the inputs'. -/
theorem sound_kernel1 (c : Dev nD) (E : Set ℕ) (i : grid1.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S256x2048 .f32) (harg4 : arg4.IsWhole)
    (x0 : Vec F S256x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc_f32_kernel i arg1 harg1 arg2 harg2 arg3 harg3 arg4 harg4) K := by
  simp only [cc1__fc_f32_kernel_eq_skeleton]; unfold cc1__fc_f32_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body at point `t` each input's
    buffer at its block and each output's at its value of the input blocks; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's specification at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  Region 2 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether fetched there or kept from the point
    before (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current buffer holds its block at every point, whether fetched there or kept from the point
    before (then the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current buffer holds its block at every point, whether fetched there or kept from the point
    before (then the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current buffer holds its block at every point, whether fetched there or kept from the point
    before (then the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Output window 4's buffer after the body: the one store, over the whole block, of the body's value at the input blocks. -/
def out2_4 (x0 : Vec F S256x2048 .f32) (x1 : Vec F S2048x2048 .f32) (x2 : Vec F S1x2048 .f32) (x3 : Vec F S2048x2048 .f32) : Vec F S256x2048 .f32 :=
  View.canon [⟨(Rect.unit (s := S256x2048) ![0, 0] S256x2048.size inb_S256x2048_S256x2048_0_0), k2_pay1 (View.ld x0 (Rect.unit (s := S256x2048) ![0, 0] S256x2048.size inb_S256x2048_S256x2048_0_0)) (View.ld x1 (Rect.unit (s := S2048x2048) ![0, 0] S2048x2048.size inb_S2048x2048_S2048x2048_0_0)) (View.ld x2 (Rect.unit (s := S1x2048) ![0, 0] S1x2048.size inb_S1x2048_S1x2048_0_0)) (View.ld x3 (Rect.unit (s := S2048x2048) ![0, 0] S2048x2048.size inb_S2048x2048_S2048x2048_0_0))⟩]

/-- That store covers the block. -/
theorem cover2_4 (p0 : Vec F S256x2048 .f32) (y : S256x2048.Idx) :
    ∃ pc ∈ ([⟨(Rect.unit (s := S256x2048) ![0, 0] S256x2048.size inb_S256x2048_S256x2048_0_0), p0⟩] : List (View.Piece (Elt F) S256x2048 .f32)), y ∈ pc.1.set :=
  View.cover_of_tiled [⟨(Rect.unit (s := S256x2048) ![0, 0] S256x2048.size inb_S256x2048_S256x2048_0_0), p0⟩] S256x2048.size (by rfl) y

set_option maxHeartbeats 4000000 in
/-- The body on whole staging buffers, the inputs' at `x` and the outputs' at anything, runs to the end leaving the
    inputs' as they were and each output's at its value of the inputs'. -/
theorem sound_kernel2 (c : Dev nD) (E : Set ℕ) (i : grid2.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S256x2048 .f32) (harg5 : arg5.IsWhole)
    (x0 : Vec F S256x2048 .f32) (x1 : Vec F S2048x2048 .f32) (x2 : Vec F S1x2048 .f32) (x3 : Vec F S2048x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__h1_scores1_kernel i arg1 harg1 arg2 harg2 arg3 harg3 arg4 harg4 arg5 harg5) K := by
  simp only [cc2__h1_scores1_kernel_eq_skeleton]; unfold cc2__h1_scores1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data on core `c`: the arrays as the region finds them; after the body at point `t` each input's
    buffer at its block and each output's at its value of the input blocks; nothing else touched, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's specification at every grid point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Body3.lean ====
/-
  Region 3 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, whether fetched there or kept from the point
    before (then the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current buffer holds its block at every point, whether fetched there or kept from the point
    before (then the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Output window 2's buffer after the body: the one store, over the whole block, of the body's value at the input blocks. -/
def out3_2 (x0 : Vec F S2048x2048 .f32) (x1 : Vec F S256x2048 .f32) : Vec F S2048x256 .f32 :=
  View.canon [⟨(Rect.unit (s := S2048x256) ![0, 0] S2048x256.size inb_S2048x256_S2048x256_0_0), k3_pay1 (View.ld x0 (Rect.unit (s := S2048x2048) ![0, 0] S2048x2048.size inb_S2048x2048_S2048x2048_0_0)) (View.ld x1 (Rect.unit (s := S256x2048) ![0, 0] S256x2048.size inb_S256x2048_S256x2048_0_0))⟩]

/-- That store covers the block. -/
theorem cover3_2 (p0 : Vec F S2048x256 .f32) (y : S2048x256.Idx) :
    ∃ pc ∈ ([⟨(Rect.unit (s := S2048x256) ![0, 0] S2048x256.size inb_S2048x256_S2048x256_0_0), p0⟩] : List (View.Piece (Elt F) S2048x256 .f32)), y ∈ pc.1.set :=
  View.cover_of_tiled [⟨(Rect.unit (s := S2048x256) ![0, 0] S2048x256.size inb_S2048x256_S2048x256_0_0), p0⟩] S2048x256.size (by rfl) y

set_option maxHeartbeats 4000000 in
/-- The body on whole staging buffers, the inputs' at `x` and the outputs' at anything, runs to the end leaving the
    inputs' as they were and each output's at its value of the inputs'. -/
theorem sound_kernel3 (c : Dev nD) (E : Set ℕ) (i : grid3.Coords) (arg1 : Memref sig .tc .vmem S2048x2048 .f32) (harg1 : arg1.IsWhole) (arg2 : Memref sig .tc .vmem S256x2048 .f32) (harg2 : arg2.IsWhole) (arg3 : Memref sig .tc .vmem S2048x256 .f32) (harg3 : arg3.IsWhole)
    (x0 : Vec F S2048x2048 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__scores2_kernel i arg1 harg1 arg2 harg2 arg3 harg3) K := by
  simp only [cc3__scores2_kernel_eq_skeleton]; unfold cc3__scores2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as the region finds them; after the body at point `t` each input's
    buffer at its block and each output's at its value of the input blocks; nothing else touched, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's specification at every grid point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Body4.lean ====
/-
  Region 4 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, whether fetched there or kept from the point
    before (then the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Output window 1's buffer after the body: the one store, over the whole block, of the body's value at the input blocks. -/
def out4_1 (x0 : Vec F S128x16384 .f32) : Vec F S128x16384 .bf16 :=
  View.canon [⟨(Rect.unit (s := S128x16384) ![0, 0] S128x16384.size inb_S128x16384_S128x16384_0_0), k4_pay1 (View.ld x0 (Rect.unit (s := S128x16384) ![0, 0] S128x16384.size inb_S128x16384_S128x16384_0_0))⟩]

/-- That store covers the block. -/
theorem cover4_1 (p0 : Vec F S128x16384 .bf16) (y : S128x16384.Idx) :
    ∃ pc ∈ ([⟨(Rect.unit (s := S128x16384) ![0, 0] S128x16384.size inb_S128x16384_S128x16384_0_0), p0⟩] : List (View.Piece (Elt F) S128x16384 .bf16)), y ∈ pc.1.set :=
  View.cover_of_tiled [⟨(Rect.unit (s := S128x16384) ![0, 0] S128x16384.size inb_S128x16384_S128x16384_0_0), p0⟩] S128x16384.size (by rfl) y

set_option maxHeartbeats 4000000 in
/-- The body on whole staging buffers, the inputs' at `x` and the outputs' at anything, runs to the end leaving the
    inputs' as they were and each output's at its value of the inputs'. -/
theorem sound_kernel4 (c : Dev nD) (E : Set ℕ) (i : grid4.Coords) (arg1 : Memref sig .tc .vmem S128x16384 .f32) (harg1 : arg1.IsWhole) (arg2 : Memref sig .tc .vmem S128x16384 .bf16) (harg2 : arg2.IsWhole)
    (x0 : Vec F S128x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__softmax_kernel i arg1 harg1 arg2 harg2) K := by
  simp only [cc4__softmax_kernel_eq_skeleton]; unfold cc4__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-- The region's proof data on core `c`: the arrays as the region finds them; after the body at point `t` each input's
    buffer at its block and each output's at its value of the input blocks; nothing else touched, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

theorem before4_0 (c : Dev nD) (t : Fin cfg4.N) (d) : (dat4 V c).before 0 t d = iblk4 V c 0 t :=
  before4_0_of V (dat4 V c) (A_eq4 V c 0) (after4_0 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's specification at every grid point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Body6.lean ====
/-
  Region 6 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, whether fetched there or kept from the point
    before (then the block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's current buffer holds its block at every point, whether fetched there or kept from the point
    before (then the block index has not moved). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's current buffer holds its block at every point, whether fetched there or kept from the point
    before (then the block index has not moved). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Output window 3's buffer after the body: the one store, over the whole block, of the body's value at the input blocks. -/
def out6_3 (x0 : Vec F S2048x512 .bf16) (x1 : Vec F S2048x2048 .bf16) (x2 : Vec F S2048x2048 .bf16) : Vec F S512x2048 .f32 :=
  View.canon [⟨(Rect.unit (s := S512x2048) ![0, 0] S512x2048.size inb_S512x2048_S512x2048_0_0), k6_pay2 (View.ld x0 (Rect.unit (s := S2048x512) ![0, 0] S2048x512.size inb_S2048x512_S2048x512_0_0)) (View.ld x1 (Rect.unit (s := S2048x2048) ![0, 0] S2048x2048.size inb_S2048x2048_S2048x2048_0_0))⟩]

/-- That store covers the block. -/
theorem cover6_3 (p0 : Vec F S512x2048 .f32) (y : S512x2048.Idx) :
    ∃ pc ∈ ([⟨(Rect.unit (s := S512x2048) ![0, 0] S512x2048.size inb_S512x2048_S512x2048_0_0), p0⟩] : List (View.Piece (Elt F) S512x2048 .f32)), y ∈ pc.1.set :=
  View.cover_of_tiled [⟨(Rect.unit (s := S512x2048) ![0, 0] S512x2048.size inb_S512x2048_S512x2048_0_0), p0⟩] S512x2048.size (by rfl) y

/-- Output window 4's buffer after the body: the one store, over the whole block, of the body's value at the input blocks. -/
def out6_4 (x0 : Vec F S2048x512 .bf16) (x1 : Vec F S2048x2048 .bf16) (x2 : Vec F S2048x2048 .bf16) : Vec F S512x2048 .f32 :=
  View.canon [⟨(Rect.unit (s := S512x2048) ![0, 0] S512x2048.size inb_S512x2048_S512x2048_0_0), k6_pay3 (View.ld x0 (Rect.unit (s := S2048x512) ![0, 0] S2048x512.size inb_S2048x512_S2048x512_0_0)) (View.ld x2 (Rect.unit (s := S2048x2048) ![0, 0] S2048x2048.size inb_S2048x2048_S2048x2048_0_0))⟩]

/-- That store covers the block. -/
theorem cover6_4 (p0 : Vec F S512x2048 .f32) (y : S512x2048.Idx) :
    ∃ pc ∈ ([⟨(Rect.unit (s := S512x2048) ![0, 0] S512x2048.size inb_S512x2048_S512x2048_0_0), p0⟩] : List (View.Piece (Elt F) S512x2048 .f32)), y ∈ pc.1.set :=
  View.cover_of_tiled [⟨(Rect.unit (s := S512x2048) ![0, 0] S512x2048.size inb_S512x2048_S512x2048_0_0), p0⟩] S512x2048.size (by rfl) y

set_option maxHeartbeats 4000000 in
/-- The body on whole staging buffers, the inputs' at `x` and the outputs' at anything, runs to the end leaving the
    inputs' as they were and each output's at its value of the inputs'. -/
theorem sound_kernel6 (c : Dev nD) (E : Set ℕ) (i : grid6.Coords) (arg1 : Memref sig .tc .vmem S2048x512 .bf16) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole)
    (x0 : Vec F S2048x512 .bf16) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2) ∗ owns (c : Thread nD τ) arg5 fullShare (out6_4 x0 x1 x2)) -∗ K ⟨⟩))
      ⊢ wp frame (wpE (defs₀ (F := F)) Variants.none c none) E (cc6__att23_kernel i arg1 harg1 arg2 harg2 arg3 harg3 arg4 harg4 arg5 harg5) K := by
  simp only [cc6__att23_kernel_eq_skeleton]; unfold cc6__att23_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_3 _)
  iexists _; isplitr
  swap; · iexact H4
  ipureintro
  exact View.read_writes_eq_canon _ _ _ (cover6_4 _)

/-- The region's proof data on core `c`: the arrays as the region finds them; after the body at point `t` each input's
    buffer at its block and each output's at its value of the input blocks; nothing else touched, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's specification at every grid point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.Body5a.lean ====
/-
  Region 5 of the program — the weighted sum of the rows of the first input, accumulated over the 128 blocks of
  the contracted axis in a buffer the kernel keeps between grid points — at the buffer contents `V` the region is
  entered with. The body has three cases: at the first point the accumulator is set to zero before this point's
  product is added; at the points between the product is added to what the point before left; at the last point,
  after the addition, the accumulator is copied into the output block. Stated here: the body's run in each case,
  what the accumulator and the output block hold after each point, and the body's specification at every point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's current buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, over the grid -/

/-- "This is the first block of the contracted axis." -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 128 = 0 :=
  (by decide +kernel : ∀ t : Fin grid5.N, cond5_0 (grid5.coords t) ↔ t.val % 128 = 0)

/-- "This is the last block of the contracted axis." -/
abbrev cond5_1 (i : grid5.Coords) : Prop := k5_cond2 i = 1#1
theorem hcond5_1 : ∀ t : Fin cfg5.N, cond5_1 (grid5.coords t) ↔ t.val % 128 = 127 :=
  (by decide +kernel : ∀ t : Fin grid5.N, cond5_1 (grid5.coords t) ↔ t.val % 128 = 127)

/-! ## Where the output window is left untouched -/

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2_A : ∀ t : Fin cfg5.N, cond5_0 (grid5.coords t) → ¬cond5_1 (grid5.coords t) → cfg5.idle 2 (grid5.coords t) = true := by decide +kernel
theorem noFlush5_2_A : ∀ t : Fin cfg5.N, cond5_0 (grid5.coords t) → ¬cond5_1 (grid5.coords t) → (cfg5.win 2).flush t = false := by decide +kernel
theorem idleAt5_2_B : ∀ t : Fin cfg5.N, ¬cond5_0 (grid5.coords t) → ¬cond5_1 (grid5.coords t) → cfg5.idle 2 (grid5.coords t) = true := by decide +kernel
theorem noFlush5_2_B : ∀ t : Fin cfg5.N, ¬cond5_0 (grid5.coords t) → ¬cond5_1 (grid5.coords t) → (cfg5.win 2).flush t = false := by decide +kernel
theorem liveAt5_2_C : ∀ t : Fin cfg5.N, ¬cond5_0 (grid5.coords t) → cond5_1 (grid5.coords t) → cfg5.idle 2 (grid5.coords t) = false := by decide +kernel

/-! ## The buffers the body is called on -/

abbrev VO5_2 : View sig .tc .vmem S2048x2048 .f32 := (Memref.whole cc5_stg2_0 : Memref sig .tc .vmem S2048x2048 .f32).view
abbrev ms5_0 (t : Fin cfg5.N) : Memref sig .tc .vmem S2048x128 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x2048 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x2048 .f32 := win5_2.stage (cfg5.slots t 2)
abbrev hs5_2 (t : Fin cfg5.N) : (ms5_2 t).IsWhole := hstage5_2 ((cfg5.slots t 2).cast nbuf5_2)
/-- The accumulator: a whole buffer of the kernel's own, kept between grid points. -/
abbrev scM5_0 : Memref sig .tc .vmem S2048x2048 .f32 := Memref.whole cc5_scratch0
abbrev VS5_0 : View sig .tc .vmem S2048x2048 .f32 := scM5_0.view

/-- What the region's invariant holds besides the windows: the accumulator at some contents, every other buffer
    private to a kernel region unopened, the random-number register at some state. -/
theorem PhiA5_eq (c : Dev nD) :
    (Pipeline.ΦA spec5 c : sProp 𝕄)
      = iprop(iprop((∃ d, owns (c : Thread nD τ) scM5_0 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The body's run, case by case -/

set_option maxHeartbeats 4000000 in
/-- FIRST POINT: the accumulator, at anything, is set to zero and this point's product added; the output block is handed
    back untouched. The stores into the accumulator are the witness the run finds. -/
noncomputable def kernelRun5_A (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) :
    Σ' (L2 : List (View.Piece (Elt F) S2048x2048 .f32)), { LS0 : List (View.Piece (Elt F) S2048x2048 .f32) //
      ∀ (xi2 : Vec F S2048x2048 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc5__att1_kernel i arg1 harg1 arg2 harg2 arg3 harg3 arg4 harg4) K } := by
  refine ⟨[], ?_, fun xi2 E K => ?run⟩
  case run =>
    simp only [cc5__att1_kernel_eq_skeleton]; unfold cc5__att1_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- A POINT BETWEEN: this point's product is added to what the accumulator held; the output block is handed back untouched. -/
noncomputable def kernelRun5_B (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) :
    Σ' (L2 : List (View.Piece (Elt F) S2048x2048 .f32)), { LS0 : List (View.Piece (Elt F) S2048x2048 .f32) //
      ∀ (xi2 : Vec F S2048x2048 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc5__att1_kernel i arg1 harg1 arg2 harg2 arg3 harg3 arg4 harg4) K } := by
  refine ⟨[], ?_, fun xi2 E K => ?run⟩
  case run =>
    simp only [cc5__att1_kernel_eq_skeleton]; unfold cc5__att1_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT: this point's product is added to what the accumulator held, and the sum is stored into the output block. -/
noncomputable def kernelRun5_C (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) :
    Σ' (L2 : List (View.Piece (Elt F) S2048x2048 .f32)), { LS0 : List (View.Piece (Elt F) S2048x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc5__att1_kernel i arg1 harg1 arg2 harg2 arg3 harg3 arg4 harg4) K } := by
  refine ⟨?_, ?_, fun E K => ?run⟩
  case run =>
    simp only [cc5__att1_kernel_eq_skeleton]; unfold cc5__att1_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.Body5b.lean ====
/-
  Region 5, continued: what the accumulator and the output block hold after each grid point (a recursion over the
  points: the first sets the accumulator, every later one adds to what the one before left), the region's
  invariant carrying the accumulator from point to point, and the body's specification at every point.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points
import proofs.«127111_j36644660969674_2_alg».proof.Proof.K.Body5a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In this case the stores into the accumulator cover it. -/
theorem scover5_A_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) (y : S2048x2048.Idx) :
    ∃ pc ∈ (kernelRun5_A c i arg1 harg1 arg2 harg2 arg3 harg3 arg4 harg4 hc0 hc1 x0 x1).2.1, y ∈ pc.1.set :=
  View.cover_of_tiledL (kernelRun5_A c i arg1 harg1 arg2 harg2 arg3 harg3 arg4 harg4 hc0 hc1 x0 x1).2.1 S2048x2048.size (by sl_kernel_rfl) y

/-- What this case leaves in the accumulator. -/
def sout5_A_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) : Vec F S2048x2048 .f32 :=
  VS5_0.read (Elt F) (VS5_0.writes (Elt F) VS5_0.junk (kernelRun5_A c i arg1 harg1 arg2 harg2 arg3 harg3 arg4 harg4 hc0 hc1 x0 x1).2.1)

/-- What this case leaves in the output block (nothing is stored there: a placeholder no one reads). -/
def out5_A_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) : Vec F S2048x2048 .f32 :=
  VO5_2.read (Elt F) (VO5_2.writes (Elt F) VO5_2.junk (kernelRun5_A c i arg1 harg1 arg2 harg2 arg3 harg3 arg4 harg4 hc0 hc1 x0 x1).1)

/-- In this case the stores into the accumulator cover it. -/
theorem scover5_B_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) (y : S2048x2048.Idx) :
    ∃ pc ∈ (kernelRun5_B c i arg1 harg1 arg2 harg2 arg3 harg3 arg4 harg4 hc0 hc1 x0 x1 xs0).2.1, y ∈ pc.1.set :=
  View.cover_of_tiledL (kernelRun5_B c i arg1 harg1 arg2 harg2 arg3 harg3 arg4 harg4 hc0 hc1 x0 x1 xs0).2.1 S2048x2048.size (by sl_kernel_rfl) y

/-- What this case leaves in the accumulator. -/
def sout5_B_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) : Vec F S2048x2048 .f32 :=
  VS5_0.read (Elt F) (VS5_0.writes (Elt F) VS5_0.junk (kernelRun5_B c i arg1 harg1 arg2 harg2 arg3 harg3 arg4 harg4 hc0 hc1 x0 x1 xs0).2.1)

/-- What this case leaves in the output block (nothing is stored there: a placeholder no one reads). -/
def out5_B_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) : Vec F S2048x2048 .f32 :=
  VO5_2.read (Elt F) (VO5_2.writes (Elt F) VO5_2.junk (kernelRun5_B c i arg1 harg1 arg2 harg2 arg3 harg3 arg4 harg4 hc0 hc1 x0 x1 xs0).1)

/-- In this case the stores into the accumulator cover it. -/
theorem scover5_C_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) (y : S2048x2048.Idx) :
    ∃ pc ∈ (kernelRun5_C c i arg1 harg1 arg2 harg2 arg3 harg3 arg4 harg4 hc0 hc1 x0 x1 xs0).2.1, y ∈ pc.1.set :=
  View.cover_of_tiledL (kernelRun5_C c i arg1 harg1 arg2 harg2 arg3 harg3 arg4 harg4 hc0 hc1 x0 x1 xs0).2.1 S2048x2048.size (by sl_kernel_rfl) y

/-- What this case leaves in the accumulator. -/
def sout5_C_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) : Vec F S2048x2048 .f32 :=
  VS5_0.read (Elt F) (VS5_0.writes (Elt F) VS5_0.junk (kernelRun5_C c i arg1 harg1 arg2 harg2 arg3 harg3 arg4 harg4 hc0 hc1 x0 x1 xs0).2.1)

/-- What this case leaves in the output block. -/
def out5_C_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) : Vec F S2048x2048 .f32 :=
  VO5_2.read (Elt F) (VO5_2.writes (Elt F) VO5_2.junk (kernelRun5_C c i arg1 harg1 arg2 harg2 arg3 harg3 arg4 harg4 hc0 hc1 x0 x1 xs0).1)

/-- At the last point the store into the output block covers it. -/
theorem cover5_C_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) (y : S2048x2048.Idx) :
    ∃ pc ∈ (kernelRun5_C c i arg1 harg1 arg2 harg2 arg3 harg3 arg4 harg4 hc0 hc1 x0 x1 xs0).1, y ∈ pc.1.set :=
  View.cover_of_tiledL (kernelRun5_C c i arg1 harg1 arg2 harg2 arg3 harg3 arg4 harg4 hc0 hc1 x0 x1 xs0).1 S2048x2048.size (by sl_kernel_rfl) y

/-! ## What the output block and the accumulator hold after each point -/

/-- THE ACCUMULATION, as a pair (output block, accumulator): at point 0 the first case's contents; at a later point the
    case that point is in, run over what the point before left in the accumulator. -/
def outsAt5 (c : Dev nD) : (n : ℕ) → n < cfg5.N → Vec F S2048x2048 .f32 × Vec F S2048x2048 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 128 = 0 then
      if h1 : (n + 1) % 128 = 127 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 128 = 127 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2)

theorem outsAt5_A (c : Dev nD) (t : Fin cfg5.N) (h0 : t.val % 128 = 0) (h1 : ¬t.val % 128 = 127) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

theorem outsAt5_B (c : Dev nD) (t : Fin cfg5.N) (h0 : ¬t.val % 128 = 0) (h1 : ¬t.val % 128 = 127) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 128 = 0) (h1 : t.val % 128 = 127) :
    outsAt5 V c t.val t.isLt = (out5_C_2 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards what
    the point before left in it. Every other buffer private to a kernel region rides along unopened, and the generator
    register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The region's proof data on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: which case the point is in is read off its position; the invariant hands the body the
    accumulator at what the point before left (at anything, at the first point) and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 128 := lt_of_lt_of_eq t.isLt (show cfg5.N = 128 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val % 128 = 0
  · by_cases h1 : t.val % 128 = 127
    · exfalso; omega
    ·
      rw [Dat.leavesExact_idle (dat5 V c) 2 t (idleAt5_2_A t ((hcond5_0 t).mpr h0) (fun h => h1 ((hcond5_1 t).mp h))) (noFlush5_2_A t ((hcond5_0 t).mpr h0) (fun h => h1 ((hcond5_1 t).mp h)))]
      rw [outsAt5_A V c t h0 h1]
      unfold sout5_A_0; (try dsimp only)
      have hz : t.val = 0 := by omega
      rw [PhiS5_castSucc V c t, PhiS5_zero V c _ _ hz, PhiA5_eq]
      iintro ⟨⟨⟨HS0, Hrest⟩, Hg⟩, Ho, ⟨%d0, H0⟩, ⟨%d1, H1⟩, ⟨%d2, H2⟩⟩
      iapply ((kernelRun5_A c (grid5.coords t) _ _ _ _ _ _ _ _ ((hcond5_0 t).mpr h0) (fun h => h1 ((hcond5_1 t).mp h)) (iblk5 V c 0 t) (iblk5 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_A_0 c _ _ _ _ _ _ _ _ _ _ _ _ _)
          iexact Hrest
        iexact Hg
      isplitl [Ho]; · iexact Ho
      isplitl [H0]; · iexact H0
      isplitl [H1]; · iexact H1
      iexists _; iexact H2
  · by_cases h1 : t.val % 128 = 127
    ·
      rw [show (dat5 V c).leavesExact 2 t = owns (c : Thread nD τ) (ms5_2 t) fullShare ((dat5 V c).after 2 t) from by
        unfold Dat.leavesExact; rw [liveAt5_2_C t (fun h => h0 ((hcond5_0 t).mp h)) ((hcond5_1 t).mpr h1)], after5_2]
      rw [outsAt5_C V c t h0 h1]
      unfold out5_C_2 sout5_C_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩⟩
      iapply ((kernelRun5_C c (grid5.coords t) _ _ _ _ _ _ _ _ (fun h => h0 ((hcond5_0 t).mp h)) ((hcond5_1 t).mpr h1) (iblk5 V c 0 t) (iblk5 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C_2 c _ _ _ _ _ _ _ _ _ _ _ _ _ _)
    ·
      rw [Dat.leavesExact_idle (dat5 V c) 2 t (idleAt5_2_B t (fun h => h0 ((hcond5_0 t).mp h)) (fun h => h1 ((hcond5_1 t).mp h))) (noFlush5_2_B t (fun h => h0 ((hcond5_0 t).mp h)) (fun h => h1 ((hcond5_1 t).mp h)))]
      rw [outsAt5_B V c t h0 h1]
      unfold sout5_B_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩⟩
      iapply ((kernelRun5_B c (grid5.coords t) _ _ _ _ _ _ _ _ (fun h => h0 ((hcond5_0 t).mp h)) (fun h => h1 ((hcond5_1 t).mp h)) (iblk5 V c 0 t) (iblk5 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_B_0 c _ _ _ _ _ _ _ _ _ _ _ _ _ _)
          iexact Hrest
        iexact Hg
      isplitl [Ho]; · iexact Ho
      isplitl [H0]; · iexact H0
      isplitl [H1]; · iexact H1
      iexists _; iexact H2

/-- The body's specification at every grid point. -/
theorem body_obligation5 (c : Dev nD) : BodyObligation (dat5 (F := F) V c) (defs₀ (F := F)) Variants.none () Set.univ := fun t => by
  rw [bigSep_W5, bigSep_W5]
  exact sound_body5 V c t

/-- After any point the invariant gives back the accumulator at some contents. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 128 := N_5; omega), PhiA5_eq]
  iintro ⟨⟨HS0, Hrest⟩, Hg⟩
  isplitl [HS0 Hrest]
  · isplitl [HS0]
    · iexists _; iexact HS0
    iexact Hrest
  iexact Hg

end Cert.Kernel.Fr

end
-- ==== Proof.K.Run.lean ====
/-
  The whole program as a run: the contents of every buffer at each boundary between two items of the program (a
  stretch of host operations applies them; a kernel region leaves each of its arrays at what its grid points wrote
  back and every other buffer as it was), each region entered from and left at these contents, and the conclusion:
  every execution ends, faults nowhere, and ends with every buffer at the last boundary's contents.
-/
import proofs.«127111_j36644660969674_2_alg».proof.Proof.Gen.Kernel.Launch
import proofs.«127111_j36644660969674_2_alg».proof.Proof.Gen.Kernel.Skeleton
import proofs.«127111_j36644660969674_2_alg».proof.Proof.Gen.Kernel.Points
import proofs.«127111_j36644660969674_2_alg».proof.Proof.K.Body0
import proofs.«127111_j36644660969674_2_alg».proof.Proof.K.Body1
import proofs.«127111_j36644660969674_2_alg».proof.Proof.K.Body2
import proofs.«127111_j36644660969674_2_alg».proof.Proof.K.Body3
import proofs.«127111_j36644660969674_2_alg».proof.Proof.K.Body4
import proofs.«127111_j36644660969674_2_alg».proof.Proof.K.Body6
import proofs.«127111_j36644660969674_2_alg».proof.Proof.K.Body5b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wb0 : Dev nD → Valuation τ sig (Elt F) := fun c b => (s₀ m ρ).mem ((c : Dev nD), b)
/-- After the host operations before region 0: the region's entry contents. -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At region 0's exit: its arrays at what the grid points wrote back, every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vx2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vx2 m ρ c (Pipeline.arrRef spec0 w) :=
  (Wb2_arr m ρ c w).symm
theorem hrest0 (c : Dev nD) : ∀ b, b ∉ Finset.univ.image (Pipeline.arrRef spec0) → Vx2 m ρ c b = Vb1 m ρ c b :=
  fun b hb => Wb2_of_ne m ρ c b fun w e => hb (Finset.mem_image.mpr ⟨w, Finset.mem_univ _, e⟩)

/-- After the host operations before region 1: the region's entry contents. -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At region 1's exit: its arrays at what the grid points wrote back, every other buffer as entered. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vx4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vx4 m ρ c (Pipeline.arrRef spec1 w) :=
  (Wb4_arr m ρ c w).symm
theorem hrest1 (c : Dev nD) : ∀ b, b ∉ Finset.univ.image (Pipeline.arrRef spec1) → Vx4 m ρ c b = Vb3 m ρ c b :=
  fun b hb => Wb4_of_ne m ρ c b fun w e => hb (Finset.mem_image.mpr ⟨w, Finset.mem_univ _, e⟩)

/-- After the host operations before region 2: the region's entry contents. -/
abbrev Wb5 : Dev nD → Valuation τ sig (Elt F) := fun c => StableHlo.after hostOps2 (Wb4 m ρ c)
abbrev Vb5 : (c : Dev nD) → (b : Ref sig .tc) → Buf (Elt F) ((c : Thread nD τ).loc b) := fun c b => Wb5 m ρ c b
/-- At region 2's exit: its arrays at what the grid points wrote back, every other buffer as entered. -/
def Wb6 (c : Dev nD) : Valuation τ sig (Elt F) :=
  Pipeline.withArrays spec2 c (Wb5 m ρ c) fun w => (dat2 (Vb5 m ρ) c).arrAt w cfg2.N
theorem Wb6_arr (c : Dev nD) (w : Fin cfg2.W) :
    Wb6 m ρ c (Proc.devRef .tc (Pipeline.arrRef spec2 w)) = (dat2 (Vb5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
abbrev Vx6 : (c : Dev nD) → (b : Ref sig .tc) → Buf (Elt F) ((c : Thread nD τ).loc b) := fun c b => Wb6 m ρ c b
theorem hF2 (c : Dev nD) (w : Fin cfg2.W) : (dat2 (Vb5 m ρ) c).arrAt w cfg2.N = Vx6 m ρ c (Pipeline.arrRef spec2 w) :=
  (Wb6_arr m ρ c w).symm
theorem hrest2 (c : Dev nD) : ∀ b, b ∉ Finset.univ.image (Pipeline.arrRef spec2) → Vx6 m ρ c b = Vb5 m ρ c b :=
  fun b hb => Wb6_of_ne m ρ c b fun w e => hb (Finset.mem_image.mpr ⟨w, Finset.mem_univ _, e⟩)

abbrev Vb6 : (c : Dev nD) → (b : Ref sig .tc) → Buf (Elt F) ((c : Thread nD τ).loc b) := fun c b => Wb6 m ρ c b
/-- At region 3's exit: its arrays at what the grid points wrote back, every other buffer as entered. -/
def Wb7 (c : Dev nD) : Valuation τ sig (Elt F) :=
  Pipeline.withArrays spec3 c (Wb6 m ρ c) fun w => (dat3 (Vb6 m ρ) c).arrAt w cfg3.N
theorem Wb7_arr (c : Dev nD) (w : Fin cfg3.W) :
    Wb7 m ρ c (Proc.devRef .tc (Pipeline.arrRef spec3 w)) = (dat3 (Vb6 m ρ) c).arrAt w cfg3.N := by
  unfold Wb7; exact Pipeline.withArrays_arr spec3 launch3.win.arr_inj c _ _ w
theorem Wb7_of_ne (c : Dev nD) (b : Ref sig .tc) (hb : ∀ w, Pipeline.arrRef spec3 w ≠ b) :
    Wb7 m ρ c (Proc.devRef .tc b) = Wb6 m ρ c (Proc.devRef .tc b) := by
  unfold Wb7; exact Pipeline.withArrays_of_ne spec3 c _ _ b hb
abbrev Vx7 : (c : Dev nD) → (b : Ref sig .tc) → Buf (Elt F) ((c : Thread nD τ).loc b) := fun c b => Wb7 m ρ c b
theorem hF3 (c : Dev nD) (w : Fin cfg3.W) : (dat3 (Vb6 m ρ) c).arrAt w cfg3.N = Vx7 m ρ c (Pipeline.arrRef spec3 w) :=
  (Wb7_arr m ρ c w).symm
theorem hrest3 (c : Dev nD) : ∀ b, b ∉ Finset.univ.image (Pipeline.arrRef spec3) → Vx7 m ρ c b = Vb6 m ρ c b :=
  fun b hb => Wb7_of_ne m ρ c b fun w e => hb (Finset.mem_image.mpr ⟨w, Finset.mem_univ _, e⟩)

abbrev Vb7 : (c : Dev nD) → (b : Ref sig .tc) → Buf (Elt F) ((c : Thread nD τ).loc b) := fun c b => Wb7 m ρ c b
/-- At region 4's exit: its arrays at what the grid points wrote back, every other buffer as entered. -/
def Wb8 (c : Dev nD) : Valuation τ sig (Elt F) :=
  Pipeline.withArrays spec4 c (Wb7 m ρ c) fun w => (dat4 (Vb7 m ρ) c).arrAt w cfg4.N
theorem Wb8_arr (c : Dev nD) (w : Fin cfg4.W) :
    Wb8 m ρ c (Proc.devRef .tc (Pipeline.arrRef spec4 w)) = (dat4 (Vb7 m ρ) c).arrAt w cfg4.N := by
  unfold Wb8; exact Pipeline.withArrays_arr spec4 launch4.win.arr_inj c _ _ w
theorem Wb8_of_ne (c : Dev nD) (b : Ref sig .tc) (hb : ∀ w, Pipeline.arrRef spec4 w ≠ b) :
    Wb8 m ρ c (Proc.devRef .tc b) = Wb7 m ρ c (Proc.devRef .tc b) := by
  unfold Wb8; exact Pipeline.withArrays_of_ne spec4 c _ _ b hb
abbrev Vx8 : (c : Dev nD) → (b : Ref sig .tc) → Buf (Elt F) ((c : Thread nD τ).loc b) := fun c b => Wb8 m ρ c b
theorem hF4 (c : Dev nD) (w : Fin cfg4.W) : (dat4 (Vb7 m ρ) c).arrAt w cfg4.N = Vx8 m ρ c (Pipeline.arrRef spec4 w) :=
  (Wb8_arr m ρ c w).symm
theorem hrest4 (c : Dev nD) : ∀ b, b ∉ Finset.univ.image (Pipeline.arrRef spec4) → Vx8 m ρ c b = Vb7 m ρ c b :=
  fun b hb => Wb8_of_ne m ρ c b fun w e => hb (Finset.mem_image.mpr ⟨w, Finset.mem_univ _, e⟩)

abbrev Vb8 : (c : Dev nD) → (b : Ref sig .tc) → Buf (Elt F) ((c : Thread nD τ).loc b) := fun c b => Wb8 m ρ c b
/-- At region 5's exit: its arrays at what the grid points wrote back, every other buffer as entered. -/
def Wb9 (c : Dev nD) : Valuation τ sig (Elt F) :=
  Pipeline.withArrays spec5 c (Wb8 m ρ c) fun w => (dat5 (Vb8 m ρ) c).arrAt w cfg5.N
theorem Wb9_arr (c : Dev nD) (w : Fin cfg5.W) :
    Wb9 m ρ c (Proc.devRef .tc (Pipeline.arrRef spec5 w)) = (dat5 (Vb8 m ρ) c).arrAt w cfg5.N := by
  unfold Wb9; exact Pipeline.withArrays_arr spec5 launch5.win.arr_inj c _ _ w
theorem Wb9_of_ne (c : Dev nD) (b : Ref sig .tc) (hb : ∀ w, Pipeline.arrRef spec5 w ≠ b) :
    Wb9 m ρ c (Proc.devRef .tc b) = Wb8 m ρ c (Proc.devRef .tc b) := by
  unfold Wb9; exact Pipeline.withArrays_of_ne spec5 c _ _ b hb
abbrev Vx9 : (c : Dev nD) → (b : Ref sig .tc) → Buf (Elt F) ((c : Thread nD τ).loc b) := fun c b => Wb9 m ρ c b
theorem hF5 (c : Dev nD) (w : Fin cfg5.W) : (dat5 (Vb8 m ρ) c).arrAt w cfg5.N = Vx9 m ρ c (Pipeline.arrRef spec5 w) :=
  (Wb9_arr m ρ c w).symm
theorem hrest5 (c : Dev nD) : ∀ b, b ∉ Finset.univ.image (Pipeline.arrRef spec5) → Vx9 m ρ c b = Vb8 m ρ c b :=
  fun b hb => Wb9_of_ne m ρ c b fun w e => hb (Finset.mem_image.mpr ⟨w, Finset.mem_univ _, e⟩)

/-- After the host operations before region 6: the region's entry contents. -/
abbrev Wb10 : Dev nD → Valuation τ sig (Elt F) := fun c => StableHlo.after hostOps6 (Wb9 m ρ c)
abbrev Vb10 : (c : Dev nD) → (b : Ref sig .tc) → Buf (Elt F) ((c : Thread nD τ).loc b) := fun c b => Wb10 m ρ c b
/-- At region 6's exit: its arrays at what the grid points wrote back, every other buffer as entered. -/
def Wb11 (c : Dev nD) : Valuation τ sig (Elt F) :=
  Pipeline.withArrays spec6 c (Wb10 m ρ c) fun w => (dat6 (Vb10 m ρ) c).arrAt w cfg6.N
theorem Wb11_arr (c : Dev nD) (w : Fin cfg6.W) :
    Wb11 m ρ c (Proc.devRef .tc (Pipeline.arrRef spec6 w)) = (dat6 (Vb10 m ρ) c).arrAt w cfg6.N := by
  unfold Wb11; exact Pipeline.withArrays_arr spec6 launch6.win.arr_inj c _ _ w
theorem Wb11_of_ne (c : Dev nD) (b : Ref sig .tc) (hb : ∀ w, Pipeline.arrRef spec6 w ≠ b) :
    Wb11 m ρ c (Proc.devRef .tc b) = Wb10 m ρ c (Proc.devRef .tc b) := by
  unfold Wb11; exact Pipeline.withArrays_of_ne spec6 c _ _ b hb
abbrev Vx11 : (c : Dev nD) → (b : Ref sig .tc) → Buf (Elt F) ((c : Thread nD τ).loc b) := fun c b => Wb11 m ρ c b
theorem hF6 (c : Dev nD) (w : Fin cfg6.W) : (dat6 (Vb10 m ρ) c).arrAt w cfg6.N = Vx11 m ρ c (Pipeline.arrRef spec6 w) :=
  (Wb11_arr m ρ c w).symm
theorem hrest6 (c : Dev nD) : ∀ b, b ∉ Finset.univ.image (Pipeline.arrRef spec6) → Vx11 m ρ c b = Vb10 m ρ c b :=
  fun b hb => Wb11_of_ne m ρ c b fun w e => hb (Finset.mem_image.mpr ⟨w, Finset.mem_univ _, e⟩)

/-! ## The proof data of all seven regions, and what rides beside the buffers -/

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
  | ⟨2, _⟩ => fun c => dat2 (Vb5 m ρ) c
  | ⟨3, _⟩ => fun c => dat3 (Vb6 m ρ) c
  | ⟨4, _⟩ => fun c => dat4 (Vb7 m ρ) c
  | ⟨5, _⟩ => fun c => dat5 (Vb8 m ρ) c
  | ⟨6, _⟩ => fun c => dat6 (Vb10 m ρ) c
abbrev 𝒱₀ : Variants := Variants.none
abbrev L : GSem nD τ sig → Finset Unit := fun _ => ∅
abbrev lv : GSem nD τ sig → Unit → ℕ := fun _ _ => 0
/-- Beside the buffers: the random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps6_fresh' : (hostOps6 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary: every buffer at the last contents, the random-number register at some state. -/
abbrev Tₙ (c : Dev nD) : sProp 𝕄 := iprop(StableHlo.held (c : Thread nD τ) (Pipeline.ucRefs τ sig) (Wb11 m ρ c) ∗ ∃ r, prngReg c r)

/-! ## The regions, each entered from one boundary's contents and left at the next -/

set_option backward.isDefEq.respectTransparency.types false in
/-- Region 0: its arrays are split out of the buffers held at entry and put back at the exit contents; the random-number
    register passes through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vx2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: its arrays are split out of the buffers held at entry and put back at the exit contents; the random-number
    register passes through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vx4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: its arrays are split out of the buffers held at entry and put back at the exit contents; the random-number
    register passes through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m ρ) c).loose
  hwaits := Pipeline.hwaits_of_owed_zero _ _ _ _ L lv 2 fun _ _ => rfl
  pre c := iprop(StableHlo.held (c : Thread nD τ) (Pipeline.ucRefs τ sig) (Wb5 m ρ c) ∗ R c)
  post c := iprop(StableHlo.held (c : Thread nD τ) (Pipeline.ucRefs τ sig) (Wb6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vb5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vb5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: its arrays are split out of the buffers held at entry and put back at the exit contents; the random-number
    register passes through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vb6 m ρ) c).loose
  hwaits := Pipeline.hwaits_of_owed_zero _ _ _ _ L lv 3 fun _ _ => rfl
  pre c := iprop(StableHlo.held (c : Thread nD τ) (Pipeline.ucRefs τ sig) (Wb6 m ρ c) ∗ R c)
  post c := iprop(StableHlo.held (c : Thread nD τ) (Pipeline.ucRefs τ sig) (Wb7 m ρ c) ∗ R c)
  X c := iprop(∃ r, prngReg c r)
  Y c := iprop(∃ r, prngReg c r)
  Z c := Pipeline.unscopedRest (Ix := Unit) (Name := ℕ) (U := UR sig nD τ) (Lvl := ℕ) spec3 c (Vb6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vb6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vb6 m ρ c) (Vx7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: its arrays are split out of the buffers held at entry and put back at the exit contents; the random-number
    register passes through the region's invariant; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vb7 m ρ) c).loose
  hwaits := Pipeline.hwaits_of_owed_zero _ _ _ _ L lv 4 fun _ _ => rfl
  pre c := iprop(StableHlo.held (c : Thread nD τ) (Pipeline.ucRefs τ sig) (Wb7 m ρ c) ∗ R c)
  post c := iprop(StableHlo.held (c : Thread nD τ) (Pipeline.ucRefs τ sig) (Wb8 m ρ c) ∗ R c)
  X c := iprop(∃ r, prngReg c r)
  Y c := iprop(∃ r, prngReg c r)
  Z c := Pipeline.unscopedRest (Ix := Unit) (Name := ℕ) (U := UR sig nD τ) (Lvl := ℕ) spec4 c (Vb7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vb7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vb7 m ρ c) (Vx8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: its arrays are split out of the buffers held at entry and put back at the exit contents; the random-number
    register passes through the region's invariant; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vb8 m ρ) c).loose
  hwaits := Pipeline.hwaits_of_owed_zero _ _ _ _ L lv 5 fun _ _ => rfl
  pre c := iprop(StableHlo.held (c : Thread nD τ) (Pipeline.ucRefs τ sig) (Wb8 m ρ c) ∗ R c)
  post c := iprop(StableHlo.held (c : Thread nD τ) (Pipeline.ucRefs τ sig) (Wb9 m ρ c) ∗ R c)
  X c := iprop(∃ r, prngReg c r)
  Y c := iprop(∃ r, prngReg c r)
  Z c := Pipeline.unscopedRest (Ix := Unit) (Name := ℕ) (U := UR sig nD τ) (Lvl := ℕ) spec5 c (Vb8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vb8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    refine (hout5 (Vb8 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vb8 m ρ c) (Vx9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: its arrays are split out of the buffers held at entry and put back at the exit contents; the random-number
    register passes through the region's invariant; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vb10 m ρ) c).loose
  hwaits := Pipeline.hwaits_of_owed_zero _ _ _ _ L lv 6 fun _ _ => rfl
  pre c := iprop(StableHlo.held (c : Thread nD τ) (Pipeline.ucRefs τ sig) (Wb10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (Vb10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vb10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vb10 m ρ c) (Vx11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its eleven items, and the run -/

abbrev segs : List (Pipeline.Seg (pcfgs (F := F)) adm (pdats m ρ) () defs₀ 𝒱₀ L lv) :=
  [ .host (hseg hostOps0 hostOps0_sub hostOps0_fresh' (Wb0 m ρ)),
    .region (reg0 m ρ),
    .host (hseg hostOps1 hostOps1_sub hostOps1_fresh' (Wb2 m ρ)),
    .region (reg1 m ρ),
    .host (hseg hostOps2 hostOps2_sub hostOps2_fresh' (Wb4 m ρ)),
    .region (reg2 m ρ),
    .region (reg3 m ρ),
    .region (reg4 m ρ),
    .region (reg5 m ρ),
    .host (hseg hostOps6 hostOps6_sub hostOps6_fresh' (Wb9 m ρ)),
    .region (reg6 m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds each buffer that is not private to a kernel region at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb11 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb11 m ρ c) s')
      isplitl [Hh] <;> iassumption)
    (hQ := fun s h c => h c)

end Cert.Kernel.Fr

end
-- ==== Proof.K.Chain.lean ====
/-
  The buffers' contents followed through the program: an argument array is written by nothing, so at every boundary it
  holds its launch contents; an intermediate array holds, at the entry of the region that reads it, what the region
  that wrote it left (or what the host operation that made it computed).
-/
import proofs.«127111_j36644660969674_2_alg».proof.Proof.K.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Val

open Cert.Kernel Cert.Kernel.Gen
open Idealize.ShloMosaic Idealize.ShloMosaic.TcCoe Idealize.ShloMosaic.ValueIdx Idealize.SL.Sem

open Cert.Kernel.Fr
open Idealize.ShloMosaic.Pipeline (Dat)

variable {F : FTy → Type} [FloatOps F]
variable (m : (ℓ : Loc nD τ sig) → Buf (Elt F) ℓ) (ρ : Dev nD → PrngReg) (c : Dev nD)

/-! ## A stretch of host operations changes only the buffers it writes -/

theorem host1_keep (Wv : Valuation τ sig (Elt F)) (b : Ref sig .tc) (hb : b ∉ ([main_v0] : List (Ref sig .tc))) :
    StableHlo.after hostOps0 Wv (Proc.devRef .tc b) = Wv (Proc.devRef .tc b) :=
  StableHlo.after_of_forall_not_mem (b := Proc.devRef .tc b) _ _ (List.forall_iff_forall_mem.mp (by
    simp only [hostOps0, List.Forall, StableHlo.reshape_writes, StableHlo.unary_writes, Finset.mem_singleton]
    exact StableHlo.devRef_ne_of_ne (fun e => hb (e ▸ List.mem_cons_self))))

theorem host3_keep (Wv : Valuation τ sig (Elt F)) (b : Ref sig .tc) (hb : b ∉ ([main_v2] : List (Ref sig .tc))) :
    StableHlo.after hostOps1 Wv (Proc.devRef .tc b) = Wv (Proc.devRef .tc b) :=
  StableHlo.after_of_forall_not_mem (b := Proc.devRef .tc b) _ _ (List.forall_iff_forall_mem.mp (by
    simp only [hostOps1, List.Forall, StableHlo.reshape_writes, StableHlo.unary_writes, Finset.mem_singleton]
    exact StableHlo.devRef_ne_of_ne (fun e => hb (e ▸ List.mem_cons_self))))

theorem host5_keep (Wv : Valuation τ sig (Elt F)) (b : Ref sig .tc) (hb : b ∉ ([main_v4] : List (Ref sig .tc))) :
    StableHlo.after hostOps2 Wv (Proc.devRef .tc b) = Wv (Proc.devRef .tc b) :=
  StableHlo.after_of_forall_not_mem (b := Proc.devRef .tc b) _ _ (List.forall_iff_forall_mem.mp (by
    simp only [hostOps2, List.Forall, StableHlo.reshape_writes, StableHlo.unary_writes, Finset.mem_singleton]
    exact StableHlo.devRef_ne_of_ne (fun e => hb (e ▸ List.mem_cons_self))))

theorem host10_keep (Wv : Valuation τ sig (Elt F)) (b : Ref sig .tc) (hb : b ∉ ([main_v9, main_v10] : List (Ref sig .tc))) :
    StableHlo.after hostOps6 Wv (Proc.devRef .tc b) = Wv (Proc.devRef .tc b) :=
  StableHlo.after_of_forall_not_mem (b := Proc.devRef .tc b) _ _ (List.forall_iff_forall_mem.mp (by
    simp only [hostOps6, List.Forall, StableHlo.reshape_writes, StableHlo.unary_writes, Finset.mem_singleton]
    exact ⟨StableHlo.devRef_ne_of_ne (fun e => hb (e ▸ List.mem_cons_self)), StableHlo.devRef_ne_of_ne (fun e => hb (e ▸ List.mem_cons_of_mem _ List.mem_cons_self))⟩))

/-! ## The argument arrays, at every boundary -/
theorem Wb1_arg0 : Wb1 m ρ c (Proc.devRef .tc main_arg0) = m ((c : Thread nD τ).loc main_arg0) :=
  (host1_keep (Wb0 m ρ c) main_arg0 (by decide)).trans rfl
theorem Wb2_arg0 : Wb2 m ρ c (Proc.devRef .tc main_arg0) = m ((c : Thread nD τ).loc main_arg0) :=
  (Wb2_of_ne m ρ c main_arg0 (by decide)).trans (Wb1_arg0 m ρ c)
theorem Wb3_arg0 : Wb3 m ρ c (Proc.devRef .tc main_arg0) = m ((c : Thread nD τ).loc main_arg0) :=
  (host3_keep (Wb2 m ρ c) main_arg0 (by decide)).trans (Wb2_arg0 m ρ c)
theorem Wb4_arg0 : Wb4 m ρ c (Proc.devRef .tc main_arg0) = m ((c : Thread nD τ).loc main_arg0) :=
  (Wb4_of_ne m ρ c main_arg0 (by decide)).trans (Wb3_arg0 m ρ c)
theorem Wb5_arg0 : Wb5 m ρ c (Proc.devRef .tc main_arg0) = m ((c : Thread nD τ).loc main_arg0) :=
  (host5_keep (Wb4 m ρ c) main_arg0 (by decide)).trans (Wb4_arg0 m ρ c)
theorem Wb6_arg0 : Wb6 m ρ c (Proc.devRef .tc main_arg0) = m ((c : Thread nD τ).loc main_arg0) :=
  ((Wb6_arr m ρ c 0).trans (((dat2 (Vb5 m ρ) c).arrAt_in 0 rfl _).trans (A_eq2 (Vb5 m ρ) c 0))).trans (Wb5_arg0 m ρ c)
theorem Wb7_arg0 : Wb7 m ρ c (Proc.devRef .tc main_arg0) = m ((c : Thread nD τ).loc main_arg0) :=
  (Wb7_of_ne m ρ c main_arg0 (by decide)).trans (Wb6_arg0 m ρ c)
theorem Wb8_arg0 : Wb8 m ρ c (Proc.devRef .tc main_arg0) = m ((c : Thread nD τ).loc main_arg0) :=
  (Wb8_of_ne m ρ c main_arg0 (by decide)).trans (Wb7_arg0 m ρ c)
theorem Wb9_arg0 : Wb9 m ρ c (Proc.devRef .tc main_arg0) = m ((c : Thread nD τ).loc main_arg0) :=
  ((Wb9_arr m ρ c 1).trans (((dat5 (Vb8 m ρ) c).arrAt_in 1 rfl _).trans (A_eq5 (Vb8 m ρ) c 1))).trans (Wb8_arg0 m ρ c)
theorem Wb10_arg0 : Wb10 m ρ c (Proc.devRef .tc main_arg0) = m ((c : Thread nD τ).loc main_arg0) :=
  (host10_keep (Wb9 m ρ c) main_arg0 (by decide)).trans (Wb9_arg0 m ρ c)
theorem Wb11_arg0 : Wb11 m ρ c (Proc.devRef .tc main_arg0) = m ((c : Thread nD τ).loc main_arg0) :=
  (Wb11_of_ne m ρ c main_arg0 (by decide)).trans (Wb10_arg0 m ρ c)
theorem Wb1_arg1 : Wb1 m ρ c (Proc.devRef .tc main_arg1) = m ((c : Thread nD τ).loc main_arg1) :=
  (host1_keep (Wb0 m ρ c) main_arg1 (by decide)).trans rfl
theorem Wb2_arg1 : Wb2 m ρ c (Proc.devRef .tc main_arg1) = m ((c : Thread nD τ).loc main_arg1) :=
  ((Wb2_arr m ρ c 0).trans (((dat0 (Vb1 m ρ) c).arrAt_in 0 rfl _).trans (A_eq0 (Vb1 m ρ) c 0))).trans (Wb1_arg1 m ρ c)
theorem Wb3_arg1 : Wb3 m ρ c (Proc.devRef .tc main_arg1) = m ((c : Thread nD τ).loc main_arg1) :=
  (host3_keep (Wb2 m ρ c) main_arg1 (by decide)).trans (Wb2_arg1 m ρ c)
theorem Wb4_arg1 : Wb4 m ρ c (Proc.devRef .tc main_arg1) = m ((c : Thread nD τ).loc main_arg1) :=
  (Wb4_of_ne m ρ c main_arg1 (by decide)).trans (Wb3_arg1 m ρ c)
theorem Wb5_arg1 : Wb5 m ρ c (Proc.devRef .tc main_arg1) = m ((c : Thread nD τ).loc main_arg1) :=
  (host5_keep (Wb4 m ρ c) main_arg1 (by decide)).trans (Wb4_arg1 m ρ c)
theorem Wb6_arg1 : Wb6 m ρ c (Proc.devRef .tc main_arg1) = m ((c : Thread nD τ).loc main_arg1) :=
  (Wb6_of_ne m ρ c main_arg1 (by decide)).trans (Wb5_arg1 m ρ c)
theorem Wb7_arg1 : Wb7 m ρ c (Proc.devRef .tc main_arg1) = m ((c : Thread nD τ).loc main_arg1) :=
  (Wb7_of_ne m ρ c main_arg1 (by decide)).trans (Wb6_arg1 m ρ c)
theorem Wb8_arg1 : Wb8 m ρ c (Proc.devRef .tc main_arg1) = m ((c : Thread nD τ).loc main_arg1) :=
  (Wb8_of_ne m ρ c main_arg1 (by decide)).trans (Wb7_arg1 m ρ c)
theorem Wb9_arg1 : Wb9 m ρ c (Proc.devRef .tc main_arg1) = m ((c : Thread nD τ).loc main_arg1) :=
  (Wb9_of_ne m ρ c main_arg1 (by decide)).trans (Wb8_arg1 m ρ c)
theorem Wb10_arg1 : Wb10 m ρ c (Proc.devRef .tc main_arg1) = m ((c : Thread nD τ).loc main_arg1) :=
  (host10_keep (Wb9 m ρ c) main_arg1 (by decide)).trans (Wb9_arg1 m ρ c)
theorem Wb11_arg1 : Wb11 m ρ c (Proc.devRef .tc main_arg1) = m ((c : Thread nD τ).loc main_arg1) :=
  (Wb11_of_ne m ρ c main_arg1 (by decide)).trans (Wb10_arg1 m ρ c)
theorem Wb1_arg2 : Wb1 m ρ c (Proc.devRef .tc main_arg2) = m ((c : Thread nD τ).loc main_arg2) :=
  (host1_keep (Wb0 m ρ c) main_arg2 (by decide)).trans rfl
theorem Wb2_arg2 : Wb2 m ρ c (Proc.devRef .tc main_arg2) = m ((c : Thread nD τ).loc main_arg2) :=
  (Wb2_of_ne m ρ c main_arg2 (by decide)).trans (Wb1_arg2 m ρ c)
theorem Wb3_arg2 : Wb3 m ρ c (Proc.devRef .tc main_arg2) = m ((c : Thread nD τ).loc main_arg2) :=
  (host3_keep (Wb2 m ρ c) main_arg2 (by decide)).trans (Wb2_arg2 m ρ c)
theorem Wb4_arg2 : Wb4 m ρ c (Proc.devRef .tc main_arg2) = m ((c : Thread nD τ).loc main_arg2) :=
  ((Wb4_arr m ρ c 0).trans (((dat1 (Vb3 m ρ) c).arrAt_in 0 rfl _).trans (A_eq1 (Vb3 m ρ) c 0))).trans (Wb3_arg2 m ρ c)
theorem Wb5_arg2 : Wb5 m ρ c (Proc.devRef .tc main_arg2) = m ((c : Thread nD τ).loc main_arg2) :=
  (host5_keep (Wb4 m ρ c) main_arg2 (by decide)).trans (Wb4_arg2 m ρ c)
theorem Wb6_arg2 : Wb6 m ρ c (Proc.devRef .tc main_arg2) = m ((c : Thread nD τ).loc main_arg2) :=
  (Wb6_of_ne m ρ c main_arg2 (by decide)).trans (Wb5_arg2 m ρ c)
theorem Wb7_arg2 : Wb7 m ρ c (Proc.devRef .tc main_arg2) = m ((c : Thread nD τ).loc main_arg2) :=
  (Wb7_of_ne m ρ c main_arg2 (by decide)).trans (Wb6_arg2 m ρ c)
theorem Wb8_arg2 : Wb8 m ρ c (Proc.devRef .tc main_arg2) = m ((c : Thread nD τ).loc main_arg2) :=
  (Wb8_of_ne m ρ c main_arg2 (by decide)).trans (Wb7_arg2 m ρ c)
theorem Wb9_arg2 : Wb9 m ρ c (Proc.devRef .tc main_arg2) = m ((c : Thread nD τ).loc main_arg2) :=
  (Wb9_of_ne m ρ c main_arg2 (by decide)).trans (Wb8_arg2 m ρ c)
theorem Wb10_arg2 : Wb10 m ρ c (Proc.devRef .tc main_arg2) = m ((c : Thread nD τ).loc main_arg2) :=
  (host10_keep (Wb9 m ρ c) main_arg2 (by decide)).trans (Wb9_arg2 m ρ c)
theorem Wb11_arg2 : Wb11 m ρ c (Proc.devRef .tc main_arg2) = m ((c : Thread nD τ).loc main_arg2) :=
  (Wb11_of_ne m ρ c main_arg2 (by decide)).trans (Wb10_arg2 m ρ c)
theorem Wb1_arg3 : Wb1 m ρ c (Proc.devRef .tc main_arg3) = m ((c : Thread nD τ).loc main_arg3) :=
  (host1_keep (Wb0 m ρ c) main_arg3 (by decide)).trans rfl
theorem Wb2_arg3 : Wb2 m ρ c (Proc.devRef .tc main_arg3) = m ((c : Thread nD τ).loc main_arg3) :=
  (Wb2_of_ne m ρ c main_arg3 (by decide)).trans (Wb1_arg3 m ρ c)
theorem Wb3_arg3 : Wb3 m ρ c (Proc.devRef .tc main_arg3) = m ((c : Thread nD τ).loc main_arg3) :=
  (host3_keep (Wb2 m ρ c) main_arg3 (by decide)).trans (Wb2_arg3 m ρ c)
theorem Wb4_arg3 : Wb4 m ρ c (Proc.devRef .tc main_arg3) = m ((c : Thread nD τ).loc main_arg3) :=
  ((Wb4_arr m ρ c 1).trans (((dat1 (Vb3 m ρ) c).arrAt_in 1 rfl _).trans (A_eq1 (Vb3 m ρ) c 1))).trans (Wb3_arg3 m ρ c)
theorem Wb5_arg3 : Wb5 m ρ c (Proc.devRef .tc main_arg3) = m ((c : Thread nD τ).loc main_arg3) :=
  (host5_keep (Wb4 m ρ c) main_arg3 (by decide)).trans (Wb4_arg3 m ρ c)
theorem Wb6_arg3 : Wb6 m ρ c (Proc.devRef .tc main_arg3) = m ((c : Thread nD τ).loc main_arg3) :=
  ((Wb6_arr m ρ c 1).trans (((dat2 (Vb5 m ρ) c).arrAt_in 1 rfl _).trans (A_eq2 (Vb5 m ρ) c 1))).trans (Wb5_arg3 m ρ c)
theorem Wb7_arg3 : Wb7 m ρ c (Proc.devRef .tc main_arg3) = m ((c : Thread nD τ).loc main_arg3) :=
  (Wb7_of_ne m ρ c main_arg3 (by decide)).trans (Wb6_arg3 m ρ c)
theorem Wb8_arg3 : Wb8 m ρ c (Proc.devRef .tc main_arg3) = m ((c : Thread nD τ).loc main_arg3) :=
  (Wb8_of_ne m ρ c main_arg3 (by decide)).trans (Wb7_arg3 m ρ c)
theorem Wb9_arg3 : Wb9 m ρ c (Proc.devRef .tc main_arg3) = m ((c : Thread nD τ).loc main_arg3) :=
  (Wb9_of_ne m ρ c main_arg3 (by decide)).trans (Wb8_arg3 m ρ c)
theorem Wb10_arg3 : Wb10 m ρ c (Proc.devRef .tc main_arg3) = m ((c : Thread nD τ).loc main_arg3) :=
  (host10_keep (Wb9 m ρ c) main_arg3 (by decide)).trans (Wb9_arg3 m ρ c)
theorem Wb11_arg3 : Wb11 m ρ c (Proc.devRef .tc main_arg3) = m ((c : Thread nD τ).loc main_arg3) :=
  (Wb11_of_ne m ρ c main_arg3 (by decide)).trans (Wb10_arg3 m ρ c)
theorem Wb1_arg4 : Wb1 m ρ c (Proc.devRef .tc main_arg4) = m ((c : Thread nD τ).loc main_arg4) :=
  (host1_keep (Wb0 m ρ c) main_arg4 (by decide)).trans rfl
theorem Wb2_arg4 : Wb2 m ρ c (Proc.devRef .tc main_arg4) = m ((c : Thread nD τ).loc main_arg4) :=
  (Wb2_of_ne m ρ c main_arg4 (by decide)).trans (Wb1_arg4 m ρ c)
theorem Wb3_arg4 : Wb3 m ρ c (Proc.devRef .tc main_arg4) = m ((c : Thread nD τ).loc main_arg4) :=
  (host3_keep (Wb2 m ρ c) main_arg4 (by decide)).trans (Wb2_arg4 m ρ c)
theorem Wb4_arg4 : Wb4 m ρ c (Proc.devRef .tc main_arg4) = m ((c : Thread nD τ).loc main_arg4) :=
  (Wb4_of_ne m ρ c main_arg4 (by decide)).trans (Wb3_arg4 m ρ c)
theorem Wb5_arg4 : Wb5 m ρ c (Proc.devRef .tc main_arg4) = m ((c : Thread nD τ).loc main_arg4) :=
  (host5_keep (Wb4 m ρ c) main_arg4 (by decide)).trans (Wb4_arg4 m ρ c)
theorem Wb6_arg4 : Wb6 m ρ c (Proc.devRef .tc main_arg4) = m ((c : Thread nD τ).loc main_arg4) :=
  (Wb6_of_ne m ρ c main_arg4 (by decide)).trans (Wb5_arg4 m ρ c)
theorem Wb7_arg4 : Wb7 m ρ c (Proc.devRef .tc main_arg4) = m ((c : Thread nD τ).loc main_arg4) :=
  (Wb7_of_ne m ρ c main_arg4 (by decide)).trans (Wb6_arg4 m ρ c)
theorem Wb8_arg4 : Wb8 m ρ c (Proc.devRef .tc main_arg4) = m ((c : Thread nD τ).loc main_arg4) :=
  (Wb8_of_ne m ρ c main_arg4 (by decide)).trans (Wb7_arg4 m ρ c)
theorem Wb9_arg4 : Wb9 m ρ c (Proc.devRef .tc main_arg4) = m ((c : Thread nD τ).loc main_arg4) :=
  (Wb9_of_ne m ρ c main_arg4 (by decide)).trans (Wb8_arg4 m ρ c)
theorem Wb10_arg4 : Wb10 m ρ c (Proc.devRef .tc main_arg4) = m ((c : Thread nD τ).loc main_arg4) :=
  (host10_keep (Wb9 m ρ c) main_arg4 (by decide)).trans (Wb9_arg4 m ρ c)
theorem Wb11_arg4 : Wb11 m ρ c (Proc.devRef .tc main_arg4) = m ((c : Thread nD τ).loc main_arg4) :=
  (Wb11_of_ne m ρ c main_arg4 (by decide)).trans (Wb10_arg4 m ρ c)
theorem Wb1_arg5 : Wb1 m ρ c (Proc.devRef .tc main_arg5) = m ((c : Thread nD τ).loc main_arg5) :=
  (host1_keep (Wb0 m ρ c) main_arg5 (by decide)).trans rfl
theorem Wb2_arg5 : Wb2 m ρ c (Proc.devRef .tc main_arg5) = m ((c : Thread nD τ).loc main_arg5) :=
  ((Wb2_arr m ρ c 1).trans (((dat0 (Vb1 m ρ) c).arrAt_in 1 rfl _).trans (A_eq0 (Vb1 m ρ) c 1))).trans (Wb1_arg5 m ρ c)
theorem Wb3_arg5 : Wb3 m ρ c (Proc.devRef .tc main_arg5) = m ((c : Thread nD τ).loc main_arg5) :=
  (host3_keep (Wb2 m ρ c) main_arg5 (by decide)).trans (Wb2_arg5 m ρ c)
theorem Wb4_arg5 : Wb4 m ρ c (Proc.devRef .tc main_arg5) = m ((c : Thread nD τ).loc main_arg5) :=
  (Wb4_of_ne m ρ c main_arg5 (by decide)).trans (Wb3_arg5 m ρ c)
theorem Wb5_arg5 : Wb5 m ρ c (Proc.devRef .tc main_arg5) = m ((c : Thread nD τ).loc main_arg5) :=
  (host5_keep (Wb4 m ρ c) main_arg5 (by decide)).trans (Wb4_arg5 m ρ c)
theorem Wb6_arg5 : Wb6 m ρ c (Proc.devRef .tc main_arg5) = m ((c : Thread nD τ).loc main_arg5) :=
  (Wb6_of_ne m ρ c main_arg5 (by decide)).trans (Wb5_arg5 m ρ c)
theorem Wb7_arg5 : Wb7 m ρ c (Proc.devRef .tc main_arg5) = m ((c : Thread nD τ).loc main_arg5) :=
  (Wb7_of_ne m ρ c main_arg5 (by decide)).trans (Wb6_arg5 m ρ c)
theorem Wb8_arg5 : Wb8 m ρ c (Proc.devRef .tc main_arg5) = m ((c : Thread nD τ).loc main_arg5) :=
  (Wb8_of_ne m ρ c main_arg5 (by decide)).trans (Wb7_arg5 m ρ c)
theorem Wb9_arg5 : Wb9 m ρ c (Proc.devRef .tc main_arg5) = m ((c : Thread nD τ).loc main_arg5) :=
  (Wb9_of_ne m ρ c main_arg5 (by decide)).trans (Wb8_arg5 m ρ c)
theorem Wb10_arg5 : Wb10 m ρ c (Proc.devRef .tc main_arg5) = m ((c : Thread nD τ).loc main_arg5) :=
  (host10_keep (Wb9 m ρ c) main_arg5 (by decide)).trans (Wb9_arg5 m ρ c)
theorem Wb11_arg5 : Wb11 m ρ c (Proc.devRef .tc main_arg5) = m ((c : Thread nD τ).loc main_arg5) :=
  (Wb11_of_ne m ρ c main_arg5 (by decide)).trans (Wb10_arg5 m ρ c)
theorem Wb1_arg6 : Wb1 m ρ c (Proc.devRef .tc main_arg6) = m ((c : Thread nD τ).loc main_arg6) :=
  (host1_keep (Wb0 m ρ c) main_arg6 (by decide)).trans rfl
theorem Wb2_arg6 : Wb2 m ρ c (Proc.devRef .tc main_arg6) = m ((c : Thread nD τ).loc main_arg6) :=
  (Wb2_of_ne m ρ c main_arg6 (by decide)).trans (Wb1_arg6 m ρ c)
theorem Wb3_arg6 : Wb3 m ρ c (Proc.devRef .tc main_arg6) = m ((c : Thread nD τ).loc main_arg6) :=
  (host3_keep (Wb2 m ρ c) main_arg6 (by decide)).trans (Wb2_arg6 m ρ c)
theorem Wb4_arg6 : Wb4 m ρ c (Proc.devRef .tc main_arg6) = m ((c : Thread nD τ).loc main_arg6) :=
  (Wb4_of_ne m ρ c main_arg6 (by decide)).trans (Wb3_arg6 m ρ c)
theorem Wb5_arg6 : Wb5 m ρ c (Proc.devRef .tc main_arg6) = m ((c : Thread nD τ).loc main_arg6) :=
  (host5_keep (Wb4 m ρ c) main_arg6 (by decide)).trans (Wb4_arg6 m ρ c)
theorem Wb6_arg6 : Wb6 m ρ c (Proc.devRef .tc main_arg6) = m ((c : Thread nD τ).loc main_arg6) :=
  (Wb6_of_ne m ρ c main_arg6 (by decide)).trans (Wb5_arg6 m ρ c)
theorem Wb7_arg6 : Wb7 m ρ c (Proc.devRef .tc main_arg6) = m ((c : Thread nD τ).loc main_arg6) :=
  (Wb7_of_ne m ρ c main_arg6 (by decide)).trans (Wb6_arg6 m ρ c)
theorem Wb8_arg6 : Wb8 m ρ c (Proc.devRef .tc main_arg6) = m ((c : Thread nD τ).loc main_arg6) :=
  (Wb8_of_ne m ρ c main_arg6 (by decide)).trans (Wb7_arg6 m ρ c)
theorem Wb9_arg6 : Wb9 m ρ c (Proc.devRef .tc main_arg6) = m ((c : Thread nD τ).loc main_arg6) :=
  (Wb9_of_ne m ρ c main_arg6 (by decide)).trans (Wb8_arg6 m ρ c)
theorem Wb10_arg6 : Wb10 m ρ c (Proc.devRef .tc main_arg6) = m ((c : Thread nD τ).loc main_arg6) :=
  (host10_keep (Wb9 m ρ c) main_arg6 (by decide)).trans (Wb9_arg6 m ρ c)
theorem Wb11_arg6 : Wb11 m ρ c (Proc.devRef .tc main_arg6) = m ((c : Thread nD τ).loc main_arg6) :=
  (Wb11_of_ne m ρ c main_arg6 (by decide)).trans (Wb10_arg6 m ρ c)

/-! ## The intermediate arrays between the region that writes them and the last one that reads them -/
theorem Wb3_v1_keep : Wb3 m ρ c (Proc.devRef .tc main_v1) = Wb2 m ρ c (Proc.devRef .tc main_v1) :=
  (host3_keep (Wb2 m ρ c) main_v1 (by decide))
theorem Wb4_v1_keep : Wb4 m ρ c (Proc.devRef .tc main_v1) = Wb2 m ρ c (Proc.devRef .tc main_v1) :=
  (Wb4_of_ne m ρ c main_v1 (by decide)).trans (Wb3_v1_keep m ρ c)
theorem Wb5_v1_keep : Wb5 m ρ c (Proc.devRef .tc main_v1) = Wb2 m ρ c (Proc.devRef .tc main_v1) :=
  (host5_keep (Wb4 m ρ c) main_v1 (by decide)).trans (Wb4_v1_keep m ρ c)
theorem Wb5_v3_keep : Wb5 m ρ c (Proc.devRef .tc main_v3) = Wb4 m ρ c (Proc.devRef .tc main_v3) :=
  (host5_keep (Wb4 m ρ c) main_v3 (by decide))
theorem Wb6_v3_keep : Wb6 m ρ c (Proc.devRef .tc main_v3) = Wb4 m ρ c (Proc.devRef .tc main_v3) :=
  (Wb6_of_ne m ρ c main_v3 (by decide)).trans (Wb5_v3_keep m ρ c)
theorem Wb9_v7_keep : Wb9 m ρ c (Proc.devRef .tc main_v7) = Wb8 m ρ c (Proc.devRef .tc main_v7) :=
  ((Wb9_arr m ρ c 0).trans (((dat5 (Vb8 m ρ) c).arrAt_in 0 rfl _).trans (A_eq5 (Vb8 m ρ) c 0)))
theorem Wb10_v7_keep : Wb10 m ρ c (Proc.devRef .tc main_v7) = Wb8 m ρ c (Proc.devRef .tc main_v7) :=
  (host10_keep (Wb9 m ρ c) main_v7 (by decide)).trans (Wb9_v7_keep m ρ c)
theorem Wb10_v8_keep : Wb10 m ρ c (Proc.devRef .tc main_v8) = Wb9 m ρ c (Proc.devRef .tc main_v8) :=
  (host10_keep (Wb9 m ρ c) main_v8 (by decide))
theorem Wb11_v8_keep : Wb11 m ρ c (Proc.devRef .tc main_v8) = Wb9 m ρ c (Proc.devRef .tc main_v8) :=
  (Wb11_of_ne m ρ c main_v8 (by decide)).trans (Wb10_v8_keep m ρ c)

end Cert.Kernel.Val

end
-- ==== Proof.K.Frame.lean ====
/-
  The word-level program's frame: its run ends with every argument array as launched.
-/
import proofs.«127111_j36644660969674_2_alg».proof.Proof.K.Chain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Val

open Cert.Kernel Cert.Kernel.Gen
open Idealize.ShloMosaic Idealize.ShloMosaic.TcCoe Idealize.ShloMosaic.ValueIdx Idealize.SL.Sem

open Cert.Kernel.Fr

variable {F : FTy → Type} [FloatOps F]
variable (m : (ℓ : Loc nD τ sig) → Buf (Elt F) ℓ) (ρ : Dev nD → PrngReg)

theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Wb11_arg0 m ρ c),
     (h c _ (mem_uc main_arg1 (by decide))).trans (Wb11_arg1 m ρ c),
     (h c _ (mem_uc main_arg2 (by decide))).trans (Wb11_arg2 m ρ c),
     (h c _ (mem_uc main_arg3 (by decide))).trans (Wb11_arg3 m ρ c),
     (h c _ (mem_uc main_arg4 (by decide))).trans (Wb11_arg4 m ρ c),
     (h c _ (mem_uc main_arg5 (by decide))).trans (Wb11_arg5 m ρ c),
     (h c _ (mem_uc main_arg6 (by decide))).trans (Wb11_arg6 m ρ c)⟩)
    (run_all m ρ)

end Cert.Kernel.Val

end
-- ==== Proof.KI.Body0.lean ====
/-
  Region 0 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether fetched there or kept from the point
    before (then the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether fetched there or kept from the point
    before (then the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether fetched there or kept from the point
    before (then the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Output window 3's buffer after the body: the one store, over the whole block, of the body's value at the input blocks. -/
def out0_3 (x0 : Vec F S256x2048 .f32) (x1 : Vec F S2048x2048 .f32) (x2 : Vec F S1x2048 .f32) : Vec F S256x2048 .f32 :=
  View.canon [⟨(Rect.unit (s := S256x2048) ![0, 0] S256x2048.size inb_S256x2048_S256x2048_0_0), k0_pay1 (View.ld x0 (Rect.unit (s := S256x2048) ![0, 0] S256x2048.size inb_S256x2048_S256x2048_0_0)) (View.ld x1 (Rect.unit (s := S2048x2048) ![0, 0] S2048x2048.size inb_S2048x2048_S2048x2048_0_0)) (View.ld x2 (Rect.unit (s := S1x2048) ![0, 0] S1x2048.size inb_S1x2048_S1x2048_0_0))⟩]

/-- That store covers the block. -/
theorem cover0_3 (p0 : Vec F S256x2048 .f32) (y : S256x2048.Idx) :
    ∃ pc ∈ ([⟨(Rect.unit (s := S256x2048) ![0, 0] S256x2048.size inb_S256x2048_S256x2048_0_0), p0⟩] : List (View.Piece (Elt F) S256x2048 .f32)), y ∈ pc.1.set :=
  View.cover_of_tiled [⟨(Rect.unit (s := S256x2048) ![0, 0] S256x2048.size inb_S256x2048_S256x2048_0_0), p0⟩] S256x2048.size (by rfl) y

set_option maxHeartbeats 4000000 in
/-- The body on whole staging buffers, the inputs' at `x` and the outputs' at anything, runs to the end leaving the
    inputs' as they were and each output's at its value of the inputs'. -/
theorem sound_kernel0 (c : Dev nD) (E : Set ℕ) (i : grid0.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S256x2048 .f32) (harg4 : arg4.IsWhole)
    (x0 : Vec F S256x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__fc_f32_kernel i arg1 harg1 arg2 harg2 arg3 harg3 arg4 harg4) K := by
  simp only [cc0__fc_f32_kernel_eq_skeleton]; unfold cc0__fc_f32_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer at its block and each output's at its value of the input blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's specification at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether fetched there or kept from the point
    before (then the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current buffer holds its block at every point, whether fetched there or kept from the point
    before (then the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current buffer holds its block at every point, whether fetched there or kept from the point
    before (then the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Output window 3's buffer after the body: the one store, over the whole block, of the body's value at the input blocks. -/
def out1_3 (x0 : Vec F S256x2048 .f32) (x1 : Vec F S2048x2048 .f32) (x2 : Vec F S1x2048 .f32) : Vec F S256x2048 .f32 :=
  View.canon [⟨(Rect.unit (s := S256x2048) ![0, 0] S256x2048.size inb_S256x2048_S256x2048_0_0), k1_pay1 (View.ld x0 (Rect.unit (s := S256x2048) ![0, 0] S256x2048.size inb_S256x2048_S256x2048_0_0)) (View.ld x1 (Rect.unit (s := S2048x2048) ![0, 0] S2048x2048.size inb_S2048x2048_S2048x2048_0_0)) (View.ld x2 (Rect.unit (s := S1x2048) ![0, 0] S1x2048.size inb_S1x2048_S1x2048_0_0))⟩]

/-- That store covers the block. -/
theorem cover1_3 (p0 : Vec F S256x2048 .f32) (y : S256x2048.Idx) :
    ∃ pc ∈ ([⟨(Rect.unit (s := S256x2048) ![0, 0] S256x2048.size inb_S256x2048_S256x2048_0_0), p0⟩] : List (View.Piece (Elt F) S256x2048 .f32)), y ∈ pc.1.set :=
  View.cover_of_tiled [⟨(Rect.unit (s := S256x2048) ![0, 0] S256x2048.size inb_S256x2048_S256x2048_0_0), p0⟩] S256x2048.size (by rfl) y

set_option maxHeartbeats 4000000 in
/-- The body on whole staging buffers, the inputs' at `x` and the outputs' at anything, runs to the end leaving the
    inputs' as they were and each output's at its value of the inputs'. -/
theorem sound_kernel1 (c : Dev nD) (E : Set ℕ) (i : grid1.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S256x2048 .f32) (harg4 : arg4.IsWhole)
    (x0 : Vec F S256x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc_f32_kernel i arg1 harg1 arg2 harg2 arg3 harg3 arg4 harg4) K := by
  simp only [cc1__fc_f32_kernel_eq_skeleton]; unfold cc1__fc_f32_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body at point `t` each input's
    buffer at its block and each output's at its value of the input blocks; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's specification at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether fetched there or kept from the point
    before (then the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current buffer holds its block at every point, whether fetched there or kept from the point
    before (then the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current buffer holds its block at every point, whether fetched there or kept from the point
    before (then the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current buffer holds its block at every point, whether fetched there or kept from the point
    before (then the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Output window 4's buffer after the body: the one store, over the whole block, of the body's value at the input blocks. -/
def out2_4 (x0 : Vec F S256x2048 .f32) (x1 : Vec F S2048x2048 .f32) (x2 : Vec F S1x2048 .f32) (x3 : Vec F S2048x2048 .f32) : Vec F S256x2048 .f32 :=
  View.canon [⟨(Rect.unit (s := S256x2048) ![0, 0] S256x2048.size inb_S256x2048_S256x2048_0_0), k2_pay1 (View.ld x0 (Rect.unit (s := S256x2048) ![0, 0] S256x2048.size inb_S256x2048_S256x2048_0_0)) (View.ld x1 (Rect.unit (s := S2048x2048) ![0, 0] S2048x2048.size inb_S2048x2048_S2048x2048_0_0)) (View.ld x2 (Rect.unit (s := S1x2048) ![0, 0] S1x2048.size inb_S1x2048_S1x2048_0_0)) (View.ld x3 (Rect.unit (s := S2048x2048) ![0, 0] S2048x2048.size inb_S2048x2048_S2048x2048_0_0))⟩]

/-- That store covers the block. -/
theorem cover2_4 (p0 : Vec F S256x2048 .f32) (y : S256x2048.Idx) :
    ∃ pc ∈ ([⟨(Rect.unit (s := S256x2048) ![0, 0] S256x2048.size inb_S256x2048_S256x2048_0_0), p0⟩] : List (View.Piece (Elt F) S256x2048 .f32)), y ∈ pc.1.set :=
  View.cover_of_tiled [⟨(Rect.unit (s := S256x2048) ![0, 0] S256x2048.size inb_S256x2048_S256x2048_0_0), p0⟩] S256x2048.size (by rfl) y

set_option maxHeartbeats 4000000 in
/-- The body on whole staging buffers, the inputs' at `x` and the outputs' at anything, runs to the end leaving the
    inputs' as they were and each output's at its value of the inputs'. -/
theorem sound_kernel2 (c : Dev nD) (E : Set ℕ) (i : grid2.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S256x2048 .f32) (harg5 : arg5.IsWhole)
    (x0 : Vec F S256x2048 .f32) (x1 : Vec F S2048x2048 .f32) (x2 : Vec F S1x2048 .f32) (x3 : Vec F S2048x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__h1_scores1_kernel i arg1 harg1 arg2 harg2 arg3 harg3 arg4 harg4 arg5 harg5) K := by
  simp only [cc2__h1_scores1_kernel_eq_skeleton]; unfold cc2__h1_scores1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data on core `c`: the arrays as the region finds them; after the body at point `t` each input's
    buffer at its block and each output's at its value of the input blocks; nothing else touched, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's specification at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/-
  Region 3 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, whether fetched there or kept from the point
    before (then the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current buffer holds its block at every point, whether fetched there or kept from the point
    before (then the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Output window 2's buffer after the body: the one store, over the whole block, of the body's value at the input blocks. -/
def out3_2 (x0 : Vec F S2048x2048 .f32) (x1 : Vec F S256x2048 .f32) : Vec F S2048x256 .f32 :=
  View.canon [⟨(Rect.unit (s := S2048x256) ![0, 0] S2048x256.size inb_S2048x256_S2048x256_0_0), k3_pay1 (View.ld x0 (Rect.unit (s := S2048x2048) ![0, 0] S2048x2048.size inb_S2048x2048_S2048x2048_0_0)) (View.ld x1 (Rect.unit (s := S256x2048) ![0, 0] S256x2048.size inb_S256x2048_S256x2048_0_0))⟩]

/-- That store covers the block. -/
theorem cover3_2 (p0 : Vec F S2048x256 .f32) (y : S2048x256.Idx) :
    ∃ pc ∈ ([⟨(Rect.unit (s := S2048x256) ![0, 0] S2048x256.size inb_S2048x256_S2048x256_0_0), p0⟩] : List (View.Piece (Elt F) S2048x256 .f32)), y ∈ pc.1.set :=
  View.cover_of_tiled [⟨(Rect.unit (s := S2048x256) ![0, 0] S2048x256.size inb_S2048x256_S2048x256_0_0), p0⟩] S2048x256.size (by rfl) y

set_option maxHeartbeats 4000000 in
/-- The body on whole staging buffers, the inputs' at `x` and the outputs' at anything, runs to the end leaving the
    inputs' as they were and each output's at its value of the inputs'. -/
theorem sound_kernel3 (c : Dev nD) (E : Set ℕ) (i : grid3.Coords) (arg1 : Memref sig .tc .vmem S2048x2048 .f32) (harg1 : arg1.IsWhole) (arg2 : Memref sig .tc .vmem S256x2048 .f32) (harg2 : arg2.IsWhole) (arg3 : Memref sig .tc .vmem S2048x256 .f32) (harg3 : arg3.IsWhole)
    (x0 : Vec F S2048x2048 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__scores2_kernel i arg1 harg1 arg2 harg2 arg3 harg3) K := by
  simp only [cc3__scores2_kernel_eq_skeleton]; unfold cc3__scores2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as the region finds them; after the body at point `t` each input's
    buffer at its block and each output's at its value of the input blocks; nothing else touched, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's specification at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Body4.lean ====
/-
  Region 4 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, whether fetched there or kept from the point
    before (then the block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Output window 1's buffer after the body: the one store, over the whole block, of the body's value at the input blocks. -/
def out4_1 (x0 : Vec F S128x16384 .f32) : Vec F S128x16384 .bf16 :=
  View.canon [⟨(Rect.unit (s := S128x16384) ![0, 0] S128x16384.size inb_S128x16384_S128x16384_0_0), k4_pay1 (View.ld x0 (Rect.unit (s := S128x16384) ![0, 0] S128x16384.size inb_S128x16384_S128x16384_0_0))⟩]

/-- That store covers the block. -/
theorem cover4_1 (p0 : Vec F S128x16384 .bf16) (y : S128x16384.Idx) :
    ∃ pc ∈ ([⟨(Rect.unit (s := S128x16384) ![0, 0] S128x16384.size inb_S128x16384_S128x16384_0_0), p0⟩] : List (View.Piece (Elt F) S128x16384 .bf16)), y ∈ pc.1.set :=
  View.cover_of_tiled [⟨(Rect.unit (s := S128x16384) ![0, 0] S128x16384.size inb_S128x16384_S128x16384_0_0), p0⟩] S128x16384.size (by rfl) y

set_option maxHeartbeats 4000000 in
/-- The body on whole staging buffers, the inputs' at `x` and the outputs' at anything, runs to the end leaving the
    inputs' as they were and each output's at its value of the inputs'. -/
theorem sound_kernel4 (c : Dev nD) (E : Set ℕ) (i : grid4.Coords) (arg1 : Memref sig .tc .vmem S128x16384 .f32) (harg1 : arg1.IsWhole) (arg2 : Memref sig .tc .vmem S128x16384 .bf16) (harg2 : arg2.IsWhole)
    (x0 : Vec F S128x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__softmax_kernel i arg1 harg1 arg2 harg2) K := by
  simp only [cc4__softmax_kernel_eq_skeleton]; unfold cc4__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-- The region's proof data on core `c`: the arrays as the region finds them; after the body at point `t` each input's
    buffer at its block and each output's at its value of the input blocks; nothing else touched, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

theorem before4_0 (c : Dev nD) (t : Fin cfg4.N) (d) : (dat4 V c).before 0 t d = iblk4 V c 0 t :=
  before4_0_of V (dat4 V c) (A_eq4 V c 0) (after4_0 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's specification at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Body6.lean ====
/-
  Region 6 of the program, at the buffer contents `V` the region is entered with: what every window's staging
  buffer holds when the body is called at a grid point (its block of the array, read where the index map puts it),
  what the body leaves in every output window's buffer (one store covering the whole block, its value a pure
  function of the input blocks), and the body's specification at every grid point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current buffer holds its block at every point, whether fetched there or kept from the point
    before (then the block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's current buffer holds its block at every point, whether fetched there or kept from the point
    before (then the block index has not moved). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's current buffer holds its block at every point, whether fetched there or kept from the point
    before (then the block index has not moved). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Output window 3's buffer after the body: the one store, over the whole block, of the body's value at the input blocks. -/
def out6_3 (x0 : Vec F S2048x512 .bf16) (x1 : Vec F S2048x2048 .bf16) (x2 : Vec F S2048x2048 .bf16) : Vec F S512x2048 .f32 :=
  View.canon [⟨(Rect.unit (s := S512x2048) ![0, 0] S512x2048.size inb_S512x2048_S512x2048_0_0), k6_pay2 (View.ld x0 (Rect.unit (s := S2048x512) ![0, 0] S2048x512.size inb_S2048x512_S2048x512_0_0)) (View.ld x1 (Rect.unit (s := S2048x2048) ![0, 0] S2048x2048.size inb_S2048x2048_S2048x2048_0_0))⟩]

/-- That store covers the block. -/
theorem cover6_3 (p0 : Vec F S512x2048 .f32) (y : S512x2048.Idx) :
    ∃ pc ∈ ([⟨(Rect.unit (s := S512x2048) ![0, 0] S512x2048.size inb_S512x2048_S512x2048_0_0), p0⟩] : List (View.Piece (Elt F) S512x2048 .f32)), y ∈ pc.1.set :=
  View.cover_of_tiled [⟨(Rect.unit (s := S512x2048) ![0, 0] S512x2048.size inb_S512x2048_S512x2048_0_0), p0⟩] S512x2048.size (by rfl) y

/-- Output window 4's buffer after the body: the one store, over the whole block, of the body's value at the input blocks. -/
def out6_4 (x0 : Vec F S2048x512 .bf16) (x1 : Vec F S2048x2048 .bf16) (x2 : Vec F S2048x2048 .bf16) : Vec F S512x2048 .f32 :=
  View.canon [⟨(Rect.unit (s := S512x2048) ![0, 0] S512x2048.size inb_S512x2048_S512x2048_0_0), k6_pay3 (View.ld x0 (Rect.unit (s := S2048x512) ![0, 0] S2048x512.size inb_S2048x512_S2048x512_0_0)) (View.ld x2 (Rect.unit (s := S2048x2048) ![0, 0] S2048x2048.size inb_S2048x2048_S2048x2048_0_0))⟩]

/-- That store covers the block. -/
theorem cover6_4 (p0 : Vec F S512x2048 .f32) (y : S512x2048.Idx) :
    ∃ pc ∈ ([⟨(Rect.unit (s := S512x2048) ![0, 0] S512x2048.size inb_S512x2048_S512x2048_0_0), p0⟩] : List (View.Piece (Elt F) S512x2048 .f32)), y ∈ pc.1.set :=
  View.cover_of_tiled [⟨(Rect.unit (s := S512x2048) ![0, 0] S512x2048.size inb_S512x2048_S512x2048_0_0), p0⟩] S512x2048.size (by rfl) y

set_option maxHeartbeats 4000000 in
/-- The body on whole staging buffers, the inputs' at `x` and the outputs' at anything, runs to the end leaving the
    inputs' as they were and each output's at its value of the inputs'. -/
theorem sound_kernel6 (c : Dev nD) (E : Set ℕ) (i : grid6.Coords) (arg1 : Memref sig .tc .vmem S2048x512 .bf16) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole)
    (x0 : Vec F S2048x512 .bf16) (x1 : Vec F S2048x2048 .bf16) (x2 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2) ∗ owns (c : Thread nD τ) arg5 fullShare (out6_4 x0 x1 x2)) -∗ K ⟨⟩))
      ⊢ wp frame (wpE (defs₀ (F := F)) Variants.none c none) E (cc6__att23_kernel i arg1 harg1 arg2 harg2 arg3 harg3 arg4 harg4 arg5 harg5) K := by
  simp only [cc6__att23_kernel_eq_skeleton]; unfold cc6__att23_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_3 _)
  iexists _; isplitr
  swap; · iexact H4
  ipureintro
  exact View.read_writes_eq_canon _ _ _ (cover6_4 _)

/-- The region's proof data on core `c`: the arrays as the region finds them; after the body at point `t` each input's
    buffer at its block and each output's at its value of the input blocks; nothing else touched, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's specification at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Body5a.lean ====
/-
  Region 5 of the program — the weighted sum of the rows of the first input, accumulated over the 128 blocks of
  the contracted axis in a buffer the kernel keeps between grid points — at the buffer contents `V` the region is
  entered with. The body has three cases: at the first point the accumulator is set to zero before this point's
  product is added; at the points between the product is added to what the point before left; at the last point,
  after the addition, the accumulator is copied into the output block. Stated here: the body's run in each case,
  what the accumulator and the output block hold after each point, and the body's specification at every point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's current buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, over the grid -/

/-- "This is the first block of the contracted axis." -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 128 = 0 :=
  (by decide +kernel : ∀ t : Fin grid5.N, cond5_0 (grid5.coords t) ↔ t.val % 128 = 0)

/-- "This is the last block of the contracted axis." -/
abbrev cond5_1 (i : grid5.Coords) : Prop := k5_cond2 i = 1#1
theorem hcond5_1 : ∀ t : Fin cfg5.N, cond5_1 (grid5.coords t) ↔ t.val % 128 = 127 :=
  (by decide +kernel : ∀ t : Fin grid5.N, cond5_1 (grid5.coords t) ↔ t.val % 128 = 127)

/-! ## Where the output window is left untouched -/

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2_A : ∀ t : Fin cfg5.N, cond5_0 (grid5.coords t) → ¬cond5_1 (grid5.coords t) → cfg5.idle 2 (grid5.coords t) = true := by decide +kernel
theorem noFlush5_2_A : ∀ t : Fin cfg5.N, cond5_0 (grid5.coords t) → ¬cond5_1 (grid5.coords t) → (cfg5.win 2).flush t = false := by decide +kernel
theorem idleAt5_2_B : ∀ t : Fin cfg5.N, ¬cond5_0 (grid5.coords t) → ¬cond5_1 (grid5.coords t) → cfg5.idle 2 (grid5.coords t) = true := by decide +kernel
theorem noFlush5_2_B : ∀ t : Fin cfg5.N, ¬cond5_0 (grid5.coords t) → ¬cond5_1 (grid5.coords t) → (cfg5.win 2).flush t = false := by decide +kernel
theorem liveAt5_2_C : ∀ t : Fin cfg5.N, ¬cond5_0 (grid5.coords t) → cond5_1 (grid5.coords t) → cfg5.idle 2 (grid5.coords t) = false := by decide +kernel

/-! ## The buffers the body is called on -/

abbrev VO5_2 : View sig .tc .vmem S2048x2048 .f32 := (Memref.whole cc5_stg2_0 : Memref sig .tc .vmem S2048x2048 .f32).view
abbrev ms5_0 (t : Fin cfg5.N) : Memref sig .tc .vmem S2048x128 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x2048 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x2048 .f32 := win5_2.stage (cfg5.slots t 2)
abbrev hs5_2 (t : Fin cfg5.N) : (ms5_2 t).IsWhole := hstage5_2 ((cfg5.slots t 2).cast nbuf5_2)
/-- The accumulator: a whole buffer of the kernel's own, kept between grid points. -/
abbrev scM5_0 : Memref sig .tc .vmem S2048x2048 .f32 := Memref.whole cc5_scratch0
abbrev VS5_0 : View sig .tc .vmem S2048x2048 .f32 := scM5_0.view

/-- What the region's invariant holds besides the windows: the accumulator at some contents, every other buffer
    private to a kernel region unopened, the random-number register at some state. -/
theorem PhiA5_eq (c : Dev nD) :
    (Pipeline.ΦA spec5 c : sProp 𝕄)
      = iprop(iprop((∃ d, owns (c : Thread nD τ) scM5_0 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The body's run, case by case -/

set_option maxHeartbeats 4000000 in
/-- FIRST POINT: the accumulator, at anything, is set to zero and this point's product added; the output block is handed
    back untouched. The stores into the accumulator are the witness the run finds. -/
noncomputable def kernelRun5_A (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) :
    Σ' (L2 : List (View.Piece (Elt F) S2048x2048 .f32)), { LS0 : List (View.Piece (Elt F) S2048x2048 .f32) //
      ∀ (xi2 : Vec F S2048x2048 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc5__att1_kernel i arg1 harg1 arg2 harg2 arg3 harg3 arg4 harg4) K } := by
  refine ⟨[], ?_, fun xi2 E K => ?run⟩
  case run =>
    simp only [cc5__att1_kernel_eq_skeleton]; unfold cc5__att1_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- A POINT BETWEEN: this point's product is added to what the accumulator held; the output block is handed back untouched. -/
noncomputable def kernelRun5_B (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) :
    Σ' (L2 : List (View.Piece (Elt F) S2048x2048 .f32)), { LS0 : List (View.Piece (Elt F) S2048x2048 .f32) //
      ∀ (xi2 : Vec F S2048x2048 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc5__att1_kernel i arg1 harg1 arg2 harg2 arg3 harg3 arg4 harg4) K } := by
  refine ⟨[], ?_, fun xi2 E K => ?run⟩
  case run =>
    simp only [cc5__att1_kernel_eq_skeleton]; unfold cc5__att1_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 4000000 in
/-- LAST POINT: this point's product is added to what the accumulator held, and the sum is stored into the output block. -/
noncomputable def kernelRun5_C (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) :
    Σ' (L2 : List (View.Piece (Elt F) S2048x2048 .f32)), { LS0 : List (View.Piece (Elt F) S2048x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc5__att1_kernel i arg1 harg1 arg2 harg2 arg3 harg3 arg4 harg4) K } := by
  refine ⟨?_, ?_, fun E K => ?run⟩
  case run =>
    simp only [cc5__att1_kernel_eq_skeleton]; unfold cc5__att1_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.Body5b.lean ====
/-
  Region 5, continued: what the accumulator and the output block hold after each grid point (a recursion over the
  points: the first sets the accumulator, every later one adds to what the one before left), the region's
  invariant carrying the accumulator from point to point, and the body's specification at every point.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points
import proofs.«127111_j36644660969674_2_alg».proof.Proof.KI.Body5a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In this case the stores into the accumulator cover it. -/
theorem scover5_A_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) (y : S2048x2048.Idx) :
    ∃ pc ∈ (kernelRun5_A c i arg1 harg1 arg2 harg2 arg3 harg3 arg4 harg4 hc0 hc1 x0 x1).2.1, y ∈ pc.1.set :=
  View.cover_of_tiledL (kernelRun5_A c i arg1 harg1 arg2 harg2 arg3 harg3 arg4 harg4 hc0 hc1 x0 x1).2.1 S2048x2048.size (by sl_kernel_rfl) y

/-- What this case leaves in the accumulator. -/
def sout5_A_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) : Vec F S2048x2048 .f32 :=
  VS5_0.read (Elt F) (VS5_0.writes (Elt F) VS5_0.junk (kernelRun5_A c i arg1 harg1 arg2 harg2 arg3 harg3 arg4 harg4 hc0 hc1 x0 x1).2.1)

/-- What this case leaves in the output block (nothing is stored there: a placeholder no one reads). -/
def out5_A_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) : Vec F S2048x2048 .f32 :=
  VO5_2.read (Elt F) (VO5_2.writes (Elt F) VO5_2.junk (kernelRun5_A c i arg1 harg1 arg2 harg2 arg3 harg3 arg4 harg4 hc0 hc1 x0 x1).1)

/-- In this case the stores into the accumulator cover it. -/
theorem scover5_B_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) (y : S2048x2048.Idx) :
    ∃ pc ∈ (kernelRun5_B c i arg1 harg1 arg2 harg2 arg3 harg3 arg4 harg4 hc0 hc1 x0 x1 xs0).2.1, y ∈ pc.1.set :=
  View.cover_of_tiledL (kernelRun5_B c i arg1 harg1 arg2 harg2 arg3 harg3 arg4 harg4 hc0 hc1 x0 x1 xs0).2.1 S2048x2048.size (by sl_kernel_rfl) y

/-- What this case leaves in the accumulator. -/
def sout5_B_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) : Vec F S2048x2048 .f32 :=
  VS5_0.read (Elt F) (VS5_0.writes (Elt F) VS5_0.junk (kernelRun5_B c i arg1 harg1 arg2 harg2 arg3 harg3 arg4 harg4 hc0 hc1 x0 x1 xs0).2.1)

/-- What this case leaves in the output block (nothing is stored there: a placeholder no one reads). -/
def out5_B_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) : Vec F S2048x2048 .f32 :=
  VO5_2.read (Elt F) (VO5_2.writes (Elt F) VO5_2.junk (kernelRun5_B c i arg1 harg1 arg2 harg2 arg3 harg3 arg4 harg4 hc0 hc1 x0 x1 xs0).1)

/-- In this case the stores into the accumulator cover it. -/
theorem scover5_C_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) (y : S2048x2048.Idx) :
    ∃ pc ∈ (kernelRun5_C c i arg1 harg1 arg2 harg2 arg3 harg3 arg4 harg4 hc0 hc1 x0 x1 xs0).2.1, y ∈ pc.1.set :=
  View.cover_of_tiledL (kernelRun5_C c i arg1 harg1 arg2 harg2 arg3 harg3 arg4 harg4 hc0 hc1 x0 x1 xs0).2.1 S2048x2048.size (by sl_kernel_rfl) y

/-- What this case leaves in the accumulator. -/
def sout5_C_0 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) : Vec F S2048x2048 .f32 :=
  VS5_0.read (Elt F) (VS5_0.writes (Elt F) VS5_0.junk (kernelRun5_C c i arg1 harg1 arg2 harg2 arg3 harg3 arg4 harg4 hc0 hc1 x0 x1 xs0).2.1)

/-- What this case leaves in the output block. -/
def out5_C_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) : Vec F S2048x2048 .f32 :=
  VO5_2.read (Elt F) (VO5_2.writes (Elt F) VO5_2.junk (kernelRun5_C c i arg1 harg1 arg2 harg2 arg3 harg3 arg4 harg4 hc0 hc1 x0 x1 xs0).1)

/-- At the last point the store into the output block covers it. -/
theorem cover5_C_2 (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) (y : S2048x2048.Idx) :
    ∃ pc ∈ (kernelRun5_C c i arg1 harg1 arg2 harg2 arg3 harg3 arg4 harg4 hc0 hc1 x0 x1 xs0).1, y ∈ pc.1.set :=
  View.cover_of_tiledL (kernelRun5_C c i arg1 harg1 arg2 harg2 arg3 harg3 arg4 harg4 hc0 hc1 x0 x1 xs0).1 S2048x2048.size (by sl_kernel_rfl) y

/-! ## What the output block and the accumulator hold after each point -/

/-- THE ACCUMULATION, as a pair (output block, accumulator): at point 0 the first case's contents; at a later point the
    case that point is in, run over what the point before left in the accumulator. -/
def outsAt5 (c : Dev nD) : (n : ℕ) → n < cfg5.N → Vec F S2048x2048 .f32 × Vec F S2048x2048 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 128 = 0 then
      if h1 : (n + 1) % 128 = 127 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 128 = 127 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2)

theorem outsAt5_A (c : Dev nD) (t : Fin cfg5.N) (h0 : t.val % 128 = 0) (h1 : ¬t.val % 128 = 127) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

theorem outsAt5_B (c : Dev nD) (t : Fin cfg5.N) (h0 : ¬t.val % 128 = 0) (h1 : ¬t.val % 128 = 127) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 128 = 0) (h1 : t.val % 128 = 127) :
    outsAt5 V c t.val t.isLt = (out5_C_2 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards what
    the point before left in it. Every other buffer private to a kernel region rides along unopened, and the generator
    register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The region's proof data on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: which case the point is in is read off its position; the invariant hands the body the
    accumulator at what the point before left (at anything, at the first point) and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 128 := lt_of_lt_of_eq t.isLt (show cfg5.N = 128 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h0 : t.val % 128 = 0
  · by_cases h1 : t.val % 128 = 127
    · exfalso; omega
    ·
      rw [Dat.leavesExact_idle (dat5 V c) 2 t (idleAt5_2_A t ((hcond5_0 t).mpr h0) (fun h => h1 ((hcond5_1 t).mp h))) (noFlush5_2_A t ((hcond5_0 t).mpr h0) (fun h => h1 ((hcond5_1 t).mp h)))]
      rw [outsAt5_A V c t h0 h1]
      unfold sout5_A_0; (try dsimp only)
      have hz : t.val = 0 := by omega
      rw [PhiS5_castSucc V c t, PhiS5_zero V c _ _ hz, PhiA5_eq]
      iintro ⟨⟨⟨HS0, Hrest⟩, Hg⟩, Ho, ⟨%d0, H0⟩, ⟨%d1, H1⟩, ⟨%d2, H2⟩⟩
      iapply ((kernelRun5_A c (grid5.coords t) _ _ _ _ _ _ _ _ ((hcond5_0 t).mpr h0) (fun h => h1 ((hcond5_1 t).mp h)) (iblk5 V c 0 t) (iblk5 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_A_0 c _ _ _ _ _ _ _ _ _ _ _ _ _)
          iexact Hrest
        iexact Hg
      isplitl [Ho]; · iexact Ho
      isplitl [H0]; · iexact H0
      isplitl [H1]; · iexact H1
      iexists _; iexact H2
  · by_cases h1 : t.val % 128 = 127
    ·
      rw [show (dat5 V c).leavesExact 2 t = owns (c : Thread nD τ) (ms5_2 t) fullShare ((dat5 V c).after 2 t) from by
        unfold Dat.leavesExact; rw [liveAt5_2_C t (fun h => h0 ((hcond5_0 t).mp h)) ((hcond5_1 t).mpr h1)], after5_2]
      rw [outsAt5_C V c t h0 h1]
      unfold out5_C_2 sout5_C_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩⟩
      iapply ((kernelRun5_C c (grid5.coords t) _ _ _ _ _ _ _ _ (fun h => h0 ((hcond5_0 t).mp h)) ((hcond5_1 t).mpr h1) (iblk5 V c 0 t) (iblk5 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C_2 c _ _ _ _ _ _ _ _ _ _ _ _ _ _)
    ·
      rw [Dat.leavesExact_idle (dat5 V c) 2 t (idleAt5_2_B t (fun h => h0 ((hcond5_0 t).mp h)) (fun h => h1 ((hcond5_1 t).mp h))) (noFlush5_2_B t (fun h => h0 ((hcond5_0 t).mp h)) (fun h => h1 ((hcond5_1 t).mp h)))]
      rw [outsAt5_B V c t h0 h1]
      unfold sout5_B_0; (try dsimp only)
      have hz : t.val ≠ 0 := by omega
      rw [PhiS5_castSucc V c t, PhiS5_pos V c _ _ hz]
      iintro ⟨⟨⟨HS0, Hrest⟩, Hg⟩, Ho, ⟨%d0, H0⟩, ⟨%d1, H1⟩, ⟨%d2, H2⟩⟩
      iapply ((kernelRun5_B c (grid5.coords t) _ _ _ _ _ _ _ _ (fun h => h0 ((hcond5_0 t).mp h)) (fun h => h1 ((hcond5_1 t).mp h)) (iblk5 V c 0 t) (iblk5 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_B_0 c _ _ _ _ _ _ _ _ _ _ _ _ _ _)
          iexact Hrest
        iexact Hg
      isplitl [Ho]; · iexact Ho
      isplitl [H0]; · iexact H0
      isplitl [H1]; · iexact H1
      iexists _; iexact H2

/-- The body's specification at every grid point. -/
theorem body_obligation5 (c : Dev nD) : BodyObligation (dat5 (F := F) V c) (defs₀ (F := F)) Variants.none () Set.univ := fun t => by
  rw [bigSep_W5, bigSep_W5]
  exact sound_body5 V c t

/-- After any point the invariant gives back the accumulator at some contents. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 128 := N_5; omega), PhiA5_eq]
  iintro ⟨⟨HS0, Hrest⟩, Hg⟩
  isplitl [HS0 Hrest]
  · isplitl [HS0]
    · iexists _; iexact HS0
    iexact Hrest
  iexact Hg

end Cert.KernelIdeal.Fr

end
-- ==== Proof.KI.Run.lean ====
/-
  The whole program as a run: the contents of every buffer at each boundary between two items of the program (a
  stretch of host operations applies them; a kernel region leaves each of its arrays at what its grid points wrote
  back and every other buffer as it was), each region entered from and left at these contents, and the conclusion:
  every execution ends, faults nowhere, and ends with every buffer at the last boundary's contents.
-/
import proofs.«127111_j36644660969674_2_alg».proof.Proof.Gen.KernelIdeal.Launch
import proofs.«127111_j36644660969674_2_alg».proof.Proof.Gen.KernelIdeal.Skeleton
import proofs.«127111_j36644660969674_2_alg».proof.Proof.Gen.KernelIdeal.Points
import proofs.«127111_j36644660969674_2_alg».proof.Proof.KI.Body0
import proofs.«127111_j36644660969674_2_alg».proof.Proof.KI.Body1
import proofs.«127111_j36644660969674_2_alg».proof.Proof.KI.Body2
import proofs.«127111_j36644660969674_2_alg».proof.Proof.KI.Body3
import proofs.«127111_j36644660969674_2_alg».proof.Proof.KI.Body4
import proofs.«127111_j36644660969674_2_alg».proof.Proof.KI.Body6
import proofs.«127111_j36644660969674_2_alg».proof.Proof.KI.Body5b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wb0 : Dev nD → Valuation τ sig (Elt F) := fun c b => (s₀ m ρ).mem ((c : Dev nD), b)
/-- After the host operations before region 0: the region's entry contents. -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At region 0's exit: its arrays at what the grid points wrote back, every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vx2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vx2 m ρ c (Pipeline.arrRef spec0 w) :=
  (Wb2_arr m ρ c w).symm
theorem hrest0 (c : Dev nD) : ∀ b, b ∉ Finset.univ.image (Pipeline.arrRef spec0) → Vx2 m ρ c b = Vb1 m ρ c b :=
  fun b hb => Wb2_of_ne m ρ c b fun w e => hb (Finset.mem_image.mpr ⟨w, Finset.mem_univ _, e⟩)

/-- After the host operations before region 1: the region's entry contents. -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At region 1's exit: its arrays at what the grid points wrote back, every other buffer as entered. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vx4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vx4 m ρ c (Pipeline.arrRef spec1 w) :=
  (Wb4_arr m ρ c w).symm
theorem hrest1 (c : Dev nD) : ∀ b, b ∉ Finset.univ.image (Pipeline.arrRef spec1) → Vx4 m ρ c b = Vb3 m ρ c b :=
  fun b hb => Wb4_of_ne m ρ c b fun w e => hb (Finset.mem_image.mpr ⟨w, Finset.mem_univ _, e⟩)

/-- After the host operations before region 2: the region's entry contents. -/
abbrev Wb5 : Dev nD → Valuation τ sig (Elt F) := fun c => StableHlo.after hostOps2 (Wb4 m ρ c)
abbrev Vb5 : (c : Dev nD) → (b : Ref sig .tc) → Buf (Elt F) ((c : Thread nD τ).loc b) := fun c b => Wb5 m ρ c b
/-- At region 2's exit: its arrays at what the grid points wrote back, every other buffer as entered. -/
def Wb6 (c : Dev nD) : Valuation τ sig (Elt F) :=
  Pipeline.withArrays spec2 c (Wb5 m ρ c) fun w => (dat2 (Vb5 m ρ) c).arrAt w cfg2.N
theorem Wb6_arr (c : Dev nD) (w : Fin cfg2.W) :
    Wb6 m ρ c (Proc.devRef .tc (Pipeline.arrRef spec2 w)) = (dat2 (Vb5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
abbrev Vx6 : (c : Dev nD) → (b : Ref sig .tc) → Buf (Elt F) ((c : Thread nD τ).loc b) := fun c b => Wb6 m ρ c b
theorem hF2 (c : Dev nD) (w : Fin cfg2.W) : (dat2 (Vb5 m ρ) c).arrAt w cfg2.N = Vx6 m ρ c (Pipeline.arrRef spec2 w) :=
  (Wb6_arr m ρ c w).symm
theorem hrest2 (c : Dev nD) : ∀ b, b ∉ Finset.univ.image (Pipeline.arrRef spec2) → Vx6 m ρ c b = Vb5 m ρ c b :=
  fun b hb => Wb6_of_ne m ρ c b fun w e => hb (Finset.mem_image.mpr ⟨w, Finset.mem_univ _, e⟩)

abbrev Vb6 : (c : Dev nD) → (b : Ref sig .tc) → Buf (Elt F) ((c : Thread nD τ).loc b) := fun c b => Wb6 m ρ c b
/-- At region 3's exit: its arrays at what the grid points wrote back, every other buffer as entered. -/
def Wb7 (c : Dev nD) : Valuation τ sig (Elt F) :=
  Pipeline.withArrays spec3 c (Wb6 m ρ c) fun w => (dat3 (Vb6 m ρ) c).arrAt w cfg3.N
theorem Wb7_arr (c : Dev nD) (w : Fin cfg3.W) :
    Wb7 m ρ c (Proc.devRef .tc (Pipeline.arrRef spec3 w)) = (dat3 (Vb6 m ρ) c).arrAt w cfg3.N := by
  unfold Wb7; exact Pipeline.withArrays_arr spec3 launch3.win.arr_inj c _ _ w
theorem Wb7_of_ne (c : Dev nD) (b : Ref sig .tc) (hb : ∀ w, Pipeline.arrRef spec3 w ≠ b) :
    Wb7 m ρ c (Proc.devRef .tc b) = Wb6 m ρ c (Proc.devRef .tc b) := by
  unfold Wb7; exact Pipeline.withArrays_of_ne spec3 c _ _ b hb
abbrev Vx7 : (c : Dev nD) → (b : Ref sig .tc) → Buf (Elt F) ((c : Thread nD τ).loc b) := fun c b => Wb7 m ρ c b
theorem hF3 (c : Dev nD) (w : Fin cfg3.W) : (dat3 (Vb6 m ρ) c).arrAt w cfg3.N = Vx7 m ρ c (Pipeline.arrRef spec3 w) :=
  (Wb7_arr m ρ c w).symm
theorem hrest3 (c : Dev nD) : ∀ b, b ∉ Finset.univ.image (Pipeline.arrRef spec3) → Vx7 m ρ c b = Vb6 m ρ c b :=
  fun b hb => Wb7_of_ne m ρ c b fun w e => hb (Finset.mem_image.mpr ⟨w, Finset.mem_univ _, e⟩)

abbrev Vb7 : (c : Dev nD) → (b : Ref sig .tc) → Buf (Elt F) ((c : Thread nD τ).loc b) := fun c b => Wb7 m ρ c b
/-- At region 4's exit: its arrays at what the grid points wrote back, every other buffer as entered. -/
def Wb8 (c : Dev nD) : Valuation τ sig (Elt F) :=
  Pipeline.withArrays spec4 c (Wb7 m ρ c) fun w => (dat4 (Vb7 m ρ) c).arrAt w cfg4.N
theorem Wb8_arr (c : Dev nD) (w : Fin cfg4.W) :
    Wb8 m ρ c (Proc.devRef .tc (Pipeline.arrRef spec4 w)) = (dat4 (Vb7 m ρ) c).arrAt w cfg4.N := by
  unfold Wb8; exact Pipeline.withArrays_arr spec4 launch4.win.arr_inj c _ _ w
theorem Wb8_of_ne (c : Dev nD) (b : Ref sig .tc) (hb : ∀ w, Pipeline.arrRef spec4 w ≠ b) :
    Wb8 m ρ c (Proc.devRef .tc b) = Wb7 m ρ c (Proc.devRef .tc b) := by
  unfold Wb8; exact Pipeline.withArrays_of_ne spec4 c _ _ b hb
abbrev Vx8 : (c : Dev nD) → (b : Ref sig .tc) → Buf (Elt F) ((c : Thread nD τ).loc b) := fun c b => Wb8 m ρ c b
theorem hF4 (c : Dev nD) (w : Fin cfg4.W) : (dat4 (Vb7 m ρ) c).arrAt w cfg4.N = Vx8 m ρ c (Pipeline.arrRef spec4 w) :=
  (Wb8_arr m ρ c w).symm
theorem hrest4 (c : Dev nD) : ∀ b, b ∉ Finset.univ.image (Pipeline.arrRef spec4) → Vx8 m ρ c b = Vb7 m ρ c b :=
  fun b hb => Wb8_of_ne m ρ c b fun w e => hb (Finset.mem_image.mpr ⟨w, Finset.mem_univ _, e⟩)

abbrev Vb8 : (c : Dev nD) → (b : Ref sig .tc) → Buf (Elt F) ((c : Thread nD τ).loc b) := fun c b => Wb8 m ρ c b
/-- At region 5's exit: its arrays at what the grid points wrote back, every other buffer as entered. -/
def Wb9 (c : Dev nD) : Valuation τ sig (Elt F) :=
  Pipeline.withArrays spec5 c (Wb8 m ρ c) fun w => (dat5 (Vb8 m ρ) c).arrAt w cfg5.N
theorem Wb9_arr (c : Dev nD) (w : Fin cfg5.W) :
    Wb9 m ρ c (Proc.devRef .tc (Pipeline.arrRef spec5 w)) = (dat5 (Vb8 m ρ) c).arrAt w cfg5.N := by
  unfold Wb9; exact Pipeline.withArrays_arr spec5 launch5.win.arr_inj c _ _ w
theorem Wb9_of_ne (c : Dev nD) (b : Ref sig .tc) (hb : ∀ w, Pipeline.arrRef spec5 w ≠ b) :
    Wb9 m ρ c (Proc.devRef .tc b) = Wb8 m ρ c (Proc.devRef .tc b) := by
  unfold Wb9; exact Pipeline.withArrays_of_ne spec5 c _ _ b hb
abbrev Vx9 : (c : Dev nD) → (b : Ref sig .tc) → Buf (Elt F) ((c : Thread nD τ).loc b) := fun c b => Wb9 m ρ c b
theorem hF5 (c : Dev nD) (w : Fin cfg5.W) : (dat5 (Vb8 m ρ) c).arrAt w cfg5.N = Vx9 m ρ c (Pipeline.arrRef spec5 w) :=
  (Wb9_arr m ρ c w).symm
theorem hrest5 (c : Dev nD) : ∀ b, b ∉ Finset.univ.image (Pipeline.arrRef spec5) → Vx9 m ρ c b = Vb8 m ρ c b :=
  fun b hb => Wb9_of_ne m ρ c b fun w e => hb (Finset.mem_image.mpr ⟨w, Finset.mem_univ _, e⟩)

/-- After the host operations before region 6: the region's entry contents. -/
abbrev Wb10 : Dev nD → Valuation τ sig (Elt F) := fun c => StableHlo.after hostOps6 (Wb9 m ρ c)
abbrev Vb10 : (c : Dev nD) → (b : Ref sig .tc) → Buf (Elt F) ((c : Thread nD τ).loc b) := fun c b => Wb10 m ρ c b
/-- At region 6's exit: its arrays at what the grid points wrote back, every other buffer as entered. -/
def Wb11 (c : Dev nD) : Valuation τ sig (Elt F) :=
  Pipeline.withArrays spec6 c (Wb10 m ρ c) fun w => (dat6 (Vb10 m ρ) c).arrAt w cfg6.N
theorem Wb11_arr (c : Dev nD) (w : Fin cfg6.W) :
    Wb11 m ρ c (Proc.devRef .tc (Pipeline.arrRef spec6 w)) = (dat6 (Vb10 m ρ) c).arrAt w cfg6.N := by
  unfold Wb11; exact Pipeline.withArrays_arr spec6 launch6.win.arr_inj c _ _ w
theorem Wb11_of_ne (c : Dev nD) (b : Ref sig .tc) (hb : ∀ w, Pipeline.arrRef spec6 w ≠ b) :
    Wb11 m ρ c (Proc.devRef .tc b) = Wb10 m ρ c (Proc.devRef .tc b) := by
  unfold Wb11; exact Pipeline.withArrays_of_ne spec6 c _ _ b hb
abbrev Vx11 : (c : Dev nD) → (b : Ref sig .tc) → Buf (Elt F) ((c : Thread nD τ).loc b) := fun c b => Wb11 m ρ c b
theorem hF6 (c : Dev nD) (w : Fin cfg6.W) : (dat6 (Vb10 m ρ) c).arrAt w cfg6.N = Vx11 m ρ c (Pipeline.arrRef spec6 w) :=
  (Wb11_arr m ρ c w).symm
theorem hrest6 (c : Dev nD) : ∀ b, b ∉ Finset.univ.image (Pipeline.arrRef spec6) → Vx11 m ρ c b = Vb10 m ρ c b :=
  fun b hb => Wb11_of_ne m ρ c b fun w e => hb (Finset.mem_image.mpr ⟨w, Finset.mem_univ _, e⟩)

/-! ## The proof data of all seven regions, and what rides beside the buffers -/

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (Vb1 m ρ) c
  | ⟨1, _⟩ => fun c => dat1 (Vb3 m ρ) c
  | ⟨2, _⟩ => fun c => dat2 (Vb5 m ρ) c
  | ⟨3, _⟩ => fun c => dat3 (Vb6 m ρ) c
  | ⟨4, _⟩ => fun c => dat4 (Vb7 m ρ) c
  | ⟨5, _⟩ => fun c => dat5 (Vb8 m ρ) c
  | ⟨6, _⟩ => fun c => dat6 (Vb10 m ρ) c
abbrev 𝒱₀ : Variants := Variants.none
abbrev L : GSem nD τ sig → Finset Unit := fun _ => ∅
abbrev lv : GSem nD τ sig → Unit → ℕ := fun _ _ => 0
/-- Beside the buffers: the random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps6_fresh' : (hostOps6 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary: every buffer at the last contents, the random-number register at some state. -/
abbrev Tₙ (c : Dev nD) : sProp 𝕄 := iprop(StableHlo.held (c : Thread nD τ) (Pipeline.ucRefs τ sig) (Wb11 m ρ c) ∗ ∃ r, prngReg c r)

/-! ## The regions, each entered from one boundary's contents and left at the next -/

set_option backward.isDefEq.respectTransparency.types false in
/-- Region 0: its arrays are split out of the buffers held at entry and put back at the exit contents; the random-number
    register passes through the region's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb1 m ρ c) (Vx2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: its arrays are split out of the buffers held at entry and put back at the exit contents; the random-number
    register passes through the region's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb3 m ρ c) (Vx4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: its arrays are split out of the buffers held at entry and put back at the exit contents; the random-number
    register passes through the region's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb5 m ρ) c).loose
  hwaits := Pipeline.hwaits_of_owed_zero _ _ _ _ L lv 2 fun _ _ => rfl
  pre c := iprop(StableHlo.held (c : Thread nD τ) (Pipeline.ucRefs τ sig) (Wb5 m ρ c) ∗ R c)
  post c := iprop(StableHlo.held (c : Thread nD τ) (Pipeline.ucRefs τ sig) (Wb6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vb5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vb5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vb5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: its arrays are split out of the buffers held at entry and put back at the exit contents; the random-number
    register passes through the region's invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vb6 m ρ) c).loose
  hwaits := Pipeline.hwaits_of_owed_zero _ _ _ _ L lv 3 fun _ _ => rfl
  pre c := iprop(StableHlo.held (c : Thread nD τ) (Pipeline.ucRefs τ sig) (Wb6 m ρ c) ∗ R c)
  post c := iprop(StableHlo.held (c : Thread nD τ) (Pipeline.ucRefs τ sig) (Wb7 m ρ c) ∗ R c)
  X c := iprop(∃ r, prngReg c r)
  Y c := iprop(∃ r, prngReg c r)
  Z c := Pipeline.unscopedRest (Ix := Unit) (Name := ℕ) (U := UR sig nD τ) (Lvl := ℕ) spec3 c (Vb6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vb6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vb6 m ρ c) (Vx7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: its arrays are split out of the buffers held at entry and put back at the exit contents; the random-number
    register passes through the region's invariant; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vb7 m ρ) c).loose
  hwaits := Pipeline.hwaits_of_owed_zero _ _ _ _ L lv 4 fun _ _ => rfl
  pre c := iprop(StableHlo.held (c : Thread nD τ) (Pipeline.ucRefs τ sig) (Wb7 m ρ c) ∗ R c)
  post c := iprop(StableHlo.held (c : Thread nD τ) (Pipeline.ucRefs τ sig) (Wb8 m ρ c) ∗ R c)
  X c := iprop(∃ r, prngReg c r)
  Y c := iprop(∃ r, prngReg c r)
  Z c := Pipeline.unscopedRest (Ix := Unit) (Name := ℕ) (U := UR sig nD τ) (Lvl := ℕ) spec4 c (Vb7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vb7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vb7 m ρ c) (Vx8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: its arrays are split out of the buffers held at entry and put back at the exit contents; the random-number
    register passes through the region's invariant; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vb8 m ρ) c).loose
  hwaits := Pipeline.hwaits_of_owed_zero _ _ _ _ L lv 5 fun _ _ => rfl
  pre c := iprop(StableHlo.held (c : Thread nD τ) (Pipeline.ucRefs τ sig) (Wb8 m ρ c) ∗ R c)
  post c := iprop(StableHlo.held (c : Thread nD τ) (Pipeline.ucRefs τ sig) (Wb9 m ρ c) ∗ R c)
  X c := iprop(∃ r, prngReg c r)
  Y c := iprop(∃ r, prngReg c r)
  Z c := Pipeline.unscopedRest (Ix := Unit) (Name := ℕ) (U := UR sig nD τ) (Lvl := ℕ) spec5 c (Vb8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vb8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    refine (hout5 (Vb8 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vb8 m ρ c) (Vx9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: its arrays are split out of the buffers held at entry and put back at the exit contents; the random-number
    register passes through the region's invariant; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vb10 m ρ) c).loose
  hwaits := Pipeline.hwaits_of_owed_zero _ _ _ _ L lv 6 fun _ _ => rfl
  pre c := iprop(StableHlo.held (c : Thread nD τ) (Pipeline.ucRefs τ sig) (Wb10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (Vb10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vb10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vb10 m ρ c) (Vx11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its eleven items, and the run -/

abbrev segs : List (Pipeline.Seg (pcfgs (F := F)) adm (pdats m ρ) () defs₀ 𝒱₀ L lv) :=
  [ .host (hseg hostOps0 hostOps0_sub hostOps0_fresh' (Wb0 m ρ)),
    .region (reg0 m ρ),
    .host (hseg hostOps1 hostOps1_sub hostOps1_fresh' (Wb2 m ρ)),
    .region (reg1 m ρ),
    .host (hseg hostOps2 hostOps2_sub hostOps2_fresh' (Wb4 m ρ)),
    .region (reg2 m ρ),
    .region (reg3 m ρ),
    .region (reg4 m ρ),
    .region (reg5 m ρ),
    .host (hseg hostOps6 hostOps6_sub hostOps6_fresh' (Wb9 m ρ)),
    .region (reg6 m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds each buffer that is not private to a kernel region at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb11 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb11 m ρ c) s')
      isplitl [Hh] <;> iassumption)
    (hQ := fun s h c => h c)

end Cert.KernelIdeal.Fr

end
-- ==== Proof.KI.Chain.lean ====
/-
  The buffers' contents followed through the program: an argument array is written by nothing, so at every boundary it
  holds its launch contents; an intermediate array holds, at the entry of the region that reads it, what the region
  that wrote it left (or what the host operation that made it computed).
-/
import proofs.«127111_j36644660969674_2_alg».proof.Proof.KI.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

variable {F : FTy → Type} [FloatOps F]
variable (m : (ℓ : Loc nD τ sig) → Buf (Elt F) ℓ) (ρ : Dev nD → PrngReg) (c : Dev nD)

/-! ## A stretch of host operations changes only the buffers it writes -/

theorem host1_keep (Wv : Valuation τ sig (Elt F)) (b : Ref sig .tc) (hb : b ∉ ([main_v0] : List (Ref sig .tc))) :
    StableHlo.after hostOps0 Wv (Proc.devRef .tc b) = Wv (Proc.devRef .tc b) :=
  StableHlo.after_of_forall_not_mem (b := Proc.devRef .tc b) _ _ (List.forall_iff_forall_mem.mp (by
    simp only [hostOps0, List.Forall, StableHlo.reshape_writes, StableHlo.unary_writes, Finset.mem_singleton]
    exact StableHlo.devRef_ne_of_ne (fun e => hb (e ▸ List.mem_cons_self))))

theorem host3_keep (Wv : Valuation τ sig (Elt F)) (b : Ref sig .tc) (hb : b ∉ ([main_v2] : List (Ref sig .tc))) :
    StableHlo.after hostOps1 Wv (Proc.devRef .tc b) = Wv (Proc.devRef .tc b) :=
  StableHlo.after_of_forall_not_mem (b := Proc.devRef .tc b) _ _ (List.forall_iff_forall_mem.mp (by
    simp only [hostOps1, List.Forall, StableHlo.reshape_writes, StableHlo.unary_writes, Finset.mem_singleton]
    exact StableHlo.devRef_ne_of_ne (fun e => hb (e ▸ List.mem_cons_self))))

theorem host5_keep (Wv : Valuation τ sig (Elt F)) (b : Ref sig .tc) (hb : b ∉ ([main_v4] : List (Ref sig .tc))) :
    StableHlo.after hostOps2 Wv (Proc.devRef .tc b) = Wv (Proc.devRef .tc b) :=
  StableHlo.after_of_forall_not_mem (b := Proc.devRef .tc b) _ _ (List.forall_iff_forall_mem.mp (by
    simp only [hostOps2, List.Forall, StableHlo.reshape_writes, StableHlo.unary_writes, Finset.mem_singleton]
    exact StableHlo.devRef_ne_of_ne (fun e => hb (e ▸ List.mem_cons_self))))

theorem host10_keep (Wv : Valuation τ sig (Elt F)) (b : Ref sig .tc) (hb : b ∉ ([main_v9, main_v10] : List (Ref sig .tc))) :
    StableHlo.after hostOps6 Wv (Proc.devRef .tc b) = Wv (Proc.devRef .tc b) :=
  StableHlo.after_of_forall_not_mem (b := Proc.devRef .tc b) _ _ (List.forall_iff_forall_mem.mp (by
    simp only [hostOps6, List.Forall, StableHlo.reshape_writes, StableHlo.unary_writes, Finset.mem_singleton]
    exact ⟨StableHlo.devRef_ne_of_ne (fun e => hb (e ▸ List.mem_cons_self)), StableHlo.devRef_ne_of_ne (fun e => hb (e ▸ List.mem_cons_of_mem _ List.mem_cons_self))⟩))

/-! ## The argument arrays, at every boundary -/
theorem Wb1_arg0 : Wb1 m ρ c (Proc.devRef .tc main_arg0) = m ((c : Thread nD τ).loc main_arg0) :=
  (host1_keep (Wb0 m ρ c) main_arg0 (by decide)).trans rfl
theorem Wb2_arg0 : Wb2 m ρ c (Proc.devRef .tc main_arg0) = m ((c : Thread nD τ).loc main_arg0) :=
  (Wb2_of_ne m ρ c main_arg0 (by decide)).trans (Wb1_arg0 m ρ c)
theorem Wb3_arg0 : Wb3 m ρ c (Proc.devRef .tc main_arg0) = m ((c : Thread nD τ).loc main_arg0) :=
  (host3_keep (Wb2 m ρ c) main_arg0 (by decide)).trans (Wb2_arg0 m ρ c)
theorem Wb4_arg0 : Wb4 m ρ c (Proc.devRef .tc main_arg0) = m ((c : Thread nD τ).loc main_arg0) :=
  (Wb4_of_ne m ρ c main_arg0 (by decide)).trans (Wb3_arg0 m ρ c)
theorem Wb5_arg0 : Wb5 m ρ c (Proc.devRef .tc main_arg0) = m ((c : Thread nD τ).loc main_arg0) :=
  (host5_keep (Wb4 m ρ c) main_arg0 (by decide)).trans (Wb4_arg0 m ρ c)
theorem Wb6_arg0 : Wb6 m ρ c (Proc.devRef .tc main_arg0) = m ((c : Thread nD τ).loc main_arg0) :=
  ((Wb6_arr m ρ c 0).trans (((dat2 (Vb5 m ρ) c).arrAt_in 0 rfl _).trans (A_eq2 (Vb5 m ρ) c 0))).trans (Wb5_arg0 m ρ c)
theorem Wb7_arg0 : Wb7 m ρ c (Proc.devRef .tc main_arg0) = m ((c : Thread nD τ).loc main_arg0) :=
  (Wb7_of_ne m ρ c main_arg0 (by decide)).trans (Wb6_arg0 m ρ c)
theorem Wb8_arg0 : Wb8 m ρ c (Proc.devRef .tc main_arg0) = m ((c : Thread nD τ).loc main_arg0) :=
  (Wb8_of_ne m ρ c main_arg0 (by decide)).trans (Wb7_arg0 m ρ c)
theorem Wb9_arg0 : Wb9 m ρ c (Proc.devRef .tc main_arg0) = m ((c : Thread nD τ).loc main_arg0) :=
  ((Wb9_arr m ρ c 1).trans (((dat5 (Vb8 m ρ) c).arrAt_in 1 rfl _).trans (A_eq5 (Vb8 m ρ) c 1))).trans (Wb8_arg0 m ρ c)
theorem Wb10_arg0 : Wb10 m ρ c (Proc.devRef .tc main_arg0) = m ((c : Thread nD τ).loc main_arg0) :=
  (host10_keep (Wb9 m ρ c) main_arg0 (by decide)).trans (Wb9_arg0 m ρ c)
theorem Wb11_arg0 : Wb11 m ρ c (Proc.devRef .tc main_arg0) = m ((c : Thread nD τ).loc main_arg0) :=
  (Wb11_of_ne m ρ c main_arg0 (by decide)).trans (Wb10_arg0 m ρ c)
theorem Wb1_arg1 : Wb1 m ρ c (Proc.devRef .tc main_arg1) = m ((c : Thread nD τ).loc main_arg1) :=
  (host1_keep (Wb0 m ρ c) main_arg1 (by decide)).trans rfl
theorem Wb2_arg1 : Wb2 m ρ c (Proc.devRef .tc main_arg1) = m ((c : Thread nD τ).loc main_arg1) :=
  ((Wb2_arr m ρ c 0).trans (((dat0 (Vb1 m ρ) c).arrAt_in 0 rfl _).trans (A_eq0 (Vb1 m ρ) c 0))).trans (Wb1_arg1 m ρ c)
theorem Wb3_arg1 : Wb3 m ρ c (Proc.devRef .tc main_arg1) = m ((c : Thread nD τ).loc main_arg1) :=
  (host3_keep (Wb2 m ρ c) main_arg1 (by decide)).trans (Wb2_arg1 m ρ c)
theorem Wb4_arg1 : Wb4 m ρ c (Proc.devRef .tc main_arg1) = m ((c : Thread nD τ).loc main_arg1) :=
  (Wb4_of_ne m ρ c main_arg1 (by decide)).trans (Wb3_arg1 m ρ c)
theorem Wb5_arg1 : Wb5 m ρ c (Proc.devRef .tc main_arg1) = m ((c : Thread nD τ).loc main_arg1) :=
  (host5_keep (Wb4 m ρ c) main_arg1 (by decide)).trans (Wb4_arg1 m ρ c)
theorem Wb6_arg1 : Wb6 m ρ c (Proc.devRef .tc main_arg1) = m ((c : Thread nD τ).loc main_arg1) :=
  (Wb6_of_ne m ρ c main_arg1 (by decide)).trans (Wb5_arg1 m ρ c)
theorem Wb7_arg1 : Wb7 m ρ c (Proc.devRef .tc main_arg1) = m ((c : Thread nD τ).loc main_arg1) :=
  (Wb7_of_ne m ρ c main_arg1 (by decide)).trans (Wb6_arg1 m ρ c)
theorem Wb8_arg1 : Wb8 m ρ c (Proc.devRef .tc main_arg1) = m ((c : Thread nD τ).loc main_arg1) :=
  (Wb8_of_ne m ρ c main_arg1 (by decide)).trans (Wb7_arg1 m ρ c)
theorem Wb9_arg1 : Wb9 m ρ c (Proc.devRef .tc main_arg1) = m ((c : Thread nD τ).loc main_arg1) :=
  (Wb9_of_ne m ρ c main_arg1 (by decide)).trans (Wb8_arg1 m ρ c)
theorem Wb10_arg1 : Wb10 m ρ c (Proc.devRef .tc main_arg1) = m ((c : Thread nD τ).loc main_arg1) :=
  (host10_keep (Wb9 m ρ c) main_arg1 (by decide)).trans (Wb9_arg1 m ρ c)
theorem Wb11_arg1 : Wb11 m ρ c (Proc.devRef .tc main_arg1) = m ((c : Thread nD τ).loc main_arg1) :=
  (Wb11_of_ne m ρ c main_arg1 (by decide)).trans (Wb10_arg1 m ρ c)
theorem Wb1_arg2 : Wb1 m ρ c (Proc.devRef .tc main_arg2) = m ((c : Thread nD τ).loc main_arg2) :=
  (host1_keep (Wb0 m ρ c) main_arg2 (by decide)).trans rfl
theorem Wb2_arg2 : Wb2 m ρ c (Proc.devRef .tc main_arg2) = m ((c : Thread nD τ).loc main_arg2) :=
  (Wb2_of_ne m ρ c main_arg2 (by decide)).trans (Wb1_arg2 m ρ c)
theorem Wb3_arg2 : Wb3 m ρ c (Proc.devRef .tc main_arg2) = m ((c : Thread nD τ).loc main_arg2) :=
  (host3_keep (Wb2 m ρ c) main_arg2 (by decide)).trans (Wb2_arg2 m ρ c)
theorem Wb4_arg2 : Wb4 m ρ c (Proc.devRef .tc main_arg2) = m ((c : Thread nD τ).loc main_arg2) :=
  ((Wb4_arr m ρ c 0).trans (((dat1 (Vb3 m ρ) c).arrAt_in 0 rfl _).trans (A_eq1 (Vb3 m ρ) c 0))).trans (Wb3_arg2 m ρ c)
theorem Wb5_arg2 : Wb5 m ρ c (Proc.devRef .tc main_arg2) = m ((c : Thread nD τ).loc main_arg2) :=
  (host5_keep (Wb4 m ρ c) main_arg2 (by decide)).trans (Wb4_arg2 m ρ c)
theorem Wb6_arg2 : Wb6 m ρ c (Proc.devRef .tc main_arg2) = m ((c : Thread nD τ).loc main_arg2) :=
  (Wb6_of_ne m ρ c main_arg2 (by decide)).trans (Wb5_arg2 m ρ c)
theorem Wb7_arg2 : Wb7 m ρ c (Proc.devRef .tc main_arg2) = m ((c : Thread nD τ).loc main_arg2) :=
  (Wb7_of_ne m ρ c main_arg2 (by decide)).trans (Wb6_arg2 m ρ c)
theorem Wb8_arg2 : Wb8 m ρ c (Proc.devRef .tc main_arg2) = m ((c : Thread nD τ).loc main_arg2) :=
  (Wb8_of_ne m ρ c main_arg2 (by decide)).trans (Wb7_arg2 m ρ c)
theorem Wb9_arg2 : Wb9 m ρ c (Proc.devRef .tc main_arg2) = m ((c : Thread nD τ).loc main_arg2) :=
  (Wb9_of_ne m ρ c main_arg2 (by decide)).trans (Wb8_arg2 m ρ c)
theorem Wb10_arg2 : Wb10 m ρ c (Proc.devRef .tc main_arg2) = m ((c : Thread nD τ).loc main_arg2) :=
  (host10_keep (Wb9 m ρ c) main_arg2 (by decide)).trans (Wb9_arg2 m ρ c)
theorem Wb11_arg2 : Wb11 m ρ c (Proc.devRef .tc main_arg2) = m ((c : Thread nD τ).loc main_arg2) :=
  (Wb11_of_ne m ρ c main_arg2 (by decide)).trans (Wb10_arg2 m ρ c)
theorem Wb1_arg3 : Wb1 m ρ c (Proc.devRef .tc main_arg3) = m ((c : Thread nD τ).loc main_arg3) :=
  (host1_keep (Wb0 m ρ c) main_arg3 (by decide)).trans rfl
theorem Wb2_arg3 : Wb2 m ρ c (Proc.devRef .tc main_arg3) = m ((c : Thread nD τ).loc main_arg3) :=
  (Wb2_of_ne m ρ c main_arg3 (by decide)).trans (Wb1_arg3 m ρ c)
theorem Wb3_arg3 : Wb3 m ρ c (Proc.devRef .tc main_arg3) = m ((c : Thread nD τ).loc main_arg3) :=
  (host3_keep (Wb2 m ρ c) main_arg3 (by decide)).trans (Wb2_arg3 m ρ c)
theorem Wb4_arg3 : Wb4 m ρ c (Proc.devRef .tc main_arg3) = m ((c : Thread nD τ).loc main_arg3) :=
  ((Wb4_arr m ρ c 1).trans (((dat1 (Vb3 m ρ) c).arrAt_in 1 rfl _).trans (A_eq1 (Vb3 m ρ) c 1))).trans (Wb3_arg3 m ρ c)
theorem Wb5_arg3 : Wb5 m ρ c (Proc.devRef .tc main_arg3) = m ((c : Thread nD τ).loc main_arg3) :=
  (host5_keep (Wb4 m ρ c) main_arg3 (by decide)).trans (Wb4_arg3 m ρ c)
theorem Wb6_arg3 : Wb6 m ρ c (Proc.devRef .tc main_arg3) = m ((c : Thread nD τ).loc main_arg3) :=
  ((Wb6_arr m ρ c 1).trans (((dat2 (Vb5 m ρ) c).arrAt_in 1 rfl _).trans (A_eq2 (Vb5 m ρ) c 1))).trans (Wb5_arg3 m ρ c)
theorem Wb7_arg3 : Wb7 m ρ c (Proc.devRef .tc main_arg3) = m ((c : Thread nD τ).loc main_arg3) :=
  (Wb7_of_ne m ρ c main_arg3 (by decide)).trans (Wb6_arg3 m ρ c)
theorem Wb8_arg3 : Wb8 m ρ c (Proc.devRef .tc main_arg3) = m ((c : Thread nD τ).loc main_arg3) :=
  (Wb8_of_ne m ρ c main_arg3 (by decide)).trans (Wb7_arg3 m ρ c)
theorem Wb9_arg3 : Wb9 m ρ c (Proc.devRef .tc main_arg3) = m ((c : Thread nD τ).loc main_arg3) :=
  (Wb9_of_ne m ρ c main_arg3 (by decide)).trans (Wb8_arg3 m ρ c)
theorem Wb10_arg3 : Wb10 m ρ c (Proc.devRef .tc main_arg3) = m ((c : Thread nD τ).loc main_arg3) :=
  (host10_keep (Wb9 m ρ c) main_arg3 (by decide)).trans (Wb9_arg3 m ρ c)
theorem Wb11_arg3 : Wb11 m ρ c (Proc.devRef .tc main_arg3) = m ((c : Thread nD τ).loc main_arg3) :=
  (Wb11_of_ne m ρ c main_arg3 (by decide)).trans (Wb10_arg3 m ρ c)
theorem Wb1_arg4 : Wb1 m ρ c (Proc.devRef .tc main_arg4) = m ((c : Thread nD τ).loc main_arg4) :=
  (host1_keep (Wb0 m ρ c) main_arg4 (by decide)).trans rfl
theorem Wb2_arg4 : Wb2 m ρ c (Proc.devRef .tc main_arg4) = m ((c : Thread nD τ).loc main_arg4) :=
  (Wb2_of_ne m ρ c main_arg4 (by decide)).trans (Wb1_arg4 m ρ c)
theorem Wb3_arg4 : Wb3 m ρ c (Proc.devRef .tc main_arg4) = m ((c : Thread nD τ).loc main_arg4) :=
  (host3_keep (Wb2 m ρ c) main_arg4 (by decide)).trans (Wb2_arg4 m ρ c)
theorem Wb4_arg4 : Wb4 m ρ c (Proc.devRef .tc main_arg4) = m ((c : Thread nD τ).loc main_arg4) :=
  (Wb4_of_ne m ρ c main_arg4 (by decide)).trans (Wb3_arg4 m ρ c)
theorem Wb5_arg4 : Wb5 m ρ c (Proc.devRef .tc main_arg4) = m ((c : Thread nD τ).loc main_arg4) :=
  (host5_keep (Wb4 m ρ c) main_arg4 (by decide)).trans (Wb4_arg4 m ρ c)
theorem Wb6_arg4 : Wb6 m ρ c (Proc.devRef .tc main_arg4) = m ((c : Thread nD τ).loc main_arg4) :=
  (Wb6_of_ne m ρ c main_arg4 (by decide)).trans (Wb5_arg4 m ρ c)
theorem Wb7_arg4 : Wb7 m ρ c (Proc.devRef .tc main_arg4) = m ((c : Thread nD τ).loc main_arg4) :=
  (Wb7_of_ne m ρ c main_arg4 (by decide)).trans (Wb6_arg4 m ρ c)
theorem Wb8_arg4 : Wb8 m ρ c (Proc.devRef .tc main_arg4) = m ((c : Thread nD τ).loc main_arg4) :=
  (Wb8_of_ne m ρ c main_arg4 (by decide)).trans (Wb7_arg4 m ρ c)
theorem Wb9_arg4 : Wb9 m ρ c (Proc.devRef .tc main_arg4) = m ((c : Thread nD τ).loc main_arg4) :=
  (Wb9_of_ne m ρ c main_arg4 (by decide)).trans (Wb8_arg4 m ρ c)
theorem Wb10_arg4 : Wb10 m ρ c (Proc.devRef .tc main_arg4) = m ((c : Thread nD τ).loc main_arg4) :=
  (host10_keep (Wb9 m ρ c) main_arg4 (by decide)).trans (Wb9_arg4 m ρ c)
theorem Wb11_arg4 : Wb11 m ρ c (Proc.devRef .tc main_arg4) = m ((c : Thread nD τ).loc main_arg4) :=
  (Wb11_of_ne m ρ c main_arg4 (by decide)).trans (Wb10_arg4 m ρ c)
theorem Wb1_arg5 : Wb1 m ρ c (Proc.devRef .tc main_arg5) = m ((c : Thread nD τ).loc main_arg5) :=
  (host1_keep (Wb0 m ρ c) main_arg5 (by decide)).trans rfl
theorem Wb2_arg5 : Wb2 m ρ c (Proc.devRef .tc main_arg5) = m ((c : Thread nD τ).loc main_arg5) :=
  ((Wb2_arr m ρ c 1).trans (((dat0 (Vb1 m ρ) c).arrAt_in 1 rfl _).trans (A_eq0 (Vb1 m ρ) c 1))).trans (Wb1_arg5 m ρ c)
theorem Wb3_arg5 : Wb3 m ρ c (Proc.devRef .tc main_arg5) = m ((c : Thread nD τ).loc main_arg5) :=
  (host3_keep (Wb2 m ρ c) main_arg5 (by decide)).trans (Wb2_arg5 m ρ c)
theorem Wb4_arg5 : Wb4 m ρ c (Proc.devRef .tc main_arg5) = m ((c : Thread nD τ).loc main_arg5) :=
  (Wb4_of_ne m ρ c main_arg5 (by decide)).trans (Wb3_arg5 m ρ c)
theorem Wb5_arg5 : Wb5 m ρ c (Proc.devRef .tc main_arg5) = m ((c : Thread nD τ).loc main_arg5) :=
  (host5_keep (Wb4 m ρ c) main_arg5 (by decide)).trans (Wb4_arg5 m ρ c)
theorem Wb6_arg5 : Wb6 m ρ c (Proc.devRef .tc main_arg5) = m ((c : Thread nD τ).loc main_arg5) :=
  (Wb6_of_ne m ρ c main_arg5 (by decide)).trans (Wb5_arg5 m ρ c)
theorem Wb7_arg5 : Wb7 m ρ c (Proc.devRef .tc main_arg5) = m ((c : Thread nD τ).loc main_arg5) :=
  (Wb7_of_ne m ρ c main_arg5 (by decide)).trans (Wb6_arg5 m ρ c)
theorem Wb8_arg5 : Wb8 m ρ c (Proc.devRef .tc main_arg5) = m ((c : Thread nD τ).loc main_arg5) :=
  (Wb8_of_ne m ρ c main_arg5 (by decide)).trans (Wb7_arg5 m ρ c)
theorem Wb9_arg5 : Wb9 m ρ c (Proc.devRef .tc main_arg5) = m ((c : Thread nD τ).loc main_arg5) :=
  (Wb9_of_ne m ρ c main_arg5 (by decide)).trans (Wb8_arg5 m ρ c)
theorem Wb10_arg5 : Wb10 m ρ c (Proc.devRef .tc main_arg5) = m ((c : Thread nD τ).loc main_arg5) :=
  (host10_keep (Wb9 m ρ c) main_arg5 (by decide)).trans (Wb9_arg5 m ρ c)
theorem Wb11_arg5 : Wb11 m ρ c (Proc.devRef .tc main_arg5) = m ((c : Thread nD τ).loc main_arg5) :=
  (Wb11_of_ne m ρ c main_arg5 (by decide)).trans (Wb10_arg5 m ρ c)
theorem Wb1_arg6 : Wb1 m ρ c (Proc.devRef .tc main_arg6) = m ((c : Thread nD τ).loc main_arg6) :=
  (host1_keep (Wb0 m ρ c) main_arg6 (by decide)).trans rfl
theorem Wb2_arg6 : Wb2 m ρ c (Proc.devRef .tc main_arg6) = m ((c : Thread nD τ).loc main_arg6) :=
  (Wb2_of_ne m ρ c main_arg6 (by decide)).trans (Wb1_arg6 m ρ c)
theorem Wb3_arg6 : Wb3 m ρ c (Proc.devRef .tc main_arg6) = m ((c : Thread nD τ).loc main_arg6) :=
  (host3_keep (Wb2 m ρ c) main_arg6 (by decide)).trans (Wb2_arg6 m ρ c)
theorem Wb4_arg6 : Wb4 m ρ c (Proc.devRef .tc main_arg6) = m ((c : Thread nD τ).loc main_arg6) :=
  (Wb4_of_ne m ρ c main_arg6 (by decide)).trans (Wb3_arg6 m ρ c)
theorem Wb5_arg6 : Wb5 m ρ c (Proc.devRef .tc main_arg6) = m ((c : Thread nD τ).loc main_arg6) :=
  (host5_keep (Wb4 m ρ c) main_arg6 (by decide)).trans (Wb4_arg6 m ρ c)
theorem Wb6_arg6 : Wb6 m ρ c (Proc.devRef .tc main_arg6) = m ((c : Thread nD τ).loc main_arg6) :=
  (Wb6_of_ne m ρ c main_arg6 (by decide)).trans (Wb5_arg6 m ρ c)
theorem Wb7_arg6 : Wb7 m ρ c (Proc.devRef .tc main_arg6) = m ((c : Thread nD τ).loc main_arg6) :=
  (Wb7_of_ne m ρ c main_arg6 (by decide)).trans (Wb6_arg6 m ρ c)
theorem Wb8_arg6 : Wb8 m ρ c (Proc.devRef .tc main_arg6) = m ((c : Thread nD τ).loc main_arg6) :=
  (Wb8_of_ne m ρ c main_arg6 (by decide)).trans (Wb7_arg6 m ρ c)
theorem Wb9_arg6 : Wb9 m ρ c (Proc.devRef .tc main_arg6) = m ((c : Thread nD τ).loc main_arg6) :=
  (Wb9_of_ne m ρ c main_arg6 (by decide)).trans (Wb8_arg6 m ρ c)
theorem Wb10_arg6 : Wb10 m ρ c (Proc.devRef .tc main_arg6) = m ((c : Thread nD τ).loc main_arg6) :=
  (host10_keep (Wb9 m ρ c) main_arg6 (by decide)).trans (Wb9_arg6 m ρ c)
theorem Wb11_arg6 : Wb11 m ρ c (Proc.devRef .tc main_arg6) = m ((c : Thread nD τ).loc main_arg6) :=
  (Wb11_of_ne m ρ c main_arg6 (by decide)).trans (Wb10_arg6 m ρ c)

/-! ## The intermediate arrays between the region that writes them and the last one that reads them -/
theorem Wb3_v1_keep : Wb3 m ρ c (Proc.devRef .tc main_v1) = Wb2 m ρ c (Proc.devRef .tc main_v1) :=
  (host3_keep (Wb2 m ρ c) main_v1 (by decide))
theorem Wb4_v1_keep : Wb4 m ρ c (Proc.devRef .tc main_v1) = Wb2 m ρ c (Proc.devRef .tc main_v1) :=
  (Wb4_of_ne m ρ c main_v1 (by decide)).trans (Wb3_v1_keep m ρ c)
theorem Wb5_v1_keep : Wb5 m ρ c (Proc.devRef .tc main_v1) = Wb2 m ρ c (Proc.devRef .tc main_v1) :=
  (host5_keep (Wb4 m ρ c) main_v1 (by decide)).trans (Wb4_v1_keep m ρ c)
theorem Wb5_v3_keep : Wb5 m ρ c (Proc.devRef .tc main_v3) = Wb4 m ρ c (Proc.devRef .tc main_v3) :=
  (host5_keep (Wb4 m ρ c) main_v3 (by decide))
theorem Wb6_v3_keep : Wb6 m ρ c (Proc.devRef .tc main_v3) = Wb4 m ρ c (Proc.devRef .tc main_v3) :=
  (Wb6_of_ne m ρ c main_v3 (by decide)).trans (Wb5_v3_keep m ρ c)
theorem Wb9_v7_keep : Wb9 m ρ c (Proc.devRef .tc main_v7) = Wb8 m ρ c (Proc.devRef .tc main_v7) :=
  ((Wb9_arr m ρ c 0).trans (((dat5 (Vb8 m ρ) c).arrAt_in 0 rfl _).trans (A_eq5 (Vb8 m ρ) c 0)))
theorem Wb10_v7_keep : Wb10 m ρ c (Proc.devRef .tc main_v7) = Wb8 m ρ c (Proc.devRef .tc main_v7) :=
  (host10_keep (Wb9 m ρ c) main_v7 (by decide)).trans (Wb9_v7_keep m ρ c)
theorem Wb10_v8_keep : Wb10 m ρ c (Proc.devRef .tc main_v8) = Wb9 m ρ c (Proc.devRef .tc main_v8) :=
  (host10_keep (Wb9 m ρ c) main_v8 (by decide))
theorem Wb11_v8_keep : Wb11 m ρ c (Proc.devRef .tc main_v8) = Wb9 m ρ c (Proc.devRef .tc main_v8) :=
  (Wb11_of_ne m ρ c main_v8 (by decide)).trans (Wb10_v8_keep m ρ c)

end Cert.KernelIdeal.Val

end
-- ==== Proof.KI.Dots.lean ====
/-
  The four matrix products of the kernels, each into a zero accumulator, read at an entry of the result as a plain
  sum over the contracted axis: which coordinate of each operand the contraction runs over is read off the
  product's dimension numbers.
-/
import proofs.«127111_j36644660969674_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

theorem lhsA_0 (i : S256x2048.Idx) (q : dot_S256x2048_S2048x2048_S256x2048_1_1_0_0_n_n.contr.Idx) : (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem rhsA_0 (i : S256x2048.Idx) (q : dot_S256x2048_S2048x2048_S256x2048_1_1_0_0_n_n.contr.Idx) : (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
/-- Entry (p, q) of the product: the sum over k of the left operand at (p, k) times the right at (q, k). -/
theorem mmA (prec : Option ContractPrecision) (l : FVec Ideal S256x2048 .f32) (r : FVec Ideal S2048x2048 .f32) (p : Fin 256) (q : Fin 2048) :
    matmul dot_S256x2048_S2048x2048_S256x2048_1_1_0_0_n_n prec l r (constant S256x2048 .f32 0x00000000#32) (ix2 p q) = ∑ k : Fin 2048, l (ix2 p k) * r (ix2 q k) := by
  refine (Ideal.matmul_constant_zero_apply dot_S256x2048_S2048x2048_S256x2048_1_1_0_0_n_n prec l r (ix2 p q)).trans ?_
  rw [← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p q) ((ValueIdx.contrEquiv1 dot_S256x2048_S2048x2048_S256x2048_1_1_0_0_n_n 2048 rfl rfl).symm k) = ix2 p k := funext fun a => Fin.ext (by
    match a with
    | ⟨0, _⟩ => exact lhsA_0 _ _
    | ⟨1, _⟩ => exact (dot_S256x2048_S2048x2048_S256x2048_1_1_0_0_n_n.lhsIdx_val_of_single rfl _ _).trans hk)
  have er : dot_S256x2048_S2048x2048_S256x2048_1_1_0_0_n_n.rhsIdx (ix2 p q) ((ValueIdx.contrEquiv1 dot_S256x2048_S2048x2048_S256x2048_1_1_0_0_n_n 2048 rfl rfl).symm k) = ix2 q k := funext fun a => Fin.ext (by
    match a with
    | ⟨0, _⟩ => exact rhsA_0 _ _
    | ⟨1, _⟩ => exact (dot_S256x2048_S2048x2048_S256x2048_1_1_0_0_n_n.rhsIdx_val_of_single rfl _ _).trans hk)
  rw [el, er]

theorem lhsB_0 (i : S2048x256.Idx) (q : dot_S2048x2048_S256x2048_S2048x256_1_1_0_0_n_n.contr.Idx) : (dot_S2048x2048_S256x2048_S2048x256_1_1_0_0_n_n.lhsIdx i q 0).val = (i 0).val := by
  unfold DotDims.lhsIdx
  rw [dif_neg (show ¬(0 : Fin S2048x2048.rank) ∈ dot_S2048x2048_S256x2048_S2048x256_1_1_0_0_n_n.lhsBatch by decide), dif_pos (show (0 : Fin S2048x2048.rank) ∈ dot_S2048x2048_S256x2048_S2048x256_1_1_0_0_n_n.lhsNonContracting by decide)]
  rfl
theorem rhsB_0 (i : S2048x256.Idx) (q : dot_S2048x2048_S256x2048_S2048x256_1_1_0_0_n_n.contr.Idx) : (dot_S2048x2048_S256x2048_S2048x256_1_1_0_0_n_n.rhsIdx i q 0).val = (i 1).val := by
  unfold DotDims.rhsIdx
  rw [dif_neg (show ¬(0 : Fin S256x2048.rank) ∈ dot_S2048x2048_S256x2048_S2048x256_1_1_0_0_n_n.rhsBatch by decide), dif_pos (show (0 : Fin S256x2048.rank) ∈ dot_S2048x2048_S256x2048_S2048x256_1_1_0_0_n_n.rhsNonContracting by decide)]
  rfl
/-- Entry (p, q) of the product: the sum over k of the left operand at (p, k) times the right at (q, k). -/
theorem mmB (prec : Option ContractPrecision) (l : FVec Ideal S2048x2048 .f32) (r : FVec Ideal S256x2048 .f32) (p : Fin 2048) (q : Fin 256) :
    matmul dot_S2048x2048_S256x2048_S2048x256_1_1_0_0_n_n prec l r (constant S2048x256 .f32 0x00000000#32) (ix2 p q) = ∑ k : Fin 2048, l (ix2 p k) * r (ix2 q k) := by
  refine (Ideal.matmul_constant_zero_apply dot_S2048x2048_S256x2048_S2048x256_1_1_0_0_n_n prec l r (ix2 p q)).trans ?_
  rw [← Equiv.sum_comp (ValueIdx.contrEquiv1 dot_S2048x2048_S256x2048_S2048x256_1_1_0_0_n_n 2048 rfl rfl).symm]
  refine Finset.sum_congr rfl fun k _ => ?_
  have hk := ValueIdx.contrEquiv1_symm_val dot_S2048x2048_S256x2048_S2048x256_1_1_0_0_n_n 2048 rfl rfl k
  have el : dot_S2048x2048_S256x2048_S2048x256_1_1_0_0_n_n.lhsIdx (ix2 p q) ((ValueIdx.contrEquiv1 dot_S2048x2048_S256x2048_S2048x256_1_1_0_0_n_n 2048 rfl rfl).symm k) = ix2 p k := funext fun a => Fin.ext (by
    match a with
    | ⟨0, _⟩ => exact lhsB_0 _ _
    | ⟨1, _⟩ => exact (dot_S2048x2048_S256x2048_S2048x256_1_1_0_0_n_n.lhsIdx_val_of_single rfl _ _).trans hk)
  have er : dot_S2048x2048_S256x2048_S2048x256_1_1_0_0_n_n.rhsIdx (ix2 p q) ((ValueIdx.contrEquiv1 dot_S2048x2048_S256x2048_S2048x256_1_1_0_0_n_n 2048 rfl rfl).symm k) = ix2 q k := funext fun a => Fin.ext (by
    match a with
    | ⟨0, _⟩ => exact rhsB_0 _ _
    | ⟨1, _⟩ => exact (dot_S2048x2048_S256x2048_S2048x256_1_1_0_0_n_n.rhsIdx_val_of_single rfl _ _).trans hk)
  rw [el, er]

theorem lhsC_0 (i : S2048x2048.Idx) (q : dot_S2048x128_S128x2048_S2048x2048_1_0_0_1_n_n.contr.Idx) : (dot_S2048x128_S128x2048_S2048x2048_1_0_0_1_n_n.lhsIdx i q 0).val = (i 0).val := by
  unfold DotDims.lhsIdx
  rw [dif_neg (show ¬(0 : Fin S2048x128.rank) ∈ dot_S2048x128_S128x2048_S2048x2048_1_0_0_1_n_n.lhsBatch by decide), dif_pos (show (0 : Fin S2048x128.rank) ∈ dot_S2048x128_S128x2048_S2048x2048_1_0_0_1_n_n.lhsNonContracting by decide)]
  rfl
theorem rhsC_1 (i : S2048x2048.Idx) (q : dot_S2048x128_S128x2048_S2048x2048_1_0_0_1_n_n.contr.Idx) : (dot_S2048x128_S128x2048_S2048x2048_1_0_0_1_n_n.rhsIdx i q 1).val = (i 1).val := by
  unfold DotDims.rhsIdx
  rw [dif_neg (show ¬(1 : Fin S128x2048.rank) ∈ dot_S2048x128_S128x2048_S2048x2048_1_0_0_1_n_n.rhsBatch by decide), dif_pos (show (1 : Fin S128x2048.rank) ∈ dot_S2048x128_S128x2048_S2048x2048_1_0_0_1_n_n.rhsNonContracting by decide)]
  rfl
/-- Entry (p, q) of the product: the sum over k of the left operand at (p, k) times the right at (k, q). -/
theorem mmC (prec : Option ContractPrecision) (l : FVec Ideal S2048x128 .bf16) (r : FVec Ideal S128x2048 .bf16) (p : Fin 2048) (q : Fin 2048) :
    matmul dot_S2048x128_S128x2048_S2048x2048_1_0_0_1_n_n prec l r (constant S2048x2048 .f32 0x00000000#32) (ix2 p q) = ∑ k : Fin 128, l (ix2 p k) * r (ix2 k q) := by
  refine (Ideal.matmul_constant_zero_apply dot_S2048x128_S128x2048_S2048x2048_1_0_0_1_n_n prec l r (ix2 p q)).trans ?_
  rw [← Equiv.sum_comp (ValueIdx.contrEquiv1 dot_S2048x128_S128x2048_S2048x2048_1_0_0_1_n_n 128 rfl rfl).symm]
  refine Finset.sum_congr rfl fun k _ => ?_
  have hk := ValueIdx.contrEquiv1_symm_val dot_S2048x128_S128x2048_S2048x2048_1_0_0_1_n_n 128 rfl rfl k
  have el : dot_S2048x128_S128x2048_S2048x2048_1_0_0_1_n_n.lhsIdx (ix2 p q) ((ValueIdx.contrEquiv1 dot_S2048x128_S128x2048_S2048x2048_1_0_0_1_n_n 128 rfl rfl).symm k) = ix2 p k := funext fun a => Fin.ext (by
    match a with
    | ⟨0, _⟩ => exact lhsC_0 _ _
    | ⟨1, _⟩ => exact (dot_S2048x128_S128x2048_S2048x2048_1_0_0_1_n_n.lhsIdx_val_of_single rfl _ _).trans hk)
  have er : dot_S2048x128_S128x2048_S2048x2048_1_0_0_1_n_n.rhsIdx (ix2 p q) ((ValueIdx.contrEquiv1 dot_S2048x128_S128x2048_S2048x2048_1_0_0_1_n_n 128 rfl rfl).symm k) = ix2 k q := funext fun a => Fin.ext (by
    match a with
    | ⟨1, _⟩ => exact rhsC_1 _ _
    | ⟨0, _⟩ => exact (dot_S2048x128_S128x2048_S2048x2048_1_0_0_1_n_n.rhsIdx_val_of_single rfl _ _).trans hk)
  rw [el, er]

theorem lhsD_1 (i : S512x2048.Idx) (q : dot_S2048x512_S2048x2048_S512x2048_0_0_1_1_n_n.contr.Idx) : (dot_S2048x512_S2048x2048_S512x2048_0_0_1_1_n_n.lhsIdx i q 1).val = (i 0).val := by
  unfold DotDims.lhsIdx
  rw [dif_neg (show ¬(1 : Fin S2048x512.rank) ∈ dot_S2048x512_S2048x2048_S512x2048_0_0_1_1_n_n.lhsBatch by decide), dif_pos (show (1 : Fin S2048x512.rank) ∈ dot_S2048x512_S2048x2048_S512x2048_0_0_1_1_n_n.lhsNonContracting by decide)]
  rfl
theorem rhsD_1 (i : S512x2048.Idx) (q : dot_S2048x512_S2048x2048_S512x2048_0_0_1_1_n_n.contr.Idx) : (dot_S2048x512_S2048x2048_S512x2048_0_0_1_1_n_n.rhsIdx i q 1).val = (i 1).val := by
  unfold DotDims.rhsIdx
  rw [dif_neg (show ¬(1 : Fin S2048x2048.rank) ∈ dot_S2048x512_S2048x2048_S512x2048_0_0_1_1_n_n.rhsBatch by decide), dif_pos (show (1 : Fin S2048x2048.rank) ∈ dot_S2048x512_S2048x2048_S512x2048_0_0_1_1_n_n.rhsNonContracting by decide)]
  rfl
/-- Entry (p, q) of the product: the sum over k of the left operand at (k, p) times the right at (k, q). -/
theorem mmD (prec : Option ContractPrecision) (l : FVec Ideal S2048x512 .bf16) (r : FVec Ideal S2048x2048 .bf16) (p : Fin 512) (q : Fin 2048) :
    matmul dot_S2048x512_S2048x2048_S512x2048_0_0_1_1_n_n prec l r (constant S512x2048 .f32 0x00000000#32) (ix2 p q) = ∑ k : Fin 2048, l (ix2 k p) * r (ix2 k q) := by
  refine (Ideal.matmul_constant_zero_apply dot_S2048x512_S2048x2048_S512x2048_0_0_1_1_n_n prec l r (ix2 p q)).trans ?_
  rw [← Equiv.sum_comp (ValueIdx.contrEquiv1 dot_S2048x512_S2048x2048_S512x2048_0_0_1_1_n_n 2048 rfl rfl).symm]
  refine Finset.sum_congr rfl fun k _ => ?_
  have hk := ValueIdx.contrEquiv1_symm_val dot_S2048x512_S2048x2048_S512x2048_0_0_1_1_n_n 2048 rfl rfl k
  have el : dot_S2048x512_S2048x2048_S512x2048_0_0_1_1_n_n.lhsIdx (ix2 p q) ((ValueIdx.contrEquiv1 dot_S2048x512_S2048x2048_S512x2048_0_0_1_1_n_n 2048 rfl rfl).symm k) = ix2 k p := funext fun a => Fin.ext (by
    match a with
    | ⟨1, _⟩ => exact lhsD_1 _ _
    | ⟨0, _⟩ => exact (dot_S2048x512_S2048x2048_S512x2048_0_0_1_1_n_n.lhsIdx_val_of_single rfl _ _).trans hk)
  have er : dot_S2048x512_S2048x2048_S512x2048_0_0_1_1_n_n.rhsIdx (ix2 p q) ((ValueIdx.contrEquiv1 dot_S2048x512_S2048x2048_S512x2048_0_0_1_1_n_n 2048 rfl rfl).symm k) = ix2 k q := funext fun a => Fin.ext (by
    match a with
    | ⟨1, _⟩ => exact rhsD_1 _ _
    | ⟨0, _⟩ => exact (dot_S2048x512_S2048x2048_S512x2048_0_0_1_1_n_n.rhsIdx_val_of_single rfl _ _).trans hk)
  rw [el, er]

end Cert.KernelIdeal.Val

end
-- ==== Proof.KI.Val0.lean ====
/-
  Region 0, read: the array it leaves is the affine map `x ↦ x·Wᵀ + b` of the arrays it is entered with, entry by
  entry. Each grid point writes a block of 256 rows; inside a block, row p and column q hold the sum over k of
  `x(row, k)·W(q, k)` plus `b(q)`; the eight blocks cover the 2048 rows.
-/
import proofs.«127111_j36644660969674_2_alg».proof.Proof.KI.Body0
import proofs.«127111_j36644660969674_2_alg».proof.Proof.KI.Dots
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

theorem hz2 : (![0, 0] : Fin 2 → Nat) = fun _ => 0 := funext fun a => by fin_cases a <;> rfl

/-- The affine map at an entry: row `i 0` of `x` against row `i 1` of `W`, plus the bias at `i 1`. -/
def affine {R : Nat} (x : (⟨2, ![R, 2048]⟩ : Shape).Idx → EReal) (W : (⟨2, ![2048, 2048]⟩ : Shape).Idx → EReal) (bb : (⟨2, ![1, 2048]⟩ : Shape).Idx → EReal) :
    (⟨2, ![R, 2048]⟩ : Shape).Idx → EReal :=
  fun i => (∑ k : Fin 2048, x (ix2 (i 0) k) * W (ix2 (i 1) k)) + bb (ix2 0 (i 1))

/-- The body's value at entry (p, q) of the block. -/
theorem pay0_at (x0 : Vec Ideal S256x2048 .f32) (x1 : Vec Ideal S2048x2048 .f32) (x2 : Vec Ideal S1x2048 .f32) (p : Fin 256) (q : Fin 2048) :
    k0_pay1 (F := Ideal) x0 x1 x2 (ix2 p q) = (∑ k : Fin 2048, x0 (ix2 p k) * x1 (ix2 q k)) + x2 (ix2 0 q) := by
  unfold k0_pay1
  refine (addf_apply _ _ _).trans ?_
  refine congrArg₂ (· + ·) (mmA _ x0 x1 p q) ?_
  rw [shapeCast_self]
  exact broadcastTo_apply x2 broadcasts_S1x2048_S256x2048 (ix2 p q) (ix2 0 q) (fun a => by
    match a with
    | ⟨0, _⟩ => rfl
    | ⟨1, _⟩ => rfl)

/-- A block whose row p is row `i 0` of `X`, against the rows of `W` and the bias: its entry (p, q) is the affine map at `i`
    when q is column `i 1`. -/
theorem affine_of_rows {R : Nat} (x0 : Vec Ideal S256x2048 .f32) (x1 : Vec Ideal S2048x2048 .f32) (x2 : Vec Ideal S1x2048 .f32)
    (X : (⟨2, ![R, 2048]⟩ : Shape).Idx → EReal) (W : (⟨2, ![2048, 2048]⟩ : Shape).Idx → EReal) (bb : (⟨2, ![1, 2048]⟩ : Shape).Idx → EReal)
    (i : (⟨2, ![R, 2048]⟩ : Shape).Idx) (p : Fin 256) (q : Fin 2048)
    (h0 : ∀ k : Fin 2048, x0 (ix2 p k) = X (ix2 (i 0) k)) (h1 : ∀ k : Fin 2048, x1 (ix2 q k) = W (ix2 (i 1) k))
    (h2 : x2 (ix2 0 q) = bb (ix2 0 (i 1))) :
    (∑ k : Fin 2048, x0 (ix2 p k) * x1 (ix2 q k)) + x2 (ix2 0 q) = affine X W bb i := by
  unfold affine
  rw [h2]
  exact congrArg (· + bb (ix2 0 (i 1))) (Finset.sum_congr rfl fun k _ => by rw [h0 k, h1 k])

variable (V : (c : Dev nD) → (b : Ref sig .tc) → Buf (Elt Ideal) ((c : Thread nD τ).loc b))

/-- Where the index maps put each window's block, over the grid. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the affine map of the arrays the region is entered with. -/
theorem flushed0_eq (c : Dev nD) (t : Fin cfg0.N) :
    (dat0 V c).flushed 3 t = ((cfg0.win 3).blk t).view.read (Elt Ideal) (affine (V c main_arg1) (V c main_arg5) (V c main_v0)) := by
  show (cfg0.win 3).cut (grid0.coords t) ((dat0 V c).after 3 t) = _
  rw [after0_3]
  unfold out0_3
  rw [View.canon_unit_zero hz2]
  simp only [View.ld_unit_zero (S := S256x2048) hz2, View.ld_unit_zero (S := S2048x2048) hz2, View.ld_unit_zero (S := S1x2048) hz2]
  obtain ⟨e0, e1, e2, e3, e4, e5, e6, e7⟩ := idx_facts0 t
  funext j
  obtain ⟨p, q, rfl⟩ : ∃ (p : Fin 256) (q : Fin 2048), j = ix2 p q := ⟨j 0, j 1, eq_ix2 j⟩
  refine (pay0_at _ _ _ p q).trans ?_
  have h0 : ∀ k : Fin 2048, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 2048 + 1 * k.val = k.val; omega
  have h1 : ∀ k : Fin 2048, ((cfg0.win 1).blk t).view.emb (ix2 q k) = ix2 ((((cfg0.win 3).blk t).view.emb (ix2 p q)) 1) k := fun k => by
    funext a; apply Fin.ext
    match a with
    | ⟨0, _⟩ => show win0_1.index t (0 : Fin 2) * 2048 + 1 * q.val = win0_3.index t (1 : Fin 2) * 2048 + 1 * q.val; omega
    | ⟨1, _⟩ => show win0_1.index t (1 : Fin 2) * 2048 + 1 * k.val = k.val; omega
  have h2 : ((cfg0.win 2).blk t).view.emb (ix2 0 q) = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega
  exact affine_of_rows (iblk0 V c 0 t) (iblk0 V c 1 t) (iblk0 V c 2 t) (V c main_arg1) (V c main_arg5) (V c main_v0)
    (((cfg0.win 3).blk t).view.emb (ix2 p q)) p q
    (fun k => congrArg (V c main_arg1) (h0 k)) (fun k => congrArg (V c main_arg5) (h1 k)) (congrArg (V c main_v0) h2)

/-- An entry of the array is in point `t`'s block iff its row is among the block's 256. -/
theorem mem_blk0 (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v1).slice (win0_3.rect t)).set ↔ _
  rw [View.set_slice_whole, Rect.mem_set_unit]
  exact Iff.rfl

/-- Every entry is in the block of the point its row selects. -/
theorem cover0 (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  let t : Fin cfg0.N := ⟨(i 0).val / 256, by rw [show cfg0.N = 8 from N_0]; omega⟩
  obtain ⟨e0, e1, e2, e3, e4, e5, e6, e7⟩ := idx_facts0 t
  have e6' : win0_3.index t (0 : Fin 2) = (i 0).val / 256 := e6
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- THE ARRAY region 0 leaves: the affine map of the arrays it is entered with. -/
theorem final0 (c : Dev nD) : (dat0 V c).arrAt 3 cfg0.N = affine (V c main_arg1) (V c main_arg5) (V c main_v0) :=
  (dat0 V c).arrAt_eq_of_cover 3 _ (fun t _ => flushed0_eq V c t) cover0

end Cert.KernelIdeal.Val

end
-- ==== Proof.KI.Val1.lean ====
/-
  Region 1, read: the array it leaves is `tanh (x·Wᵀ + b)` of the arrays it is entered with, entry by entry; the
  same blocks of 256 rows as region 0, with tanh applied to each entry.
-/
import proofs.«127111_j36644660969674_2_alg».proof.Proof.KI.Body1
import proofs.«127111_j36644660969674_2_alg».proof.Proof.KI.Val0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

theorem tanh_at {s : Shape} (v : FVec Ideal s .f32) (i : s.Idx) : tanh v i = Ideal.tanh (v i) := rfl

/-- `tanh (x·Wᵀ + b)` at an entry. -/
def tanhAffine {R : Nat} (x : (⟨2, ![R, 2048]⟩ : Shape).Idx → EReal) (W : (⟨2, ![2048, 2048]⟩ : Shape).Idx → EReal) (bb : (⟨2, ![1, 2048]⟩ : Shape).Idx → EReal) :
    (⟨2, ![R, 2048]⟩ : Shape).Idx → EReal := fun i => Ideal.tanh (affine x W bb i)

/-- The body's value at entry (p, q) of the block. -/
theorem pay1_at (x0 : Vec Ideal S256x2048 .f32) (x1 : Vec Ideal S2048x2048 .f32) (x2 : Vec Ideal S1x2048 .f32) (p : Fin 256) (q : Fin 2048) :
    k1_pay1 (F := Ideal) x0 x1 x2 (ix2 p q) = Ideal.tanh ((∑ k : Fin 2048, x0 (ix2 p k) * x1 (ix2 q k)) + x2 (ix2 0 q)) := by
  unfold k1_pay1
  refine (tanh_at _ _).trans (congrArg Ideal.tanh ?_)
  refine (addf_apply _ _ _).trans ?_
  refine congrArg₂ (· + ·) (mmA _ x0 x1 p q) ?_
  rw [shapeCast_self]
  exact broadcastTo_apply x2 broadcasts_S1x2048_S256x2048 (ix2 p q) (ix2 0 q) (fun a => by
    match a with
    | ⟨0, _⟩ => rfl
    | ⟨1, _⟩ => rfl)

variable (V : (c : Dev nD) → (b : Ref sig .tc) → Buf (Elt Ideal) ((c : Thread nD τ).loc b))

theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

set_option maxRecDepth 65536 in
/-- What point `t` writes back is block `t` of the region's function of the arrays it is entered with. -/
theorem flushed1_eq (c : Dev nD) (t : Fin cfg1.N) :
    (dat1 V c).flushed 3 t = ((cfg1.win 3).blk t).view.read (Elt Ideal) (tanhAffine (V c main_arg2) (V c main_arg3) (V c main_v2)) := by
  show (cfg1.win 3).cut (grid1.coords t) ((dat1 V c).after 3 t) = _
  rw [after1_3]
  unfold out1_3
  rw [View.canon_unit_zero hz2]
  simp only [View.ld_unit_zero (S := S256x2048) hz2, View.ld_unit_zero (S := S2048x2048) hz2, View.ld_unit_zero (S := S1x2048) hz2]
  obtain ⟨e0, e1, e2, e3, e4, e5, e6, e7⟩ := idx_facts1 t
  funext j
  obtain ⟨p, q, rfl⟩ : ∃ (p : Fin 256) (q : Fin 2048), j = ix2 p q := ⟨j 0, j 1, eq_ix2 j⟩
  refine (pay1_at _ _ _ p q).trans ?_
  have h0 : ∀ k : Fin 2048, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 256 + 1 * p.val = win1_3.index t (0 : Fin 2) * 256 + 1 * p.val; omega
    | ⟨1, _⟩ => show win1_0.index t (1 : Fin 2) * 2048 + 1 * k.val = k.val; omega
  have h1 : ∀ k : Fin 2048, ((cfg1.win 1).blk t).view.emb (ix2 q k) = ix2 ((((cfg1.win 3).blk t).view.emb (ix2 p q)) 1) k := fun k => by
    funext a; apply Fin.ext
    match a with
    | ⟨0, _⟩ => show win1_1.index t (0 : Fin 2) * 2048 + 1 * q.val = win1_3.index t (1 : Fin 2) * 2048 + 1 * q.val; omega
    | ⟨1, _⟩ => show win1_1.index t (1 : Fin 2) * 2048 + 1 * k.val = k.val; omega
  have h2 : ((cfg1.win 2).blk t).view.emb (ix2 0 q) = ix2 0 ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega
  exact congrArg Ideal.tanh (affine_of_rows (R := 2048) (iblk1 V c 0 t) (iblk1 V c 1 t) (iblk1 V c 2 t) (V c main_arg2) (V c main_arg3) (V c main_v2)
    (((cfg1.win 3).blk t).view.emb (ix2 p q)) p q
    (fun k => congrArg (V c main_arg2) (h0 k)) (fun k => congrArg (V c main_arg3) (h1 k)) (congrArg (V c main_v2) h2))

theorem mem_blk1 (t : Fin cfg1.N) (i : S2048x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v3).slice (win1_3.rect t)).set ↔ _
  rw [View.set_slice_whole, Rect.mem_set_unit]
  exact Iff.rfl

theorem cover1 (i : S2048x2048.Idx) : ∃ t : Fin cfg1.N, (cfg1.win 3).flush t = true ∧ i ∈ ((cfg1.win 3).blk t).view.set := by
  have hi0 : (i 0).val < 2048 := (i 0).isLt
  have hi1 : (i 1).val < 2048 := (i 1).isLt
  let t : Fin cfg1.N := ⟨(i 0).val / 256, by rw [show cfg1.N = 8 from N_1]; omega⟩
  obtain ⟨e0, e1, e2, e3, e4, e5, e6, e7⟩ := idx_facts1 t
  have e' : win1_3.index t (0 : Fin 2) = (i 0).val / 256 := e6
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- THE ARRAY region 1 leaves. -/
theorem final1 (c : Dev nD) : (dat1 V c).arrAt 3 cfg1.N = tanhAffine (V c main_arg2) (V c main_arg3) (V c main_v2) :=
  (dat1 V c).arrAt_eq_of_cover 3 _ (fun t _ => flushed1_eq V c t) cover1

end Cert.KernelIdeal.Val

end
-- ==== Proof.KI.Val2.lean ====
/-
  Region 2, read: the array it leaves is the first scores, `tanh (x·Wᵀ + b)·Pᵀ`, of the arrays it is entered with:
  each grid point computes 256 rows of `tanh (x·Wᵀ + b)` and multiplies them against the rows of `P`; the 64 blocks
  cover the 16384 rows.
-/
import proofs.«127111_j36644660969674_2_alg».proof.Proof.KI.Body2
import proofs.«127111_j36644660969674_2_alg».proof.Proof.KI.Val1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

/-- The first scores at an entry: row `i 0` of `tanh (x·Wᵀ + b)` against row `i 1` of `P`. -/
def scores1 (x : (⟨2, ![16384, 2048]⟩ : Shape).Idx → EReal) (W : (⟨2, ![2048, 2048]⟩ : Shape).Idx → EReal) (bb : (⟨2, ![1, 2048]⟩ : Shape).Idx → EReal)
    (P : (⟨2, ![2048, 2048]⟩ : Shape).Idx → EReal) : (⟨2, ![16384, 2048]⟩ : Shape).Idx → EReal :=
  fun i => ∑ k : Fin 2048, tanhAffine x W bb (ix2 (i 0) k) * P (ix2 (i 1) k)

/-- The body's value at entry (p, q) of the block: the block's row p of `tanh (x·Wᵀ + b)` against row q of `P`. -/
theorem pay2_at (x0 : Vec Ideal S256x2048 .f32) (x1 : Vec Ideal S2048x2048 .f32) (x2 : Vec Ideal S1x2048 .f32) (x3 : Vec Ideal S2048x2048 .f32) (p : Fin 256) (q : Fin 2048) :
    k2_pay1 (F := Ideal) x0 x1 x2 x3 (ix2 p q)
      = ∑ k : Fin 2048, Ideal.tanh ((∑ l : Fin 2048, x0 (ix2 p l) * x1 (ix2 k l)) + x2 (ix2 0 k)) * x3 (ix2 q k) := by
  unfold k2_pay1
  refine (mmA _ _ _ p q).trans (Finset.sum_congr rfl fun k _ => congrArg₂ (· * ·) ?_ (congrFun (shapeCast_self x3 _) _))
  exact pay1_at x0 x1 x2 p k

/-- A block whose row p is row `i 0` of `X`: its entry (p, q) is the first scores at `i` when q is column `i 1`. -/
theorem scores1_of_rows (x0 : Vec Ideal S256x2048 .f32) (x1 : Vec Ideal S2048x2048 .f32) (x2 : Vec Ideal S1x2048 .f32) (x3 : Vec Ideal S2048x2048 .f32)
    (X : (⟨2, ![16384, 2048]⟩ : Shape).Idx → EReal) (W : (⟨2, ![2048, 2048]⟩ : Shape).Idx → EReal) (bb : (⟨2, ![1, 2048]⟩ : Shape).Idx → EReal)
    (P : (⟨2, ![2048, 2048]⟩ : Shape).Idx → EReal) (i : (⟨2, ![16384, 2048]⟩ : Shape).Idx) (p : Fin 256) (q : Fin 2048)
    (h0 : ∀ l : Fin 2048, x0 (ix2 p l) = X (ix2 (i 0) l)) (h1 : ∀ k l : Fin 2048, x1 (ix2 k l) = W (ix2 k l))
    (h2 : ∀ k : Fin 2048, x2 (ix2 0 k) = bb (ix2 0 k)) (h3 : ∀ k : Fin 2048, x3 (ix2 q k) = P (ix2 (i 1) k)) :
    (∑ k : Fin 2048, Ideal.tanh ((∑ l : Fin 2048, x0 (ix2 p l) * x1 (ix2 k l)) + x2 (ix2 0 k)) * x3 (ix2 q k)) = scores1 X W bb P i := by
  unfold scores1 tanhAffine affine
  refine Finset.sum_congr rfl fun k _ => ?_
  rw [h2 k, h3 k]
  exact congrArg (fun z => Ideal.tanh (z + bb (ix2 0 k)) * P (ix2 (i 1) k)) (Finset.sum_congr rfl fun l _ => by rw [h0 l, h1 k l])

variable (V : (c : Dev nD) → (b : Ref sig .tc) → Buf (Elt Ideal) ((c : Thread nD τ).loc b))

theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

set_option maxRecDepth 65536 in
/-- What point `t` writes back is block `t` of the region's function of the arrays it is entered with. -/
theorem flushed2_eq (c : Dev nD) (t : Fin cfg2.N) :
    (dat2 V c).flushed 4 t = ((cfg2.win 4).blk t).view.read (Elt Ideal) (scores1 (V c main_arg0) (V c main_arg3) (V c main_v4) (V c main_v1)) := by
  show (cfg2.win 4).cut (grid2.coords t) ((dat2 V c).after 4 t) = _
  rw [after2_4]
  unfold out2_4
  rw [View.canon_unit_zero hz2]
  simp only [View.ld_unit_zero (S := S256x2048) hz2, View.ld_unit_zero (S := S2048x2048) hz2, View.ld_unit_zero (S := S1x2048) hz2]
  obtain ⟨e0, e1, e2, e3, e4, e5, e6, e7, e8, e9⟩ := idx_facts2 t
  funext j
  obtain ⟨p, q, rfl⟩ : ∃ (p : Fin 256) (q : Fin 2048), j = ix2 p q := ⟨j 0, j 1, eq_ix2 j⟩
  refine (pay2_at _ _ _ _ p q).trans ?_
  have h0 : ∀ k : Fin 2048, ((cfg2.win 0).blk t).view.emb (ix2 p k) = ix2 ((((cfg2.win 4).blk t).view.emb (ix2 p q)) 0) k := fun k => by
    funext a; apply Fin.ext
    match a with
    | ⟨0, _⟩ => show win2_0.index t (0 : Fin 2) * 256 + 1 * p.val = win2_4.index t (0 : Fin 2) * 256 + 1 * p.val; omega
    | ⟨1, _⟩ => show win2_0.index t (1 : Fin 2) * 2048 + 1 * k.val = k.val; omega
  have h1 : ∀ k l : Fin 2048, ((cfg2.win 1).blk t).view.emb (ix2 k l) = ix2 k l := fun k l => by
    funext a; apply Fin.ext
    match a with
    | ⟨0, _⟩ => show win2_1.index t (0 : Fin 2) * 2048 + 1 * k.val = k.val; omega
    | ⟨1, _⟩ => show win2_1.index t (1 : Fin 2) * 2048 + 1 * l.val = l.val; omega
  have h2 : ∀ k : Fin 2048, ((cfg2.win 2).blk t).view.emb (ix2 0 k) = ix2 0 k := fun k => by
    funext a; apply Fin.ext
    match a with
    | ⟨0, _⟩ => show win2_2.index t (0 : Fin 2) * 1 + 1 * 0 = 0; omega
    | ⟨1, _⟩ => show win2_2.index t (1 : Fin 2) * 2048 + 1 * k.val = k.val; omega
  have h3 : ∀ k : Fin 2048, ((cfg2.win 3).blk t).view.emb (ix2 q k) = ix2 ((((cfg2.win 4).blk t).view.emb (ix2 p q)) 1) k := fun k => by
    funext a; apply Fin.ext
    match a with
    | ⟨0, _⟩ => show win2_3.index t (0 : Fin 2) * 2048 + 1 * q.val = win2_4.index t (1 : Fin 2) * 2048 + 1 * q.val; omega
    | ⟨1, _⟩ => show win2_3.index t (1 : Fin 2) * 2048 + 1 * k.val = k.val; omega
  exact scores1_of_rows (iblk2 V c 0 t) (iblk2 V c 1 t) (iblk2 V c 2 t) (iblk2 V c 3 t) (V c main_arg0) (V c main_arg3) (V c main_v4) (V c main_v1)
    (((cfg2.win 4).blk t).view.emb (ix2 p q)) p q
    (fun l => congrArg (V c main_arg0) (h0 l)) (fun k l => congrArg (V c main_arg3) (h1 k l)) (fun k => congrArg (V c main_v4) (h2 k))
    (fun k => congrArg (V c main_v1) (h3 k))

theorem mem_blk2 (t : Fin cfg2.N) (i : S16384x2048.Idx) :
    i ∈ ((cfg2.win 4).blk t).view.set ↔ ∀ a : Fin 2, win2_4.index t a * S256x2048.size a ≤ (i a).val ∧ (i a).val < win2_4.index t a * S256x2048.size a + S256x2048.size a := by
  show i ∈ ((View.whole main_v5).slice (win2_4.rect t)).set ↔ _
  rw [View.set_slice_whole, Rect.mem_set_unit]
  exact Iff.rfl

theorem cover2 (i : S16384x2048.Idx) : ∃ t : Fin cfg2.N, (cfg2.win 4).flush t = true ∧ i ∈ ((cfg2.win 4).blk t).view.set := by
  have hi0 : (i 0).val < 16384 := (i 0).isLt
  have hi1 : (i 1).val < 2048 := (i 1).isLt
  let t : Fin cfg2.N := ⟨(i 0).val / 256, by rw [show cfg2.N = 64 from N_2]; omega⟩
  obtain ⟨e0, e1, e2, e3, e4, e5, e6, e7, e8, e9⟩ := idx_facts2 t
  have e' : win2_4.index t (0 : Fin 2) = (i 0).val / 256 := e8
  refine ⟨t, flush2_4 t, ?_⟩
  rw [mem_blk2]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 2048 ≤ (i 1).val ∧ (i 1).val < win2_4.index t (1 : Fin 2) * 2048 + 2048; omega

/-- THE ARRAY region 2 leaves. -/
theorem final2 (c : Dev nD) : (dat2 V c).arrAt 4 cfg2.N = scores1 (V c main_arg0) (V c main_arg3) (V c main_v4) (V c main_v1) :=
  (dat2 V c).arrAt_eq_of_cover 4 _ (fun t _ => flushed2_eq V c t) cover2

end Cert.KernelIdeal.Val

end
-- ==== Proof.KI.Val3.lean ====
/-
  Region 3, read: the array it leaves is the second scores, `H·Sᵀ`, of the two arrays it is entered with: each grid
  point multiplies the whole of `H` against 256 rows of `S` and writes 256 columns of the result; the 64 blocks
  cover the 16384 columns.
-/
import proofs.«127111_j36644660969674_2_alg».proof.Proof.KI.Body3
import proofs.«127111_j36644660969674_2_alg».proof.Proof.KI.Dots
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

theorem hz2_3 : (![0, 0] : Fin 2 → Nat) = fun _ => 0 := funext fun a => by fin_cases a <;> rfl

/-- The second scores at an entry: row `i 0` of `H` against row `i 1` of `S`. -/
def scores2 (H : (⟨2, ![2048, 2048]⟩ : Shape).Idx → EReal) (S : (⟨2, ![16384, 2048]⟩ : Shape).Idx → EReal) :
    (⟨2, ![2048, 16384]⟩ : Shape).Idx → EReal := fun i => ∑ k : Fin 2048, H (ix2 (i 0) k) * S (ix2 (i 1) k)

/-- The body's value at entry (p, q) of the block. -/
theorem pay3_at (x0 : Vec Ideal S2048x2048 .f32) (x1 : Vec Ideal S256x2048 .f32) (p : Fin 2048) (q : Fin 256) :
    k3_pay1 (F := Ideal) x0 x1 (ix2 p q) = ∑ k : Fin 2048, x0 (ix2 p k) * x1 (ix2 q k) := by
  unfold k3_pay1
  exact (mmB _ _ _ p q).trans (Finset.sum_congr rfl fun k _ => congrArg₂ (· * ·) (congrFun (shapeCast_self x0 _) _) (congrFun (shapeCast_self x1 _) _))

theorem scores2_of_rows (x0 : Vec Ideal S2048x2048 .f32) (x1 : Vec Ideal S256x2048 .f32)
    (H : (⟨2, ![2048, 2048]⟩ : Shape).Idx → EReal) (S : (⟨2, ![16384, 2048]⟩ : Shape).Idx → EReal)
    (i : (⟨2, ![2048, 16384]⟩ : Shape).Idx) (p : Fin 2048) (q : Fin 256)
    (h0 : ∀ k : Fin 2048, x0 (ix2 p k) = H (ix2 (i 0) k)) (h1 : ∀ k : Fin 2048, x1 (ix2 q k) = S (ix2 (i 1) k)) :
    (∑ k : Fin 2048, x0 (ix2 p k) * x1 (ix2 q k)) = scores2 H S i := by
  unfold scores2
  exact Finset.sum_congr rfl fun k _ => by rw [h0 k, h1 k]

variable (V : (c : Dev nD) → (b : Ref sig .tc) → Buf (Elt Ideal) ((c : Thread nD τ).loc b))

theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val :=
  (by decide +kernel : ∀ t : Fin grid3.N, _)

set_option maxRecDepth 65536 in
/-- What point `t` writes back is block `t` of the second scores of the arrays the region is entered with. -/
theorem flushed3_eq (c : Dev nD) (t : Fin cfg3.N) :
    (dat3 V c).flushed 2 t = ((cfg3.win 2).blk t).view.read (Elt Ideal) (scores2 (V c main_v3) (V c main_v5)) := by
  show (cfg3.win 2).cut (grid3.coords t) ((dat3 V c).after 2 t) = _
  rw [after3_2]
  unfold out3_2
  rw [View.canon_unit_zero hz2_3]
  simp only [View.ld_unit_zero (S := S2048x2048) hz2_3, View.ld_unit_zero (S := S256x2048) hz2_3]
  obtain ⟨e0, e1, e2, e3, e4, e5⟩ := idx_facts3 t
  funext j
  obtain ⟨p, q, rfl⟩ : ∃ (p : Fin 2048) (q : Fin 256), j = ix2 p q := ⟨j 0, j 1, eq_ix2 j⟩
  refine (pay3_at _ _ p q).trans ?_
  have h0 : ∀ k : Fin 2048, ((cfg3.win 0).blk t).view.emb (ix2 p k) = ix2 ((((cfg3.win 2).blk t).view.emb (ix2 p q)) 0) k := fun k => by
    funext a; apply Fin.ext
    match a with
    | ⟨0, _⟩ => show win3_0.index t (0 : Fin 2) * 2048 + 1 * p.val = win3_2.index t (0 : Fin 2) * 2048 + 1 * p.val; omega
    | ⟨1, _⟩ => show win3_0.index t (1 : Fin 2) * 2048 + 1 * k.val = k.val; omega
  have h1 : ∀ k : Fin 2048, ((cfg3.win 1).blk t).view.emb (ix2 q k) = ix2 ((((cfg3.win 2).blk t).view.emb (ix2 p q)) 1) k := fun k => by
    funext a; apply Fin.ext
    match a with
    | ⟨0, _⟩ => show win3_1.index t (0 : Fin 2) * 256 + 1 * q.val = win3_2.index t (1 : Fin 2) * 256 + 1 * q.val; omega
    | ⟨1, _⟩ => show win3_1.index t (1 : Fin 2) * 2048 + 1 * k.val = k.val; omega
  exact scores2_of_rows (iblk3 V c 0 t) (iblk3 V c 1 t) (V c main_v3) (V c main_v5) (((cfg3.win 2).blk t).view.emb (ix2 p q)) p q
    (fun k => congrArg (V c main_v3) (h0 k)) (fun k => congrArg (V c main_v5) (h1 k))

theorem mem_blk3 (t : Fin cfg3.N) (i : S2048x16384.Idx) :
    i ∈ ((cfg3.win 2).blk t).view.set ↔ ∀ a : Fin 2, win3_2.index t a * S2048x256.size a ≤ (i a).val ∧ (i a).val < win3_2.index t a * S2048x256.size a + S2048x256.size a := by
  show i ∈ ((View.whole main_v6).slice (win3_2.rect t)).set ↔ _
  rw [View.set_slice_whole, Rect.mem_set_unit]
  exact Iff.rfl

theorem cover3 (i : S2048x16384.Idx) : ∃ t : Fin cfg3.N, (cfg3.win 2).flush t = true ∧ i ∈ ((cfg3.win 2).blk t).view.set := by
  have hi0 : (i 0).val < 2048 := (i 0).isLt
  have hi1 : (i 1).val < 16384 := (i 1).isLt
  let t : Fin cfg3.N := ⟨(i 1).val / 256, by rw [show cfg3.N = 64 from N_3]; omega⟩
  obtain ⟨e0, e1, e2, e3, e4, e5⟩ := idx_facts3 t
  have e' : win3_2.index t (1 : Fin 2) = (i 1).val / 256 := e5
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 256 ≤ (i 1).val ∧ (i 1).val < win3_2.index t (1 : Fin 2) * 256 + 256; omega

/-- THE ARRAY region 3 leaves: the second scores of the arrays it is entered with. -/
theorem final3 (c : Dev nD) : (dat3 V c).arrAt 2 cfg3.N = scores2 (V c main_v3) (V c main_v5) :=
  (dat3 V c).arrAt_eq_of_cover 2 _ (fun t _ => flushed3_eq V c t) cover3

end Cert.KernelIdeal.Val

end
-- ==== Proof.LibRowOps.lean ====
/-
  Row-wise reductions and the "keepdims" layouts around them, read at an index.

  A reduction of an `a × b` matrix along its second axis gives one value per row, and a kernel then puts that value back
  beside every entry of the row: the `[a]` vector of row values is cast to a column `[a, 1]` and the column is broadcast
  to `[a, b]`. Read at `(p, c)` the result is the row value of row `p`. This file states each step at an index built by
  `ValueIdx.ix1` / `ix2`, for any extents:
  * the cast `[a] → [a, 1]` and the broadcast `[a, 1] → [a, b]`;
  * the source index a one-axis reduction inserts on the dropped axis, `(p, k)`;
  * on the extended reals, a row's maximum as the fold of `max` over the row and a row's sum as the sum over the row —
    for a vector unit's `multi_reduction` and for a host `reduce` alike, so that the two meet in one expression.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its second axis: the source index over row `p` with `k` inserted is `(p, k)`. -/
theorem lift_ix1 {a b : ℕ} (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A vector unit's maximum along the rows' axis, at row `p`, on the extended reals: the fold of `max` over the row,
    from the accumulator's value. -/
theorem multiReduction_max_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  have e : (v ∘ h.lift (ix1 p)) = fun k : Fin b => v (ix2 p k) := funext fun k => congrArg v (lift_ix1 h p k)
  exact congrArg (fun f : Fin b → EReal => (Finset.univ : Finset (Fin b)).fold max (Ideal.ofBits .f32 acc) f) e

/-- A vector unit's sum along the rows' axis, at row `p`, on the extended reals: the sum over the row. -/
theorem multiReduction_add_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ v acc h hφ hacc (ix1 p) = ∑ k : Fin b, v (ix2 p k) :=
  (Ideal.multiReduction_add_single v acc h hφ hacc (ix1 p)).trans
    (Finset.sum_congr rfl fun k _ => congrArg v (lift_ix1 h p k))

/-- A host `reduce` by `max` along the rows' axis, at row `p`, on the extended reals: the fold of `max` over the row,
    from the initial value. -/
theorem hostReduce_max_row {a b : ℕ} {u : Shape} (x : (⟨2, ![a, b]⟩ : Shape).Idx → EReal) (init : u.Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  refine (Host.reduce_eq_fold_single (FloatOps.maximumf (F := Ideal) (φ := .f32)) x init h' h hu (ix1 p)).trans ?_
  have e : (x ∘ h.lift (ix1 p)) = fun k : Fin b => x (ix2 p k) := funext fun k => congrArg x (lift_ix1 h p k)
  exact congrArg (fun f : Fin b → EReal => (Finset.univ : Finset (Fin b)).fold max (init (Shape.Idx.first hu)) f) e

/-- A host sum along the rows' axis, at row `p`, on the extended reals: the initial value plus the sum over the row. -/
theorem hostReduceAdd_row {a b : ℕ} (x : (⟨2, ![a, b]⟩ : Shape).Idx → EReal) (init : EReal)
    (h' : (⟨2, ![a, b]⟩ : Shape).ReducesTo [(1 : Fin 2)] ⟨1, ![a]⟩)
    (h : (⟨2, ![a, b]⟩ : Shape).Reduces [(1 : Fin 2)] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_ix1 h p k)))

end Cert.RowOps

end
-- ==== Proof.KI.Val4.lean ====
/-
  Region 4, read: the array it leaves is the softmax of each row of the array it is entered with. A grid point
  holds 128 whole rows; in a row, each entry is `exp (s − M)` divided by the sum of these over the row, `M` the
  row's maximum (the fold of max over the row from the least float); the sixteen blocks cover the 2048 rows.
-/
import proofs.«127111_j36644660969674_2_alg».proof.Proof.KI.Body4
import proofs.«127111_j36644660969674_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

theorem hz2' : (![0, 0] : Fin 2 → Nat) = fun _ => 0 := funext fun a => by fin_cases a <;> rfl

/-- A row's maximum: the fold of max over the row, from the least float as the programs write it. -/
def rmax {R : Nat} (s : (⟨2, ![R, 16384]⟩ : Shape).Idx → EReal) (p : Fin R) : EReal :=
  (Finset.univ : Finset (Fin 16384)).fold max (Ideal.ofBits .f32 0xFF800000#32) (fun n => s (ix2 p n))

/-- The softmax of every row. -/
def softmaxRows {R : Nat} (s : (⟨2, ![R, 16384]⟩ : Shape).Idx → EReal) : (⟨2, ![R, 16384]⟩ : Shape).Idx → EReal :=
  fun i => Ideal.div (Ideal.exp (s (ix2 (i 0) (i 1)) - rmax s (i 0))) (∑ n : Fin 16384, Ideal.exp (s (ix2 (i 0) n) - rmax s (i 0)))

/-- The body's `exp (s − row maximum)`. -/
def e4 (v0 : Vec Ideal S128x16384 .f32) : FVec Ideal S128x16384 .f32 :=
  exp (subf v0 (broadcastTo S128x16384 (shapeCast S128x1 (multiReduction .maximumf [1] S128 v0 0xFF800000#32 reduces_S128x16384_S128 (.inl rfl) rfl) shapeCasts_S128_S128x1) broadcasts_S128x1_S128x16384))

theorem truncf_bf16_at {s : Shape} (v : FVec Ideal s .f32) (i : s.Idx) : (truncf .bf16 v bitsLt_bf16_f32 : FVec Ideal s .bf16) i = v i := rfl

theorem exp_at {s : Shape} (v : FVec Ideal s .f32) (i : s.Idx) : exp v i = Ideal.exp (v i) := rfl

theorem e4_at (v0 : Vec Ideal S128x16384 .f32) (p : Fin 128) (q : Fin 16384) :
    e4 v0 (ix2 p q) = Ideal.exp (v0 (ix2 p q) - rmax v0 p) := by
  unfold e4
  refine (exp_at _ _).trans (congrArg Ideal.exp ?_)
  refine (subf_apply _ _ _).trans (congrArg (fun z => v0 (ix2 p q) - z) ?_)
  exact (Cert.RowOps.broadcastTo_a1_ab_apply _ _ p q).trans ((Cert.RowOps.shapeCast_a_a1_apply _ _ p 0).trans (Cert.RowOps.multiReduction_max_row v0 _ _ _ _ p))

theorem pay4_eq (v0 : Vec Ideal S128x16384 .f32) :
    k4_pay1 (F := Ideal) v0 = truncf .bf16 (divf (e4 v0) (broadcastTo S128x16384 (shapeCast S128x1 (multiReduction .add [1] S128 (e4 v0) 0x00000000#32 reduces_S128x16384_S128 (.inl rfl) rfl) shapeCasts_S128_S128x1) broadcasts_S128x1_S128x16384)) bitsLt_bf16_f32 := by
  unfold k4_pay1 e4
  simp only [shapeCast_self]

/-- The body's value at entry (p, n) of the block. -/
theorem pay4_at (v0 : Vec Ideal S128x16384 .f32) (p : Fin 128) (n : Fin 16384) :
    k4_pay1 (F := Ideal) v0 (ix2 p n) = Ideal.div (Ideal.exp (v0 (ix2 p n) - rmax v0 p)) (∑ n' : Fin 16384, Ideal.exp (v0 (ix2 p n') - rmax v0 p)) := by
  rw [pay4_eq]
  refine (truncf_bf16_at _ _).trans ?_
  refine (divf_apply _ _ _).trans ?_
  refine congrArg₂ Ideal.div (e4_at v0 p n) ?_
  refine (Cert.RowOps.broadcastTo_a1_ab_apply _ _ p n).trans ((Cert.RowOps.shapeCast_a_a1_apply _ _ p 0).trans ((Cert.RowOps.multiReduction_add_row (e4 v0) _ _ _ _ p).trans ?_))
  exact Finset.sum_congr rfl fun k _ => e4_at v0 p k

/-- A block whose row p is row `i 0` of `A`: its softmax entry (p, q) is the softmax of the rows of `A` at `i` when q is column `i 1`. -/
theorem soft_of_rows {R : Nat} (x0 : Vec Ideal S128x16384 .f32) (A : (⟨2, ![R, 16384]⟩ : Shape).Idx → EReal)
    (i : (⟨2, ![R, 16384]⟩ : Shape).Idx) (p : Fin 128) (q : Fin 16384)
    (hrow : ∀ k : Fin 16384, x0 (ix2 p k) = A (ix2 (i 0) k)) (hq : i 1 = q) :
    Ideal.div (Ideal.exp (x0 (ix2 p q) - rmax x0 p)) (∑ n' : Fin 16384, Ideal.exp (x0 (ix2 p n') - rmax x0 p)) = softmaxRows A i := by
  have hmax : rmax x0 p = rmax A (i 0) := by
    unfold rmax
    exact congrArg (fun f : Fin 16384 → EReal => (Finset.univ : Finset (Fin 16384)).fold max (Ideal.ofBits .f32 0xFF800000#32) f) (funext hrow)
  unfold softmaxRows
  rw [hmax, hq]
  exact congrArg₂ Ideal.div (by rw [hrow q]) (Finset.sum_congr rfl fun k _ => by rw [hrow k])

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

set_option maxRecDepth 65536 in
/-- What point `t` writes back is block `t` of the softmax of the rows of the array the region is entered with. -/
theorem flushed4_eq (c : Dev nD) (t : Fin cfg4.N) :
    (dat4 V c).flushed 1 t = ((cfg4.win 1).blk t).view.read (Elt Ideal) (softmaxRows (V c main_v6)) := by
  show (cfg4.win 1).cut (grid4.coords t) ((dat4 V c).after 1 t) = _
  rw [after4_1]
  unfold out4_1
  rw [View.canon_unit_zero hz2']
  simp only [View.ld_unit_zero (S := S128x16384) hz2']
  obtain ⟨e0, e1, e2, e3⟩ := idx_facts4 t
  funext j
  obtain ⟨p, q, rfl⟩ : ∃ (p : Fin 128) (q : Fin 16384), j = ix2 p q := ⟨j 0, j 1, eq_ix2 j⟩
  refine (pay4_at _ p q).trans ?_
  have h0 : ∀ k : Fin 16384, ((cfg4.win 0).blk t).view.emb (ix2 p k) = ix2 ((((cfg4.win 1).blk t).view.emb (ix2 p q)) 0) k := fun k => by
    funext a; apply Fin.ext
    match a with
    | ⟨0, _⟩ => show win4_0.index t (0 : Fin 2) * 128 + 1 * p.val = win4_1.index t (0 : Fin 2) * 128 + 1 * p.val; omega
    | ⟨1, _⟩ => show win4_0.index t (1 : Fin 2) * 16384 + 1 * k.val = k.val; omega
  have h1 : ((((cfg4.win 1).blk t).view.emb (ix2 p q)) 1) = q := by
    apply Fin.ext
    show win4_1.index t (1 : Fin 2) * 16384 + 1 * q.val = q.val; omega
  exact soft_of_rows (R := 2048) (iblk4 V c 0 t) (V c main_v6) (((cfg4.win 1).blk t).view.emb (ix2 p q)) p q
    (fun k => congrArg (V c main_v6) (h0 k)) h1

theorem mem_blk4 (t : Fin cfg4.N) (i : S2048x16384.Idx) :
    i ∈ ((cfg4.win 1).blk t).view.set ↔ ∀ a : Fin 2, win4_1.index t a * S128x16384.size a ≤ (i a).val ∧ (i a).val < win4_1.index t a * S128x16384.size a + S128x16384.size a := by
  show i ∈ ((View.whole main_v7).slice (win4_1.rect t)).set ↔ _
  rw [View.set_slice_whole, Rect.mem_set_unit]
  exact Iff.rfl

theorem cover4 (i : S2048x16384.Idx) : ∃ t : Fin cfg4.N, (cfg4.win 1).flush t = true ∧ i ∈ ((cfg4.win 1).blk t).view.set := by
  have hi0 : (i 0).val < 2048 := (i 0).isLt
  have hi1 : (i 1).val < 16384 := (i 1).isLt
  let t : Fin cfg4.N := ⟨(i 0).val / 128, by rw [show cfg4.N = 16 from N_4]; omega⟩
  obtain ⟨e0, e1, e2, e3⟩ := idx_facts4 t
  have e2' : win4_1.index t (0 : Fin 2) = (i 0).val / 128 := e2
  refine ⟨t, flush4_1 t, ?_⟩
  rw [mem_blk4]
  intro a
  match a with
  | ⟨0, _⟩ => show win4_1.index t (0 : Fin 2) * 128 ≤ (i 0).val ∧ (i 0).val < win4_1.index t (0 : Fin 2) * 128 + 128; omega
  | ⟨1, _⟩ => show win4_1.index t (1 : Fin 2) * 16384 ≤ (i 1).val ∧ (i 1).val < win4_1.index t (1 : Fin 2) * 16384 + 16384; omega

/-- THE ARRAY region 4 leaves: the softmax of the rows of the array it is entered with. -/
theorem final4 (c : Dev nD) : (dat4 V c).arrAt 1 cfg4.N = softmaxRows (V c main_v6) :=
  (dat4 V c).arrAt_eq_of_cover 1 _ (fun t _ => flushed4_eq V c t) cover4

end Cert.KernelIdeal.Val

end
-- ==== Proof.KI.Val6.lean ====
/-
  Region 6, read: each of the two arrays it leaves is a transposed weighted sum, `Wᵀ·X`: entry (n, e) is the sum over
  d of `W(d, n)·X(d, e)`. Each grid point takes 512 columns of `W` against the whole of `X` and writes 512 rows of the
  result; the 32 blocks cover the 16384 rows.
-/
import proofs.«127111_j36644660969674_2_alg».proof.Proof.KI.Body6
import proofs.«127111_j36644660969674_2_alg».proof.Proof.KI.Dots
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

theorem hz2_6 : (![0, 0] : Fin 2 → Nat) = fun _ => 0 := funext fun a => by fin_cases a <;> rfl

/-- The transposed weighted sum at an entry: column `i 0` of `W` against column `i 1` of `X`. -/
def wsumT (W : (⟨2, ![2048, 16384]⟩ : Shape).Idx → EReal) (X : (⟨2, ![2048, 2048]⟩ : Shape).Idx → EReal) :
    (⟨2, ![16384, 2048]⟩ : Shape).Idx → EReal := fun i => ∑ k : Fin 2048, W (ix2 k (i 0)) * X (ix2 k (i 1))

theorem pay6_3_at (x0 : Vec Ideal S2048x512 .bf16) (x1 : Vec Ideal S2048x2048 .bf16) (p : Fin 512) (q : Fin 2048) :
    k6_pay2 (F := Ideal) x0 x1 (ix2 p q) = ∑ k : Fin 2048, x0 (ix2 k p) * x1 (ix2 k q) := by
  unfold k6_pay2
  exact (mmD _ _ _ p q).trans (Finset.sum_congr rfl fun k _ => congrArg₂ (· * ·) (congrFun (shapeCast_self x0 _) _) (congrFun (shapeCast_self x1 _) _))

theorem pay6_4_at (x0 : Vec Ideal S2048x512 .bf16) (x1 : Vec Ideal S2048x2048 .bf16) (p : Fin 512) (q : Fin 2048) :
    k6_pay3 (F := Ideal) x0 x1 (ix2 p q) = ∑ k : Fin 2048, x0 (ix2 k p) * x1 (ix2 k q) := by
  unfold k6_pay3
  exact (mmD _ _ _ p q).trans (Finset.sum_congr rfl fun k _ => congrArg₂ (· * ·) (congrFun (shapeCast_self x0 _) _) (congrFun (shapeCast_self x1 _) _))

theorem wsumT_of_cols (x0 : Vec Ideal S2048x512 .bf16) (x1 : Vec Ideal S2048x2048 .bf16)
    (W : (⟨2, ![2048, 16384]⟩ : Shape).Idx → EReal) (X : (⟨2, ![2048, 2048]⟩ : Shape).Idx → EReal)
    (i : (⟨2, ![16384, 2048]⟩ : Shape).Idx) (p : Fin 512) (q : Fin 2048)
    (h0 : ∀ k : Fin 2048, x0 (ix2 k p) = W (ix2 k (i 0))) (h1 : ∀ k : Fin 2048, x1 (ix2 k q) = X (ix2 k (i 1))) :
    (∑ k : Fin 2048, x0 (ix2 k p) * x1 (ix2 k q)) = wsumT W X i := by
  unfold wsumT
  exact Finset.sum_congr rfl fun k _ => by rw [h0 k, h1 k]

variable (V : (c : Dev nD) → (b : Ref sig .tc) → Buf (Elt Ideal) ((c : Thread nD τ).loc b))

theorem idx_facts6 : ∀ t : Fin cfg6.N, win6_0.index t (0 : Fin 2) = 0 ∧ win6_0.index t (1 : Fin 2) = t.val
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

set_option maxRecDepth 65536 in
/-- What point `t` writes back into output 3 is block `t` of the transposed weighted sum. -/
theorem flushed6_3_eq (c : Dev nD) (t : Fin cfg6.N) :
    (dat6 V c).flushed 3 t = ((cfg6.win 3).blk t).view.read (Elt Ideal) (wsumT (V c main_v7) (V c main_v9)) := by
  show (cfg6.win 3).cut (grid6.coords t) ((dat6 V c).after 3 t) = _
  rw [after6_3]
  unfold out6_3
  rw [View.canon_unit_zero hz2_6]
  simp only [View.ld_unit_zero (S := S2048x512) hz2_6, View.ld_unit_zero (S := S2048x2048) hz2_6]
  obtain ⟨e0, e1, e2, e3, e4, e5, e6, e7, e8, e9⟩ := idx_facts6 t
  funext j
  obtain ⟨p, q, rfl⟩ : ∃ (p : Fin 512) (q : Fin 2048), j = ix2 p q := ⟨j 0, j 1, eq_ix2 j⟩
  refine (pay6_3_at _ _ p q).trans ?_
  have h0 : ∀ k : Fin 2048, ((cfg6.win 0).blk t).view.emb (ix2 k p) = ix2 k ((((cfg6.win 3).blk t).view.emb (ix2 p q)) 0) := fun k => by
    funext a; apply Fin.ext
    match a with
    | ⟨0, _⟩ => show win6_0.index t (0 : Fin 2) * 2048 + 1 * k.val = k.val; omega
    | ⟨1, _⟩ => show win6_0.index t (1 : Fin 2) * 512 + 1 * p.val = win6_3.index t (0 : Fin 2) * 512 + 1 * p.val; omega
  have h1 : ∀ k : Fin 2048, ((cfg6.win 1).blk t).view.emb (ix2 k q) = ix2 k ((((cfg6.win 3).blk t).view.emb (ix2 p q)) 1) := fun k => by
    funext a; apply Fin.ext
    match a with
    | ⟨0, _⟩ => show win6_1.index t (0 : Fin 2) * 2048 + 1 * k.val = k.val; omega
    | ⟨1, _⟩ => show win6_1.index t (1 : Fin 2) * 2048 + 1 * q.val = win6_3.index t (1 : Fin 2) * 2048 + 1 * q.val; omega
  exact wsumT_of_cols (iblk6 V c 0 t) (iblk6 V c 1 t) (V c main_v7) (V c main_v9) (((cfg6.win 3).blk t).view.emb (ix2 p q)) p q
    (fun k => congrArg (V c main_v7) (h0 k)) (fun k => congrArg (V c main_v9) (h1 k))

theorem mem_blk6_3 (t : Fin cfg6.N) (i : S16384x2048.Idx) :
    i ∈ ((cfg6.win 3).blk t).view.set ↔ ∀ a : Fin 2, win6_3.index t a * S512x2048.size a ≤ (i a).val ∧ (i a).val < win6_3.index t a * S512x2048.size a + S512x2048.size a := by
  show i ∈ ((View.whole main_v11_0).slice (win6_3.rect t)).set ↔ _
  rw [View.set_slice_whole, Rect.mem_set_unit]
  exact Iff.rfl

theorem cover6_3 (i : S16384x2048.Idx) : ∃ t : Fin cfg6.N, (cfg6.win 3).flush t = true ∧ i ∈ ((cfg6.win 3).blk t).view.set := by
  have hi0 : (i 0).val < 16384 := (i 0).isLt
  have hi1 : (i 1).val < 2048 := (i 1).isLt
  let t : Fin cfg6.N := ⟨(i 0).val / 512, by rw [show cfg6.N = 32 from N_6]; omega⟩
  obtain ⟨e0, e1, e2, e3, e4, e5, e6, e7, e8, e9⟩ := idx_facts6 t
  have e' : win6_3.index t (0 : Fin 2) = (i 0).val / 512 := e6
  refine ⟨t, flush6_3 t, ?_⟩
  rw [mem_blk6_3]
  intro a
  match a with
  | ⟨0, _⟩ => show win6_3.index t (0 : Fin 2) * 512 ≤ (i 0).val ∧ (i 0).val < win6_3.index t (0 : Fin 2) * 512 + 512; omega
  | ⟨1, _⟩ => show win6_3.index t (1 : Fin 2) * 2048 ≤ (i 1).val ∧ (i 1).val < win6_3.index t (1 : Fin 2) * 2048 + 2048; omega

/-- THE ARRAY region 6 leaves in output 3. -/
theorem final6_3 (c : Dev nD) : (dat6 V c).arrAt 3 cfg6.N = wsumT (V c main_v7) (V c main_v9) :=
  (dat6 V c).arrAt_eq_of_cover 3 _ (fun t _ => flushed6_3_eq V c t) cover6_3

set_option maxRecDepth 65536 in
/-- What point `t` writes back into output 4 is block `t` of the transposed weighted sum. -/
theorem flushed6_4_eq (c : Dev nD) (t : Fin cfg6.N) :
    (dat6 V c).flushed 4 t = ((cfg6.win 4).blk t).view.read (Elt Ideal) (wsumT (V c main_v7) (V c main_v10)) := by
  show (cfg6.win 4).cut (grid6.coords t) ((dat6 V c).after 4 t) = _
  rw [after6_4]
  unfold out6_4
  rw [View.canon_unit_zero hz2_6]
  simp only [View.ld_unit_zero (S := S2048x512) hz2_6, View.ld_unit_zero (S := S2048x2048) hz2_6]
  obtain ⟨e0, e1, e2, e3, e4, e5, e6, e7, e8, e9⟩ := idx_facts6 t
  funext j
  obtain ⟨p, q, rfl⟩ : ∃ (p : Fin 512) (q : Fin 2048), j = ix2 p q := ⟨j 0, j 1, eq_ix2 j⟩
  refine (pay6_4_at _ _ p q).trans ?_
  have h0 : ∀ k : Fin 2048, ((cfg6.win 0).blk t).view.emb (ix2 k p) = ix2 k ((((cfg6.win 4).blk t).view.emb (ix2 p q)) 0) := fun k => by
    funext a; apply Fin.ext
    match a with
    | ⟨0, _⟩ => show win6_0.index t (0 : Fin 2) * 2048 + 1 * k.val = k.val; omega
    | ⟨1, _⟩ => show win6_0.index t (1 : Fin 2) * 512 + 1 * p.val = win6_4.index t (0 : Fin 2) * 512 + 1 * p.val; omega
  have h1 : ∀ k : Fin 2048, ((cfg6.win 2).blk t).view.emb (ix2 k q) = ix2 k ((((cfg6.win 4).blk t).view.emb (ix2 p q)) 1) := fun k => by
    funext a; apply Fin.ext
    match a with
    | ⟨0, _⟩ => show win6_2.index t (0 : Fin 2) * 2048 + 1 * k.val = k.val; omega
    | ⟨1, _⟩ => show win6_2.index t (1 : Fin 2) * 2048 + 1 * q.val = win6_4.index t (1 : Fin 2) * 2048 + 1 * q.val; omega
  exact wsumT_of_cols (iblk6 V c 0 t) (iblk6 V c 2 t) (V c main_v7) (V c main_v10) (((cfg6.win 4).blk t).view.emb (ix2 p q)) p q
    (fun k => congrArg (V c main_v7) (h0 k)) (fun k => congrArg (V c main_v10) (h1 k))

theorem mem_blk6_4 (t : Fin cfg6.N) (i : S16384x2048.Idx) :
    i ∈ ((cfg6.win 4).blk t).view.set ↔ ∀ a : Fin 2, win6_4.index t a * S512x2048.size a ≤ (i a).val ∧ (i a).val < win6_4.index t a * S512x2048.size a + S512x2048.size a := by
  show i ∈ ((View.whole main_v11_1).slice (win6_4.rect t)).set ↔ _
  rw [View.set_slice_whole, Rect.mem_set_unit]
  exact Iff.rfl

theorem cover6_4 (i : S16384x2048.Idx) : ∃ t : Fin cfg6.N, (cfg6.win 4).flush t = true ∧ i ∈ ((cfg6.win 4).blk t).view.set := by
  have hi0 : (i 0).val < 16384 := (i 0).isLt
  have hi1 : (i 1).val < 2048 := (i 1).isLt
  let t : Fin cfg6.N := ⟨(i 0).val / 512, by rw [show cfg6.N = 32 from N_6]; omega⟩
  obtain ⟨e0, e1, e2, e3, e4, e5, e6, e7, e8, e9⟩ := idx_facts6 t
  have e' : win6_4.index t (0 : Fin 2) = (i 0).val / 512 := e8
  refine ⟨t, flush6_4 t, ?_⟩
  rw [mem_blk6_4]
  intro a
  match a with
  | ⟨0, _⟩ => show win6_4.index t (0 : Fin 2) * 512 ≤ (i 0).val ∧ (i 0).val < win6_4.index t (0 : Fin 2) * 512 + 512; omega
  | ⟨1, _⟩ => show win6_4.index t (1 : Fin 2) * 2048 ≤ (i 1).val ∧ (i 1).val < win6_4.index t (1 : Fin 2) * 2048 + 2048; omega

/-- THE ARRAY region 6 leaves in output 4. -/
theorem final6_4 (c : Dev nD) : (dat6 V c).arrAt 4 cfg6.N = wsumT (V c main_v7) (V c main_v10) :=
  (dat6 V c).arrAt_eq_of_cover 4 _ (fun t _ => flushed6_4_eq V c t) cover6_4

end Cert.KernelIdeal.Val

end
-- ==== Proof.Spec.lean ====
/-
  The mathematics of the computation, stated once over the extended reals, index by index, as functions of the
  seven argument arrays: two affine maps `x ↦ x·Wᵀ + b` (one followed by tanh), the two score products, the
  softmax of each row of the scores, and the three weighted sums. Both programs are shown to compute these.
-/
import Idealize.ShloMosaic.PureOps.Ideal
import Idealize.ShloMosaic.Lib.ValueIdx

noncomputable section

namespace Cert.Spec

open Idealize.ShloMosaic Idealize.ShloMosaic.ValueIdx

abbrev SND : Shape := ⟨2, ![16384, 2048]⟩
abbrev SDD : Shape := ⟨2, ![2048, 2048]⟩
abbrev SDN : Shape := ⟨2, ![2048, 16384]⟩
abbrev SD : Shape := ⟨1, ![2048]⟩

/-- The least float, as the programs write it: the value every row maximum starts from. -/
def negInf : EReal := Ideal.ofBits .f32 0xFF800000#32

variable (x1 : SND.Idx → EReal) (x2 x3 W1 : SDD.Idx → EReal) (b1 : SD.Idx → EReal) (W2 : SDD.Idx → EReal) (b2 : SD.Idx → EReal)

/-- `p2 = x2·W2ᵀ + b2`, at row `r`, column `j`. -/
def p2 (r j : Fin 2048) : EReal := (∑ k : Fin 2048, x2 (ix2 r k) * W2 (ix2 j k)) + b2 (ix1 j)

/-- `h3 = tanh (x3·W1ᵀ + b1)`. -/
def h3 (r j : Fin 2048) : EReal := Ideal.tanh ((∑ k : Fin 2048, x3 (ix2 r k) * W1 (ix2 j k)) + b1 (ix1 j))

/-- `h1 = tanh (x1·W1ᵀ + b1)`. -/
def h1 (n : Fin 16384) (j : Fin 2048) : EReal := Ideal.tanh ((∑ k : Fin 2048, x1 (ix2 n k) * W1 (ix2 j k)) + b1 (ix1 j))

/-- The first scores, `h1·p2ᵀ`. -/
def s1 (n : Fin 16384) (j : Fin 2048) : EReal := ∑ k : Fin 2048, h1 x1 W1 b1 n k * p2 x2 W2 b2 j k

/-- The second scores, `h3·s1ᵀ`: row `d`, column `n`. -/
def s2 (d : Fin 2048) (n : Fin 16384) : EReal := ∑ k : Fin 2048, h3 x3 W1 b1 d k * s1 x1 x2 W1 b1 W2 b2 n k

/-- The maximum of row `d` of the second scores. -/
def rowMax (d : Fin 2048) : EReal := (Finset.univ : Finset (Fin 16384)).fold max negInf (fun n => s2 x1 x2 x3 W1 b1 W2 b2 d n)

/-- `exp (score − row maximum)`. -/
def ex (d : Fin 2048) (n : Fin 16384) : EReal := Ideal.exp (s2 x1 x2 x3 W1 b1 W2 b2 d n - rowMax x1 x2 x3 W1 b1 W2 b2 d)

/-- The softmax weights: each row of `ex` divided by its sum. -/
def wt (d : Fin 2048) (n : Fin 16384) : EReal := Ideal.div (ex x1 x2 x3 W1 b1 W2 b2 d n) (∑ n' : Fin 16384, ex x1 x2 x3 W1 b1 W2 b2 d n')

/-- `att1 = weights·x1`. -/
def att1 : SDD.Idx → EReal := fun i => ∑ n : Fin 16384, wt x1 x2 x3 W1 b1 W2 b2 (i 0) n * x1 (ix2 n (i 1))

/-- `att2 = weightsᵀ·x2`. -/
def att2 : SND.Idx → EReal := fun i => ∑ d : Fin 2048, wt x1 x2 x3 W1 b1 W2 b2 d (i 0) * x2 (ix2 d (i 1))

/-- `att3 = weightsᵀ·x3`. -/
def att3 : SND.Idx → EReal := fun i => ∑ d : Fin 2048, wt x1 x2 x3 W1 b1 W2 b2 d (i 0) * x3 (ix2 d (i 1))

end Cert.Spec

end
-- ==== Proof.KI.GlueA.lean ====
/-
  The kernel program's intermediate arrays, named: what each region is entered with is what earlier regions and host
  operations left, so the array each region leaves is a function of the seven arguments alone; and each of these
  functions, read at an entry, is the specification's.
-/
import proofs.«127111_j36644660969674_2_alg».proof.Proof.KI.Chain
import proofs.«127111_j36644660969674_2_alg».proof.Proof.KI.Val0
import proofs.«127111_j36644660969674_2_alg».proof.Proof.KI.Val1
import proofs.«127111_j36644660969674_2_alg».proof.Proof.KI.Val2
import proofs.«127111_j36644660969674_2_alg».proof.Proof.KI.Val3
import proofs.«127111_j36644660969674_2_alg».proof.Proof.KI.Val4
import proofs.«127111_j36644660969674_2_alg».proof.Proof.KI.Val6
import proofs.«127111_j36644660969674_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

/-- A vector as a one-row matrix. -/
def rowOf (b : S2048.Idx → EReal) : S1x2048.Idx → EReal := shapeCast S1x2048 b shapeCasts_S2048_S1x2048

theorem rowOf_at (b : S2048.Idx → EReal) (q : Fin 2048) : rowOf b (ix2 0 q) = b (ix1 q) :=
  (shapeCast_addUnit_apply ![2048] b shapeCasts_S2048_S1x2048 (ix2 0 q)).trans
    (congrArg b (funext fun a => by match a with | ⟨0, _⟩ => rfl))

/-! ## The kernel's arrays, read at an entry, are the specification's -/

section Pointwise

variable (a0 : S16384x2048.Idx → EReal) (a1 a2 a3 : S2048x2048.Idx → EReal) (a4 : S2048.Idx → EReal) (a5 : S2048x2048.Idx → EReal) (a6 : S2048.Idx → EReal)

theorem p2_at (r j : Fin 2048) : (affine a1 a5 (rowOf a6)) (ix2 r j) = Cert.Spec.p2 a1 a5 a6 r j := by
  unfold affine Cert.Spec.p2
  show (∑ k : Fin 2048, a1 (ix2 r k) * a5 (ix2 j k)) + rowOf a6 (ix2 0 j) = _
  rw [rowOf_at]

theorem h3_at (r j : Fin 2048) : (tanhAffine a2 a3 (rowOf a4)) (ix2 r j) = Cert.Spec.h3 a2 a3 a4 r j := by
  unfold tanhAffine affine Cert.Spec.h3
  show Ideal.tanh ((∑ k : Fin 2048, a2 (ix2 r k) * a3 (ix2 j k)) + rowOf a4 (ix2 0 j)) = _
  rw [rowOf_at]

theorem h1_at (n : Fin 16384) (j : Fin 2048) : (tanhAffine a0 a3 (rowOf a4)) (ix2 n j) = Cert.Spec.h1 a0 a3 a4 n j := by
  unfold tanhAffine affine Cert.Spec.h1
  show Ideal.tanh ((∑ k : Fin 2048, a0 (ix2 n k) * a3 (ix2 j k)) + rowOf a4 (ix2 0 j)) = _
  rw [rowOf_at]

theorem s1_at (n : Fin 16384) (j : Fin 2048) : (scores1 a0 a3 (rowOf a4) (affine a1 a5 (rowOf a6))) (ix2 n j) = Cert.Spec.s1 a0 a1 a3 a4 a5 a6 n j := by
  unfold scores1 Cert.Spec.s1
  exact Finset.sum_congr rfl fun k _ => congrArg₂ (· * ·) (h1_at a0 a3 a4 n k) (p2_at a1 a5 a6 j k)

theorem s2_at (d : Fin 2048) (n : Fin 16384) : (scores2 (tanhAffine a2 a3 (rowOf a4)) (scores1 a0 a3 (rowOf a4) (affine a1 a5 (rowOf a6)))) (ix2 d n) = Cert.Spec.s2 a0 a1 a2 a3 a4 a5 a6 d n := by
  unfold scores2 Cert.Spec.s2
  exact Finset.sum_congr rfl fun k _ => congrArg₂ (· * ·) (h3_at a2 a3 a4 d k) (s1_at a0 a1 a3 a4 a5 a6 n k)

theorem rmax_at (d : Fin 2048) : rmax (scores2 (tanhAffine a2 a3 (rowOf a4)) (scores1 a0 a3 (rowOf a4) (affine a1 a5 (rowOf a6)))) d = Cert.Spec.rowMax a0 a1 a2 a3 a4 a5 a6 d := by
  unfold rmax Cert.Spec.rowMax Cert.Spec.negInf
  exact congrArg (fun f : Fin 16384 → EReal => (Finset.univ : Finset (Fin 16384)).fold max (Ideal.ofBits .f32 0xFF800000#32) f)
    (funext fun n => s2_at a0 a1 a2 a3 a4 a5 a6 d n)

theorem wt_at (d : Fin 2048) (n : Fin 16384) : (softmaxRows (scores2 (tanhAffine a2 a3 (rowOf a4)) (scores1 a0 a3 (rowOf a4) (affine a1 a5 (rowOf a6))))) (ix2 d n) = Cert.Spec.wt a0 a1 a2 a3 a4 a5 a6 d n := by
  unfold softmaxRows Cert.Spec.wt Cert.Spec.ex
  show Ideal.div (Ideal.exp ((scores2 (tanhAffine a2 a3 (rowOf a4)) (scores1 a0 a3 (rowOf a4) (affine a1 a5 (rowOf a6)))) (ix2 d n) - rmax (scores2 (tanhAffine a2 a3 (rowOf a4)) (scores1 a0 a3 (rowOf a4) (affine a1 a5 (rowOf a6)))) d)) (∑ n' : Fin 16384, Ideal.exp ((scores2 (tanhAffine a2 a3 (rowOf a4)) (scores1 a0 a3 (rowOf a4) (affine a1 a5 (rowOf a6)))) (ix2 d n') - rmax (scores2 (tanhAffine a2 a3 (rowOf a4)) (scores1 a0 a3 (rowOf a4) (affine a1 a5 (rowOf a6)))) d)) = _
  rw [rmax_at]
  exact congrArg₂ Ideal.div (by rw [s2_at]) (Finset.sum_congr rfl fun k _ => by rw [s2_at])

theorem att2_eq : wsumT (softmaxRows (scores2 (tanhAffine a2 a3 (rowOf a4)) (scores1 a0 a3 (rowOf a4) (affine a1 a5 (rowOf a6))))) a1 = Cert.Spec.att2 a0 a1 a2 a3 a4 a5 a6 := by
  funext i
  unfold wsumT Cert.Spec.att2
  exact Finset.sum_congr rfl fun k _ => congrArg (· * a1 (ix2 k (i 1))) (wt_at a0 a1 a2 a3 a4 a5 a6 k (i 0))

theorem att3_eq : wsumT (softmaxRows (scores2 (tanhAffine a2 a3 (rowOf a4)) (scores1 a0 a3 (rowOf a4) (affine a1 a5 (rowOf a6))))) a2 = Cert.Spec.att3 a0 a1 a2 a3 a4 a5 a6 := by
  funext i
  unfold wsumT Cert.Spec.att3
  exact Finset.sum_congr rfl fun k _ => congrArg (· * a2 (ix2 k (i 1))) (wt_at a0 a1 a2 a3 a4 a5 a6 k (i 0))

end Pointwise

/-! ## What the host operations compute -/

theorem reshape0_after (Wv : Valuation τ sig (Elt Ideal)) : StableHlo.after hostOps0 Wv (Proc.devRef .tc main_v0) = rowOf (Wv (Proc.devRef .tc main_arg6)) := by
  after_results; rfl
theorem reshape1_after (Wv : Valuation τ sig (Elt Ideal)) : StableHlo.after hostOps1 Wv (Proc.devRef .tc main_v2) = rowOf (Wv (Proc.devRef .tc main_arg4)) := by
  after_results; rfl
theorem reshape2_after (Wv : Valuation τ sig (Elt Ideal)) : StableHlo.after hostOps2 Wv (Proc.devRef .tc main_v4) = rowOf (Wv (Proc.devRef .tc main_arg4)) := by
  after_results; rfl
/-- A change of float format, at the ideal instance the identity. -/
def asBf16 (a : S2048x2048.Idx → EReal) : FVec Ideal S2048x2048 .bf16 := truncf .bf16 (a : FVec Ideal S2048x2048 .f32) bitsLt_bf16_f32
theorem asBf16_eq (a : S2048x2048.Idx → EReal) : (asBf16 a : S2048x2048.Idx → EReal) = a := rfl
theorem convert9_after (Wv : Valuation τ sig (Elt Ideal)) : StableHlo.after hostOps6 Wv (Proc.devRef .tc main_v9) = asBf16 (Wv (Proc.devRef .tc main_arg1)) := by
  after_results; rfl
theorem convert10_after (Wv : Valuation τ sig (Elt Ideal)) : StableHlo.after hostOps6 Wv (Proc.devRef .tc main_v10) = asBf16 (Wv (Proc.devRef .tc main_arg2)) := by
  after_results; rfl

/-! ## The arrays at the boundaries -/

variable (m : (ℓ : Loc nD τ sig) → Buf (Elt Ideal) ℓ) (ρ : Dev nD → PrngReg) (c : Dev nD)

theorem Wb1_v0 : Wb1 m ρ c (Proc.devRef .tc main_v0) = rowOf (m ((c : Thread nD τ).loc main_arg6)) :=
  (reshape0_after (Wb0 m ρ c)).trans rfl
theorem Wb3_v2 : Wb3 m ρ c (Proc.devRef .tc main_v2) = rowOf (m ((c : Thread nD τ).loc main_arg4)) :=
  (reshape1_after (Wb2 m ρ c)).trans (congrArg rowOf (Wb2_arg4 m ρ c))
theorem Wb5_v4 : Wb5 m ρ c (Proc.devRef .tc main_v4) = rowOf (m ((c : Thread nD τ).loc main_arg4)) :=
  (reshape2_after (Wb4 m ρ c)).trans (congrArg rowOf (Wb4_arg4 m ρ c))
theorem Wb10_v9 : Wb10 m ρ c (Proc.devRef .tc main_v9) = asBf16 (m ((c : Thread nD τ).loc main_arg1)) :=
  (convert9_after (Wb9 m ρ c)).trans (congrArg asBf16 (Wb9_arg1 m ρ c))
theorem Wb10_v10 : Wb10 m ρ c (Proc.devRef .tc main_v10) = asBf16 (m ((c : Thread nD τ).loc main_arg2)) :=
  (convert10_after (Wb9 m ρ c)).trans (congrArg asBf16 (Wb9_arg2 m ρ c))

/-- Region 0 leaves `p2`. -/
theorem Wb2_v1 : Wb2 m ρ c (Proc.devRef .tc main_v1) = (affine (m ((c : Thread nD τ).loc main_arg1)) (m ((c : Thread nD τ).loc main_arg5)) (rowOf (m ((c : Thread nD τ).loc main_arg6)))) := by
  refine (Wb2_arr m ρ c 3).trans ((final0 (Vb1 m ρ) c).trans ?_)
  show affine (Wb1 m ρ c (Proc.devRef .tc main_arg1)) (Wb1 m ρ c (Proc.devRef .tc main_arg5)) (Wb1 m ρ c (Proc.devRef .tc main_v0)) = _
  rw [Wb1_arg1 m ρ c, Wb1_arg5 m ρ c, Wb1_v0 m ρ c]

/-- Region 1 leaves `h3`. -/
theorem Wb4_v3 : Wb4 m ρ c (Proc.devRef .tc main_v3) = (tanhAffine (m ((c : Thread nD τ).loc main_arg2)) (m ((c : Thread nD τ).loc main_arg3)) (rowOf (m ((c : Thread nD τ).loc main_arg4)))) := by
  refine (Wb4_arr m ρ c 3).trans ((final1 (Vb3 m ρ) c).trans ?_)
  show tanhAffine (Wb3 m ρ c (Proc.devRef .tc main_arg2)) (Wb3 m ρ c (Proc.devRef .tc main_arg3)) (Wb3 m ρ c (Proc.devRef .tc main_v2)) = _
  rw [Wb3_arg2 m ρ c, Wb3_arg3 m ρ c, Wb3_v2 m ρ c]

/-- Region 2 leaves the first scores. -/
theorem Wb6_v5 : Wb6 m ρ c (Proc.devRef .tc main_v5) = (scores1 (m ((c : Thread nD τ).loc main_arg0)) (m ((c : Thread nD τ).loc main_arg3)) (rowOf (m ((c : Thread nD τ).loc main_arg4))) (affine (m ((c : Thread nD τ).loc main_arg1)) (m ((c : Thread nD τ).loc main_arg5)) (rowOf (m ((c : Thread nD τ).loc main_arg6))))) := by
  refine (Wb6_arr m ρ c 4).trans ((final2 (Vb5 m ρ) c).trans ?_)
  show scores1 (Wb5 m ρ c (Proc.devRef .tc main_arg0)) (Wb5 m ρ c (Proc.devRef .tc main_arg3)) (Wb5 m ρ c (Proc.devRef .tc main_v4)) (Wb5 m ρ c (Proc.devRef .tc main_v1)) = _
  rw [Wb5_arg0 m ρ c, Wb5_arg3 m ρ c, Wb5_v4 m ρ c, (Wb5_v1_keep m ρ c).trans (Wb2_v1 m ρ c)]

/-- Region 3 leaves the second scores. -/
theorem Wb7_v6 : Wb7 m ρ c (Proc.devRef .tc main_v6) = (scores2 (tanhAffine (m ((c : Thread nD τ).loc main_arg2)) (m ((c : Thread nD τ).loc main_arg3)) (rowOf (m ((c : Thread nD τ).loc main_arg4)))) (scores1 (m ((c : Thread nD τ).loc main_arg0)) (m ((c : Thread nD τ).loc main_arg3)) (rowOf (m ((c : Thread nD τ).loc main_arg4))) (affine (m ((c : Thread nD τ).loc main_arg1)) (m ((c : Thread nD τ).loc main_arg5)) (rowOf (m ((c : Thread nD τ).loc main_arg6)))))) := by
  refine (Wb7_arr m ρ c 2).trans ((final3 (Vb6 m ρ) c).trans ?_)
  show scores2 (Wb6 m ρ c (Proc.devRef .tc main_v3)) (Wb6 m ρ c (Proc.devRef .tc main_v5)) = _
  rw [(Wb6_v3_keep m ρ c).trans (Wb4_v3 m ρ c), Wb6_v5 m ρ c]

/-- Region 4 leaves the softmax weights. -/
theorem Wb8_v7 : Wb8 m ρ c (Proc.devRef .tc main_v7) = (softmaxRows (scores2 (tanhAffine (m ((c : Thread nD τ).loc main_arg2)) (m ((c : Thread nD τ).loc main_arg3)) (rowOf (m ((c : Thread nD τ).loc main_arg4)))) (scores1 (m ((c : Thread nD τ).loc main_arg0)) (m ((c : Thread nD τ).loc main_arg3)) (rowOf (m ((c : Thread nD τ).loc main_arg4))) (affine (m ((c : Thread nD τ).loc main_arg1)) (m ((c : Thread nD τ).loc main_arg5)) (rowOf (m ((c : Thread nD τ).loc main_arg6))))))) := by
  refine (Wb8_arr m ρ c 1).trans ((final4 (Vb7 m ρ) c).trans ?_)
  show softmaxRows (Wb7 m ρ c (Proc.devRef .tc main_v6)) = _
  rw [Wb7_v6 m ρ c]

/-- Region 6 leaves the two transposed weighted sums. -/
theorem Wb11_v11_0 : Wb11 m ρ c (Proc.devRef .tc main_v11_0) = wsumT (softmaxRows (scores2 (tanhAffine (m ((c : Thread nD τ).loc main_arg2)) (m ((c : Thread nD τ).loc main_arg3)) (rowOf (m ((c : Thread nD τ).loc main_arg4)))) (scores1 (m ((c : Thread nD τ).loc main_arg0)) (m ((c : Thread nD τ).loc main_arg3)) (rowOf (m ((c : Thread nD τ).loc main_arg4))) (affine (m ((c : Thread nD τ).loc main_arg1)) (m ((c : Thread nD τ).loc main_arg5)) (rowOf (m ((c : Thread nD τ).loc main_arg6))))))) (m ((c : Thread nD τ).loc main_arg1)) := by
  refine (Wb11_arr m ρ c 3).trans ((final6_3 (Vb10 m ρ) c).trans ?_)
  show wsumT (Wb10 m ρ c (Proc.devRef .tc main_v7)) (Wb10 m ρ c (Proc.devRef .tc main_v9)) = _
  rw [(Wb10_v7_keep m ρ c).trans (Wb8_v7 m ρ c), Wb10_v9 m ρ c]
  rfl
theorem Wb11_v11_1 : Wb11 m ρ c (Proc.devRef .tc main_v11_1) = wsumT (softmaxRows (scores2 (tanhAffine (m ((c : Thread nD τ).loc main_arg2)) (m ((c : Thread nD τ).loc main_arg3)) (rowOf (m ((c : Thread nD τ).loc main_arg4)))) (scores1 (m ((c : Thread nD τ).loc main_arg0)) (m ((c : Thread nD τ).loc main_arg3)) (rowOf (m ((c : Thread nD τ).loc main_arg4))) (affine (m ((c : Thread nD τ).loc main_arg1)) (m ((c : Thread nD τ).loc main_arg5)) (rowOf (m ((c : Thread nD τ).loc main_arg6))))))) (m ((c : Thread nD τ).loc main_arg2)) := by
  refine (Wb11_arr m ρ c 4).trans ((final6_4 (Vb10 m ρ) c).trans ?_)
  show wsumT (Wb10 m ρ c (Proc.devRef .tc main_v7)) (Wb10 m ρ c (Proc.devRef .tc main_v10)) = _
  rw [(Wb10_v7_keep m ρ c).trans (Wb8_v7 m ρ c), Wb10_v10 m ρ c]
  rfl

end Cert.KernelIdeal.Val

end
-- ==== Proof.KI.Val5.lean ====
/-
  Region 5, read: the array it leaves is the weighted sum of the rows of its second operand, the weights its first —
  entry (d, e) is the sum over the 16384 positions n of the contracted axis of w (d, n) · x (n, e). The grid cuts the
  contracted axis into 128 blocks of 128 positions; point t multiplies column block t of w by row block t of x and adds
  the product to an accumulator that the first point starts from zero, so after point n the accumulator's entry (d, e)
  holds the contributions of blocks 0 … n (induction on the point: zero plus a term is the term, and each later point
  adds its own block's term to what the point before left). The last point copies the accumulator into the output's
  one block, which is the whole array; a sum over the contracted axis is the sum over the blocks of the sums over each
  block. Only the laws of a commutative additive monoid are used: nothing is assumed finite.
-/
import proofs.«127111_j36644660969674_2_alg».proof.Proof.KI.Body5b
import proofs.«127111_j36644660969674_2_alg».proof.Proof.KI.Dots
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.Tactic

open Cert.KernelIdeal.Fr
open Idealize.ShloMosaic.Pipeline (Dat)

variable {F : FTy → Type} [FloatOps F]

theorem hz5 : (![0, 0] : Fin 2 → Nat) = fun _ => 0 := funext fun a => by fin_cases a <;> rfl

/-! ## What each case of the body leaves, as the point's arithmetic over the buffers it was given

Every load and store of the body is of a whole buffer, so a load reads the buffer's contents and the last store
into a buffer leaves its payload. -/

set_option maxHeartbeats 400000 in
/-- A point between: the accumulator is left at its old contents plus the product of the point's two blocks. -/
theorem sacc_B (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : ¬cond5_1 i)
    (x0 : Vec F S2048x128 .bf16) (x1 : Vec F S128x2048 .f32) (xs0 : Vec F S2048x2048 .f32) :
    sout5_B_0 c i arg1 harg1 arg2 harg2 arg3 harg3 arg4 harg4 hc0 hc1 x0 x1 xs0 = k5_pay2 x0 x1 xs0 := by
  unfold sout5_B_0
  rw [View.read_writes_eq_canon _ _ _ (scover5_B_0 c i arg1 harg1 arg2 harg2 arg3 harg3 arg4 harg4 hc0 hc1 x0 x1 xs0)]
  unfold kernelRun5_B
  dsimp only
  rw [View.canon_unit_zero hz5]
  simp only [View.readAt_eq_ld, harg1.read_unread, harg2.read_unread, harg4.read_unread, View.ld_unit_zero (S := S2048x128) hz5, View.ld_unit_zero (S := S128x2048) hz5, View.ld_unit_zero (S := S2048x2048) hz5]

set_option maxHeartbeats 400000 in
/-- The last point: the accumulator is left at its old contents plus the product of the point's two blocks. -/
theorem sacc_C (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) :
    sout5_C_0 c i arg1 harg1 arg2 harg2 arg3 harg3 arg4 harg4 hc0 hc1 x0 x1 xs0 = k5_pay2 x0 x1 xs0 := by
  unfold sout5_C_0
  rw [View.read_writes_eq_canon _ _ _ (scover5_C_0 c i arg1 harg1 arg2 harg2 arg3 harg3 arg4 harg4 hc0 hc1 x0 x1 xs0)]
  unfold kernelRun5_C
  dsimp only
  sl_unfold_words
  rw [View.canon_unit_zero hz5]
  simp only [View.readAt_eq_ld, harg1.read_unread, harg2.read_unread, harg4.read_unread, View.ld_unit_zero (S := S2048x128) hz5, View.ld_unit_zero (S := S128x2048) hz5, View.ld_unit_zero (S := S2048x2048) hz5]

set_option maxHeartbeats 400000 in
/-- The last point: the output block is left at what the accumulator then holds. -/
theorem out_C (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : ¬cond5_0 i) (hc1 : cond5_1 i)
    (x0 : Vec F S2048x128 .bf16) (x1 : Vec F S128x2048 .f32) (xs0 : Vec F S2048x2048 .f32) :
    out5_C_2 c i arg1 harg1 arg2 harg2 arg3 harg3 arg4 harg4 hc0 hc1 x0 x1 xs0 = k5_pay2 x0 x1 xs0 := by
  unfold out5_C_2
  rw [View.read_writes_eq_canon _ _ _ (cover5_C_2 c i arg1 harg1 arg2 harg2 arg3 harg3 arg4 harg4 hc0 hc1 x0 x1 xs0)]
  unfold kernelRun5_C
  dsimp only
  sl_unfold_words
  rw [View.canon_unit_zero hz5, View.readCov_unit_zero (S := S2048x2048) _ hz5]
  simp only [View.readAt_eq_ld, harg1.read_unread, harg2.read_unread, harg4.read_unread, View.ld_unit_zero (S := S2048x128) hz5, View.ld_unit_zero (S := S128x2048) hz5, View.ld_unit_zero (S := S2048x2048) hz5]

set_option maxHeartbeats 400000 in
/-- The first point: the accumulator is left at the zero block plus the product of the point's two blocks. -/
theorem sacc_A (c : Dev nD) (i : grid5.Coords) (arg1 : Memref sig .tc .vmem S2048x128 .bf16) (harg1 : arg1.IsWhole) (arg2 : Memref sig .tc .vmem S128x2048 .f32) (harg2 : arg2.IsWhole) (arg3 : Memref sig .tc .vmem S2048x2048 .f32) (harg3 : arg3.IsWhole) (arg4 : Memref sig .tc .vmem S2048x2048 .f32) (harg4 : arg4.IsWhole) (hc0 : cond5_0 i) (hc1 : ¬cond5_1 i)
    (x0 : Vec F S2048x128 .bf16) (x1 : Vec F S128x2048 .f32) :
    sout5_A_0 c i arg1 harg1 arg2 harg2 arg3 harg3 arg4 harg4 hc0 hc1 x0 x1 = k5_pay2 x0 x1 (k5_pay1 (F := F)) := by
  unfold sout5_A_0
  rw [View.read_writes_eq_canon _ _ _ (scover5_A_0 c i arg1 harg1 arg2 harg2 arg3 harg3 arg4 harg4 hc0 hc1 x0 x1)]
  unfold kernelRun5_A
  dsimp only
  sl_unfold_words
  rw [View.canon_cons_unit_zero (S := S2048x2048) hz5, View.readCov_unit_zero (S := S2048x2048) _ hz5]
  simp only [View.readAt_eq_ld, harg1.read_unread, harg2.read_unread, View.ld_unit_zero (S := S2048x128) hz5, View.ld_unit_zero (S := S128x2048) hz5]

/-! ## The arithmetic of one point, at an entry -/

/-- Entry (p, q) of what a point leaves: the old entry plus the sum over the block's 128 columns k of the left
    block at (p, k) times the right block at (k, q). -/
theorem k5_pay2_at (v3 : FVec Ideal S2048x128 .bf16) (v5 : FVec Ideal S128x2048 .f32) (v7 : FVec Ideal S2048x2048 .f32) (p q : Fin 2048) :
    k5_pay2 (F := Ideal) v3 v5 v7 (ix2 p q) = v7 (ix2 p q) + ∑ k : Fin 128, v3 (ix2 p k) * v5 (ix2 k q) := by
  unfold k5_pay2
  simp only [shapeCast_self]
  exact congrArg (fun z => v7 (ix2 p q) + z) (mmC none v3 (truncf .bf16 v5 bitsLt_bf16_f32) p q)

/-- The zero block is zero at every entry. -/
theorem k5_pay1_at (p q : Fin 2048) : k5_pay1 (F := Ideal) (ix2 p q) = 0 := by
  unfold k5_pay1
  simp only [shapeCast_self]
  exact Ideal.ofBits_zero_f32

/-! ## The contracted axis, cut into 128 blocks of 128 -/

/-- Position j of block t of the contracted axis. -/
def bi (t j : Fin 128) : Fin 16384 := ⟨128 * t.val + j.val, by have := t.isLt; have := j.isLt; omega⟩

/-- A sum over the contracted axis is the sum, over its 128 blocks, of the sums over each block. -/
theorem sum_blocks (f : Fin 16384 → EReal) : ∑ n : Fin 16384, f n = ∑ t : Fin 128, ∑ j : Fin 128, f (bi t j) := by
  refine Eq.trans ?_ (Fintype.sum_prod_type' (fun t j : Fin 128 => f (bi t j)))
  refine (Fintype.sum_equiv (finProdFinEquiv (m := 128) (n := 128)) (fun x => f (bi x.1 x.2)) f (fun x => ?_)).symm
  refine congrArg f (Fin.ext ?_)
  rw [finProdFinEquiv_apply_val]
  show 128 * x.1.val + x.2.val = x.2.val + 128 * x.1.val
  omega

/-- The weighted sum of the rows of x: entry (d, e) is the sum over n of w (d, n) · x (n, e). -/
def wsum (w : S2048x16384.Idx → EReal) (x : S16384x2048.Idx → EReal) : S2048x2048.Idx → EReal :=
  fun i => ∑ n : Fin 16384, w (ix2 (i 0) n) * x (ix2 n (i 1))

/-- What block t of the contracted axis contributes to entry (p, q) of the weighted sum. -/
def blockTerm (w : S2048x16384.Idx → EReal) (x : S16384x2048.Idx → EReal) (p q : Fin 2048) (t : Fin 128) : EReal :=
  ∑ j : Fin 128, w (ix2 p (bi t j)) * x (ix2 (bi t j) q)

/-- The same for every natural number, zero past the last block, so that partial sums run over a range. -/
def addend (w : S2048x16384.Idx → EReal) (x : S16384x2048.Idx → EReal) (p q : Fin 2048) (n : ℕ) : EReal :=
  if h : n < 128 then blockTerm w x p q ⟨n, h⟩ else 0

/-- Entry (p, q) of the weighted sum is the sum of the contributions of the 128 blocks. -/
theorem wsum_eq (w : S2048x16384.Idx → EReal) (x : S16384x2048.Idx → EReal) (p q : Fin 2048) :
    wsum w x (ix2 p q) = ∑ s ∈ Finset.range 128, addend w x p q s := by
  show ∑ n : Fin 16384, w (ix2 p n) * x (ix2 n q) = _
  rw [sum_blocks (fun n => w (ix2 p n) * x (ix2 n q)), Finset.sum_range]
  refine Finset.sum_congr rfl fun t _ => ?_
  unfold addend
  rw [dif_pos t.isLt]
  rfl

/-! ## The blocks a point reads, and the accumulator after each point -/

variable (V : (c : Dev nD) → (b : Ref sig .tc) → Buf (Elt Ideal) ((c : Thread nD τ).loc b))

/-- Where each window's block sits at point t: the left operand's block is column block t, the right operand's
    block is row block t, the output's one block is the whole array. -/
theorem idx_facts5 : ∀ t : Fin cfg5.N, win5_0.index t (0 : Fin 2) = 0 ∧ win5_0.index t (1 : Fin 2) = t.val
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- Entry (p, k) of the left operand's block at point t is entry (p, 128·t + k) of the array. -/
theorem iblk5_0_at (c : Dev nD) (t : Fin cfg5.N) (ht : t.val < 128) (p : Fin 2048) (k : Fin 128) :
    iblk5 V c 0 t (ix2 p k) = V c main_v7 (ix2 p (bi ⟨t.val, ht⟩ k)) := by
  obtain ⟨e0, e1, e2, e3, e4, e5⟩ := idx_facts5 t
  have h0 : ((cfg5.win 0).blk t).view.emb (ix2 p k) = ix2 p (bi ⟨t.val, ht⟩ k) := by
    funext a; apply Fin.ext
    match a with
    | ⟨0, _⟩ => show win5_0.index t (0 : Fin 2) * 2048 + 1 * p.val = p.val; omega
    | ⟨1, _⟩ => show win5_0.index t (1 : Fin 2) * 128 + 1 * k.val = 128 * t.val + k.val; omega
  show V c main_v7 (((cfg5.win 0).blk t).view.emb (ix2 p k)) = _
  rw [h0]

/-- Entry (k, q) of the right operand's block at point t is entry (128·t + k, q) of the array. -/
theorem iblk5_1_at (c : Dev nD) (t : Fin cfg5.N) (ht : t.val < 128) (k : Fin 128) (q : Fin 2048) :
    iblk5 V c 1 t (ix2 k q) = V c main_arg0 (ix2 (bi ⟨t.val, ht⟩ k) q) := by
  obtain ⟨e0, e1, e2, e3, e4, e5⟩ := idx_facts5 t
  have h0 : ((cfg5.win 1).blk t).view.emb (ix2 k q) = ix2 (bi ⟨t.val, ht⟩ k) q := by
    funext a; apply Fin.ext
    match a with
    | ⟨0, _⟩ => show win5_1.index t (0 : Fin 2) * 128 + 1 * k.val = 128 * t.val + k.val; omega
    | ⟨1, _⟩ => show win5_1.index t (1 : Fin 2) * 2048 + 1 * q.val = q.val; omega
  show V c main_arg0 (((cfg5.win 1).blk t).view.emb (ix2 k q)) = _
  rw [h0]

/-- One point's arithmetic over the point's own blocks: the old entry plus block t's contribution. -/
theorem step_at (c : Dev nD) (t : Fin cfg5.N) (acc : FVec Ideal S2048x2048 .f32) (p q : Fin 2048) :
    k5_pay2 (F := Ideal) (iblk5 V c 0 t) (iblk5 V c 1 t) acc (ix2 p q)
      = acc (ix2 p q) + addend (V c main_v7) (V c main_arg0) p q t.val := by
  have ht : t.val < 128 := lt_of_lt_of_eq t.isLt (show cfg5.N = 128 from N_5)
  refine (k5_pay2_at (iblk5 V c 0 t) (iblk5 V c 1 t) acc p q).trans ?_
  refine congrArg (fun z => acc (ix2 p q) + z) ?_
  unfold addend
  rw [dif_pos ht]
  unfold blockTerm
  exact Finset.sum_congr rfl fun k _ => congrArg₂ (fun a b : EReal => a * b) (iblk5_0_at V c t ht p k) (iblk5_1_at V c t ht k q)

/-- The first point leaves in the accumulator the zero block plus the product of the point's blocks. -/
theorem acc_first (c : Dev nD) (t : Fin cfg5.N) (h0 : t.val % 128 = 0) (h1 : ¬t.val % 128 = 127) :
    (outsAt5 V c t.val t.isLt).2 = k5_pay2 (F := Ideal) (iblk5 V c 0 t) (iblk5 V c 1 t) (k5_pay1 (F := Ideal)) := by
  rw [outsAt5_A V c t h0 h1]
  dsimp only
  exact sacc_A (F := Ideal) c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)

/-- A point between leaves in the accumulator what the point before left plus the product of the point's blocks. -/
theorem acc_mid (c : Dev nD) (t : Fin cfg5.N) (h0 : ¬t.val % 128 = 0) (h1 : ¬t.val % 128 = 127) :
    (outsAt5 V c t.val t.isLt).2 = k5_pay2 (F := Ideal) (iblk5 V c 0 t) (iblk5 V c 1 t) (outsAt5 V c (t.val - 1) (Nat.lt_of_le_of_lt (Nat.sub_le _ _) t.isLt)).2 := by
  rw [outsAt5_B V c t h0 h1]
  dsimp only
  exact sacc_B (F := Ideal) c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2

/-- So does the last point, -/
theorem acc_last (c : Dev nD) (t : Fin cfg5.N) (h0 : ¬t.val % 128 = 0) (h1 : t.val % 128 = 127) :
    (outsAt5 V c t.val t.isLt).2 = k5_pay2 (F := Ideal) (iblk5 V c 0 t) (iblk5 V c 1 t) (outsAt5 V c (t.val - 1) (Nat.lt_of_le_of_lt (Nat.sub_le _ _) t.isLt)).2 := by
  rw [outsAt5_C V c t h0 h1]
  dsimp only
  exact sacc_C (F := Ideal) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2

/-- and it leaves the same in the output block. -/
theorem out_last (c : Dev nD) (t : Fin cfg5.N) (h0 : ¬t.val % 128 = 0) (h1 : t.val % 128 = 127) :
    (outsAt5 V c t.val t.isLt).1 = k5_pay2 (F := Ideal) (iblk5 V c 0 t) (iblk5 V c 1 t) (outsAt5 V c (t.val - 1) (Nat.lt_of_le_of_lt (Nat.sub_le _ _) t.isLt)).2 := by
  rw [outsAt5_C V c t h0 h1]
  dsimp only
  exact out_C (F := Ideal) c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2

/-- THE ACCUMULATOR after point n: at entry (p, q), the contributions of blocks 0 … n of the contracted axis —
    by induction on the point (zero plus a term is the term; each later point adds its own block's term). -/
theorem acc_eq (c : Dev nD) : ∀ (n : ℕ) (hn : n < cfg5.N) (p q : Fin 2048),
    (outsAt5 V c n hn).2 (ix2 p q) = ∑ s ∈ Finset.range (n + 1), addend (V c main_v7) (V c main_arg0) p q s
  | 0, hn, p, q => by
    refine (congrFun (acc_first V c ⟨0, hn⟩ (Nat.zero_mod _) (by show ¬(0 : ℕ) % 128 = 127; decide)) (ix2 p q)).trans ?_
    refine (step_at V c ⟨0, hn⟩ (k5_pay1 (F := Ideal)) p q).trans ?_
    rw [k5_pay1_at, zero_add, Finset.sum_range_one]
  | n + 1, hn, p, q => by
    have hN : cfg5.N = 128 := N_5
    have h0 : ¬(n + 1) % 128 = 0 := by omega
    have hstep : (outsAt5 V c (n + 1) hn).2 = k5_pay2 (F := Ideal) (iblk5 V c 0 ⟨n + 1, hn⟩) (iblk5 V c 1 ⟨n + 1, hn⟩) (outsAt5 V c n (Nat.lt_of_succ_lt hn)).2 := by
      by_cases h1 : (n + 1) % 128 = 127
      · exact acc_last V c ⟨n + 1, hn⟩ h0 h1
      · exact acc_mid V c ⟨n + 1, hn⟩ h0 h1
    refine (congrFun hstep (ix2 p q)).trans ?_
    refine (step_at V c ⟨n + 1, hn⟩ (outsAt5 V c n (Nat.lt_of_succ_lt hn)).2 p q).trans ?_
    rw [acc_eq c n (Nat.lt_of_succ_lt hn) p q, Finset.sum_range_succ _ (n + 1)]

/-! ## The array the region leaves -/

/-- What the last point writes back is the one block — the whole — of the weighted sum. -/
theorem flushed5_eq (c : Dev nD) (t : Fin cfg5.N) (hf : (cfg5.win 2).flush t = true) :
    (dat5 V c).flushed 2 t = ((cfg5.win 2).blk t).view.read (Elt Ideal) (wsum (V c main_v7) (V c main_arg0)) := by
  have hN : cfg5.N = 128 := N_5
  have h127 : t.val % 128 = 127 := (flush5_2 t).mp hf
  have hlt : t.val < 128 := lt_of_lt_of_eq t.isLt hN
  have h0 : ¬t.val % 128 = 0 := by omega
  have htv : t.val = 127 := by omega
  obtain ⟨e0, e1, e2, e3, e4, e5⟩ := idx_facts5 t
  show (cfg5.win 2).cut (grid5.coords t) ((dat5 V c).after 2 t) = _
  rw [after5_2]
  funext j
  obtain ⟨p, q, rfl⟩ : ∃ (p q : Fin 2048), j = ix2 p q := ⟨j 0, j 1, eq_ix2 j⟩
  refine (congrFun (out_last V c t h0 h127) (ix2 p q)).trans ?_
  refine (step_at V c t (outsAt5 V c (t.val - 1) (Nat.lt_of_le_of_lt (Nat.sub_le _ _) t.isLt)).2 p q).trans ?_
  have hemb : ((cfg5.win 2).blk t).view.emb (ix2 p q) = ix2 p q := by
    funext a; apply Fin.ext
    match a with
    | ⟨0, _⟩ => show win5_2.index t (0 : Fin 2) * 2048 + 1 * p.val = p.val; omega
    | ⟨1, _⟩ => show win5_2.index t (1 : Fin 2) * 2048 + 1 * q.val = q.val; omega
  rw [View.read_apply, hemb, wsum_eq, acc_eq V c (t.val - 1) (Nat.lt_of_le_of_lt (Nat.sub_le _ _) t.isLt) p q, htv]
  exact (Finset.sum_range_succ (fun s => addend (V c main_v7) (V c main_arg0) p q s) 127).symm

/-- An entry is in the output's block at point t when each coordinate lies in the block's span of that axis. -/
theorem mem_blk5 (t : Fin cfg5.N) (i : S2048x2048.Idx) :
    i ∈ ((cfg5.win 2).blk t).view.set ↔ ∀ a : Fin 2, win5_2.index t a * S2048x2048.size a ≤ (i a).val ∧ (i a).val < win5_2.index t a * S2048x2048.size a + S2048x2048.size a := by
  show i ∈ ((View.whole main_v8).slice (win5_2.rect t)).set ↔ _
  rw [View.set_slice_whole, Rect.mem_set_unit]
  exact Iff.rfl

/-- The last point's block is the whole array. -/
theorem cover5 (i : S2048x2048.Idx) : ∃ t : Fin cfg5.N, (cfg5.win 2).flush t = true ∧ i ∈ ((cfg5.win 2).blk t).view.set := by
  have hi0 : (i 0).val < 2048 := (i 0).isLt
  have hi1 : (i 1).val < 2048 := (i 1).isLt
  have h127 : 127 < cfg5.N := by rw [show cfg5.N = 128 from N_5]; omega
  obtain ⟨e0, e1, e2, e3, e4, e5⟩ := idx_facts5 ⟨127, h127⟩
  refine ⟨⟨127, h127⟩, (flush5_2 ⟨127, h127⟩).mpr (by show (127 : ℕ) % 128 = 127; decide), ?_⟩
  rw [mem_blk5]
  intro a
  match a with
  | ⟨0, _⟩ => show win5_2.index ⟨127, h127⟩ (0 : Fin 2) * 2048 ≤ (i 0).val ∧ (i 0).val < win5_2.index ⟨127, h127⟩ (0 : Fin 2) * 2048 + 2048; omega
  | ⟨1, _⟩ => show win5_2.index ⟨127, h127⟩ (1 : Fin 2) * 2048 ≤ (i 1).val ∧ (i 1).val < win5_2.index ⟨127, h127⟩ (1 : Fin 2) * 2048 + 2048; omega

/-- THE ARRAY region 5 leaves: the weighted sum of the rows of the second operand, the weights the first. -/
theorem final5 (c : Dev nD) : (dat5 V c).arrAt 2 cfg5.N = wsum (V c main_v7) (V c main_arg0) :=
  (dat5 V c).arrAt_eq_of_cover 2 _ (fun t hf => flushed5_eq V c t hf) cover5

end Cert.KernelIdeal.Val

end
-- ==== Proof.KI.GlueB.lean ====
/-
  The kernel program's three results are the specification's: the first is the weighted sum accumulated over the
  blocks of the contracted axis, the other two the transposed weighted sums; and the run, restated: every execution
  ends with the three result arrays at the specification's functions of the arguments and the arguments unchanged.
-/
import proofs.«127111_j36644660969674_2_alg».proof.Proof.KI.GlueA
import proofs.«127111_j36644660969674_2_alg».proof.Proof.KI.Val5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

open Cert.KernelIdeal.Fr
open Idealize.ShloMosaic.Pipeline (Dat)

theorem att1_eq (a0 : S16384x2048.Idx → EReal) (a1 a2 a3 : S2048x2048.Idx → EReal) (a4 : S2048.Idx → EReal) (a5 : S2048x2048.Idx → EReal) (a6 : S2048.Idx → EReal) :
    wsum (softmaxRows (scores2 (tanhAffine a2 a3 (rowOf a4)) (scores1 a0 a3 (rowOf a4) (affine a1 a5 (rowOf a6))))) a0 = Cert.Spec.att1 a0 a1 a2 a3 a4 a5 a6 := by
  funext i
  unfold wsum Cert.Spec.att1
  exact Finset.sum_congr rfl fun n _ => congrArg (· * a0 (ix2 n (i 1))) (wt_at a0 a1 a2 a3 a4 a5 a6 (i 0) n)

variable (m : (ℓ : Loc nD τ sig) → Buf (Elt Ideal) ℓ) (ρ : Dev nD → PrngReg)

/-- Region 5 leaves the weighted sum. -/
theorem Wb9_v8 (c : Dev nD) : Wb9 m ρ c (Proc.devRef .tc main_v8) = wsum (softmaxRows (scores2 (tanhAffine (m ((c : Thread nD τ).loc main_arg2)) (m ((c : Thread nD τ).loc main_arg3)) (rowOf (m ((c : Thread nD τ).loc main_arg4)))) (scores1 (m ((c : Thread nD τ).loc main_arg0)) (m ((c : Thread nD τ).loc main_arg3)) (rowOf (m ((c : Thread nD τ).loc main_arg4))) (affine (m ((c : Thread nD τ).loc main_arg1)) (m ((c : Thread nD τ).loc main_arg5)) (rowOf (m ((c : Thread nD τ).loc main_arg6))))))) (m ((c : Thread nD τ).loc main_arg0)) := by
  refine (Wb9_arr m ρ c 2).trans ((final5 (Vb8 m ρ) c).trans ?_)
  show wsum (Wb8 m ρ c (Proc.devRef .tc main_v7)) (Wb8 m ρ c (Proc.devRef .tc main_arg0)) = _
  rw [Wb8_v7 m ρ c, Wb8_arg0 m ρ c]

/-- THE KERNEL PROGRAM'S RUN, READ: every weakly fair execution ends, nothing faulting, with the three results at the
    specification's functions of the argument arrays and the argument arrays as launched. -/
theorem run_spec : θ_run defs (onTc (τ := τ) (main (F := Ideal))) ⟨m, fun _ => 0, ρ⟩ (fun r => ∀ c : Dev nD,
      r.2.mem ((c.tc : Thread nD τ).loc main_v8) = Cert.Spec.att1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v11_0) = Cert.Spec.att2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v11_1) = Cert.Spec.att3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v8 (by decide))).trans (((Wb11_v8_keep m ρ c).trans (Wb9_v8 m ρ c)).trans (att1_eq _ _ _ _ _ _ _)),
     (h c _ (mem_uc main_v11_0 (by decide))).trans ((Wb11_v11_0 m ρ c).trans (att2_eq _ _ _ _ _ _ _)),
     (h c _ (mem_uc main_v11_1 (by decide))).trans ((Wb11_v11_1 m ρ c).trans (att3_eq _ _ _ _ _ _ _)),
     (h c _ (mem_uc main_arg0 (by decide))).trans (Wb11_arg0 m ρ c),
     (h c _ (mem_uc main_arg1 (by decide))).trans (Wb11_arg1 m ρ c),
     (h c _ (mem_uc main_arg2 (by decide))).trans (Wb11_arg2 m ρ c),
     (h c _ (mem_uc main_arg3 (by decide))).trans (Wb11_arg3 m ρ c),
     (h c _ (mem_uc main_arg4 (by decide))).trans (Wb11_arg4 m ρ c),
     (h c _ (mem_uc main_arg5 (by decide))).trans (Wb11_arg5 m ρ c),
     (h c _ (mem_uc main_arg6 (by decide))).trans (Wb11_arg6 m ρ c)⟩)
    (run_all m ρ)

end Cert.KernelIdeal.Val

end
-- ==== Proof.RefIsSpec.lean ====
/-
  The reference program computes the specification: each intermediate array of the reference, read at its
  coordinates, is the corresponding specification function, and so are its three results.
-/
import proofs.«127111_j36644660969674_2_alg».proof.Proof.Gen.ReferenceIdeal.Read
import proofs.«127111_j36644660969674_2_alg».proof.Proof.Spec
import proofs.«127111_j36644660969674_2_alg».proof.Proof.LibRowOps

noncomputable section

namespace Cert.RefSpec

open Cert.ReferenceIdeal Cert.ReferenceIdeal.Gen Cert.ReferenceIdeal.Read Idealize.ShloMosaic Idealize.ShloMosaic.ValueIdx
  Idealize.ShloMosaic.StableHlo

variable (a0 : (⟨S16384x2048, .f32⟩ : BufTy).Contents (Elt Ideal))
  (a1 a2 a3 : (⟨S2048x2048, .f32⟩ : BufTy).Contents (Elt Ideal))
  (a4 : (⟨S2048, .f32⟩ : BufTy).Contents (Elt Ideal))
  (a5 : (⟨S2048x2048, .f32⟩ : BufTy).Contents (Elt Ideal))
  (a6 : (⟨S2048, .f32⟩ : BufTy).Contents (Elt Ideal))

/-- `x2·W2ᵀ + b2` at row `r`, column `j`. -/
theorem p2_at (r j : Fin 2048) :
    val_main_v10 (F := Ideal) a1 a5 a6 (ix2 r j) = Cert.Spec.p2 a1 a5 a6 r j := by
  have el : ∀ k : Fin 2048, lidx_main_v7 (ix2 r j) k = ix2 r k := fun k =>
    funext fun a => Fin.ext (by match a with | ⟨0, _⟩ => rfl | ⟨1, _⟩ => rfl)
  have er : ∀ k : Fin 2048, idx_main_v6 (ridx_main_v7 (ix2 r j) k) = ix2 j k := fun k =>
    funext fun a => Fin.ext (by match a with | ⟨0, _⟩ => rfl | ⟨1, _⟩ => rfl)
  have eb : idx_main_v8 (idx_main_v9 (ix2 r j)) = ix1 j :=
    funext fun a => Fin.ext (by match a with | ⟨0, _⟩ => rfl)
  rw [val_main_v10_apply, val_main_v7_apply, val_main_v9_apply, val_main_v8_apply]
  simp only [val_main_v6_apply, el, er, eb, Ideal.addf_def]
  rfl

/-- `tanh (x1·W1ᵀ + b1)` at row `n`, column `j`. -/
theorem h1_at (n : Fin 16384) (j : Fin 2048) :
    val_main_v5 (F := Ideal) a0 a3 a4 (ix2 n j) = Cert.Spec.h1 a0 a3 a4 n j := by
  have el : ∀ k : Fin 2048, lidx_main_v1 (ix2 n j) k = ix2 n k := fun k =>
    funext fun a => Fin.ext (by match a with | ⟨0, _⟩ => rfl | ⟨1, _⟩ => rfl)
  have er : ∀ k : Fin 2048, idx_main_v0 (ridx_main_v1 (ix2 n j) k) = ix2 j k := fun k =>
    funext fun a => Fin.ext (by match a with | ⟨0, _⟩ => rfl | ⟨1, _⟩ => rfl)
  have eb : idx_main_v2 (idx_main_v3 (ix2 n j)) = ix1 j :=
    funext fun a => Fin.ext (by match a with | ⟨0, _⟩ => rfl)
  rw [val_main_v5_apply, val_main_v4_apply, val_main_v1_apply, val_main_v3_apply, val_main_v2_apply]
  simp only [val_main_v0_apply, el, er, eb, Ideal.addf_def, Ideal.hostUnary_tanh_def]
  rfl

/-- `tanh (x3·W1ᵀ + b1)` at row `r`, column `j`. -/
theorem h3_at (r j : Fin 2048) :
    val_main_v18 (F := Ideal) a2 a3 a4 (ix2 r j) = Cert.Spec.h3 a2 a3 a4 r j := by
  have el : ∀ k : Fin 2048, lidx_main_v14 (ix2 r j) k = ix2 r k := fun k =>
    funext fun a => Fin.ext (by match a with | ⟨0, _⟩ => rfl | ⟨1, _⟩ => rfl)
  have er : ∀ k : Fin 2048, idx_main_v13 (ridx_main_v14 (ix2 r j) k) = ix2 j k := fun k =>
    funext fun a => Fin.ext (by match a with | ⟨0, _⟩ => rfl | ⟨1, _⟩ => rfl)
  have eb : idx_main_v15 (idx_main_v16 (ix2 r j)) = ix1 j :=
    funext fun a => Fin.ext (by match a with | ⟨0, _⟩ => rfl)
  rw [val_main_v18_apply, val_main_v17_apply, val_main_v14_apply, val_main_v16_apply, val_main_v15_apply]
  simp only [val_main_v13_apply, el, er, eb, Ideal.addf_def, Ideal.hostUnary_tanh_def]
  rfl

/-- The first scores: entry `(n, j)` is the product of row `n` of `h1` with row `j` of `p2`. -/
theorem s1_at (n : Fin 16384) (j : Fin 2048) :
    val_main_v12 (F := Ideal) a0 a1 a3 a4 a5 a6 (ix2 n j) = Cert.Spec.s1 a0 a1 a3 a4 a5 a6 n j := by
  rw [val_main_v12_apply]
  unfold Cert.Spec.s1
  refine Finset.sum_congr rfl fun k _ => ?_
  have el : lidx_main_v12 (ix2 n j) k = ix2 n k :=
    funext fun a => Fin.ext (by match a with | ⟨0, _⟩ => rfl | ⟨1, _⟩ => rfl)
  have er : idx_main_v11 (ridx_main_v12 (ix2 n j) k) = ix2 j k :=
    funext fun a => Fin.ext (by match a with | ⟨0, _⟩ => rfl | ⟨1, _⟩ => rfl)
  rw [val_main_v11_apply, el, er, h1_at, p2_at]

/-- The second scores: entry `(d, n)` is the product of row `d` of `h3` with row `n` of the first scores. -/
theorem s2_at (d : Fin 2048) (n : Fin 16384) :
    val_main_v20 (F := Ideal) a0 a1 a2 a3 a4 a5 a6 (ix2 d n) = Cert.Spec.s2 a0 a1 a2 a3 a4 a5 a6 d n := by
  rw [val_main_v20_apply]
  unfold Cert.Spec.s2
  refine Finset.sum_congr rfl fun k _ => ?_
  have el : lidx_main_v20 (ix2 d n) k = ix2 d k :=
    funext fun a => Fin.ext (by match a with | ⟨0, _⟩ => rfl | ⟨1, _⟩ => rfl)
  have er : idx_main_v19 (ridx_main_v20 (ix2 d n) k) = ix2 n k :=
    funext fun a => Fin.ext (by match a with | ⟨0, _⟩ => rfl | ⟨1, _⟩ => rfl)
  rw [val_main_v19_apply, el, er, h3_at, s1_at]

/-- The reduction by `max` over row `d` of the second scores, from the least float. -/
theorem reduceMax_at (d : Fin 2048) :
    val_main_v21 (F := Ideal) a0 a1 a2 a3 a4 a5 a6 (ix1 d)
      = (Finset.univ : Finset (Fin 16384)).fold max Cert.Spec.negInf (fun n => Cert.Spec.s2 a0 a1 a2 a3 a4 a5 a6 d n) := by
  have hs : (fun k : Fin 16384 => val_main_v20 (F := Ideal) a0 a1 a2 a3 a4 a5 a6 (ix2 d k))
      = fun n => Cert.Spec.s2 a0 a1 a2 a3 a4 a5 a6 d n := funext fun k => s2_at a0 a1 a2 a3 a4 a5 a6 d k
  unfold val_main_v21
  refine (Cert.RowOps.hostReduce_max_row (val_main_v20 (F := Ideal) a0 a1 a2 a3 a4 a5 a6) (val_main_cst (F := Ideal))
    reducesTo_S2048x16384_S2048_d1 (by decide) h_S_ d).trans ?_
  rw [hs]
  rfl

/-- The row maximum: the greater of the least float and the reduction is the reduction, which starts from the
    least float and so is at least it. -/
theorem rowMax_at (d : Fin 2048) :
    val_main_v23 (F := Ideal) a0 a1 a2 a3 a4 a5 a6 (ix1 d) = Cert.Spec.rowMax a0 a1 a2 a3 a4 a5 a6 d := by
  rw [val_main_v23_apply, val_main_v22_apply, reduceMax_at]
  unfold Cert.Spec.rowMax
  show max Cert.Spec.negInf _ = _
  exact max_eq_right ((Finset.le_fold_max _).mpr (Or.inl le_rfl))

/-- `exp (score − row maximum)` at `(d, n)`. -/
theorem ex_at (d : Fin 2048) (n : Fin 16384) :
    val_main_v27 (F := Ideal) a0 a1 a2 a3 a4 a5 a6 (ix2 d n) = Cert.Spec.ex a0 a1 a2 a3 a4 a5 a6 d n := by
  have e : idx_main_v24 (idx_main_v25 (ix2 d n)) = ix1 d :=
    funext fun a => Fin.ext (by match a with | ⟨0, _⟩ => rfl)
  rw [val_main_v27_apply, val_main_v26_apply, val_main_v25_apply, val_main_v24_apply, e, s2_at, rowMax_at]
  simp only [Ideal.subf_def, Ideal.hostUnary_exp_def]
  rfl

/-- The sum of row `d` of the exponentials; the sum starts from the zero word. -/
theorem rowSum_at (d : Fin 2048) :
    val_main_v28 (F := Ideal) a0 a1 a2 a3 a4 a5 a6 (ix1 d) = ∑ n : Fin 16384, Cert.Spec.ex a0 a1 a2 a3 a4 a5 a6 d n := by
  have e : ∀ k : Fin 16384, idx_main_v28 (ix1 d) k = ix2 d k := fun k =>
    funext fun a => Fin.ext (by match a with | ⟨0, _⟩ => rfl | ⟨1, _⟩ => rfl)
  rw [val_main_v28_apply]
  simp only [e, ex_at]
  show Ideal.ofBits .f32 0x00000000#32 + _ = _
  rw [Ideal.ofBits_zero_f32, zero_add]

/-- The softmax weight at `(d, n)`. -/
theorem wt_at (d : Fin 2048) (n : Fin 16384) :
    val_main_v31 (F := Ideal) a0 a1 a2 a3 a4 a5 a6 (ix2 d n) = Cert.Spec.wt a0 a1 a2 a3 a4 a5 a6 d n := by
  have e : idx_main_v29 (idx_main_v30 (ix2 d n)) = ix1 d :=
    funext fun a => Fin.ext (by match a with | ⟨0, _⟩ => rfl)
  rw [val_main_v31_apply, val_main_v30_apply, val_main_v29_apply, e, ex_at, rowSum_at]
  simp only [Ideal.hostDivf_def]
  rfl

/-- The first result is `weights·x1`. -/
theorem ref_att1 : val_main_v32 (F := Ideal) a0 a1 a2 a3 a4 a5 a6 = Cert.Spec.att1 a0 a1 a2 a3 a4 a5 a6 := by
  funext i
  obtain ⟨p, q, rfl⟩ : ∃ (p : Fin 2048) (q : Fin 2048), i = ix2 p q := ⟨i 0, i 1, eq_ix2 i⟩
  rw [val_main_v32_apply]
  show _ = ∑ n : Fin 16384, Cert.Spec.wt a0 a1 a2 a3 a4 a5 a6 p n * a0 (ix2 n q)
  refine Finset.sum_congr rfl fun k _ => ?_
  have el : lidx_main_v32 (ix2 p q) k = ix2 p k :=
    funext fun a => Fin.ext (by match a with | ⟨0, _⟩ => rfl | ⟨1, _⟩ => rfl)
  have er : ridx_main_v32 (ix2 p q) k = ix2 k q :=
    funext fun a => Fin.ext (by match a with | ⟨0, _⟩ => rfl | ⟨1, _⟩ => rfl)
  rw [el, er, wt_at]

/-- The second result is `weightsᵀ·x2`. -/
theorem ref_att2 : val_main_v34 (F := Ideal) a0 a1 a2 a3 a4 a5 a6 = Cert.Spec.att2 a0 a1 a2 a3 a4 a5 a6 := by
  funext i
  obtain ⟨p, q, rfl⟩ : ∃ (p : Fin 16384) (q : Fin 2048), i = ix2 p q := ⟨i 0, i 1, eq_ix2 i⟩
  rw [val_main_v34_apply]
  show _ = ∑ d : Fin 2048, Cert.Spec.wt a0 a1 a2 a3 a4 a5 a6 d p * a1 (ix2 d q)
  refine Finset.sum_congr rfl fun k _ => ?_
  have el : idx_main_v33 (lidx_main_v34 (ix2 p q) k) = ix2 k p :=
    funext fun a => Fin.ext (by match a with | ⟨0, _⟩ => rfl | ⟨1, _⟩ => rfl)
  have er : ridx_main_v34 (ix2 p q) k = ix2 k q :=
    funext fun a => Fin.ext (by match a with | ⟨0, _⟩ => rfl | ⟨1, _⟩ => rfl)
  rw [val_main_v33_apply, el, er, wt_at]

/-- The third result is `weightsᵀ·x3`. -/
theorem ref_att3 : val_main_v36 (F := Ideal) a0 a1 a2 a3 a4 a5 a6 = Cert.Spec.att3 a0 a1 a2 a3 a4 a5 a6 := by
  funext i
  obtain ⟨p, q, rfl⟩ : ∃ (p : Fin 16384) (q : Fin 2048), i = ix2 p q := ⟨i 0, i 1, eq_ix2 i⟩
  rw [val_main_v36_apply]
  show _ = ∑ d : Fin 2048, Cert.Spec.wt a0 a1 a2 a3 a4 a5 a6 d p * a2 (ix2 d q)
  refine Finset.sum_congr rfl fun k _ => ?_
  have el : idx_main_v35 (lidx_main_v36 (ix2 p q) k) = ix2 k p :=
    funext fun a => Fin.ext (by match a with | ⟨0, _⟩ => rfl | ⟨1, _⟩ => rfl)
  have er : ridx_main_v36 (ix2 p q) k = ix2 k q :=
    funext fun a => Fin.ext (by match a with | ⟨0, _⟩ => rfl | ⟨1, _⟩ => rfl)
  rw [val_main_v35_apply, el, er, wt_at]

end Cert.RefSpec

end
-- ==== Proof.lean ====
/-
  The certificate of a tri-modal tanh-gated attention: a chain of seven kernels against its reference.
  With the seven argument arrays x1 [16384,2048], x2, x3, W1, W2 [2048,2048], b1, b2 [2048], both programs compute
      h1 = tanh (x1·W1ᵀ + b1),   p2 = x2·W2ᵀ + b2,   scores1 = h1·p2ᵀ,
      h3 = tanh (x3·W1ᵀ + b1),   scores2 = h3·scores1ᵀ,   weights = softmax of each row of scores2,
      att1 = weights·x1,   att2 = weightsᵀ·x2,   att3 = weightsᵀ·x3,
  the softmax as exp (s − row maximum) over the row's sum of these. On the extended reals (a change of float format
  is the identity there) the kernels differ from the reference only in tiling — rows or columns computed block by
  block — and, for att1, in adding the products of 128 blocks of the contracted axis one after the other into an
  accumulator that starts at zero: a regrouping of one sum in a commutative monoid. No law needing finiteness is
  used; the precondition is never opened.
  Frames: each program runs to the end, faults nowhere and leaves its arguments as launched — for the kernel
  programs by running the seven regions one after the other, each region's body specified at every grid point, for
  the reference by its run read back. The word-level kernel program's idealization rewrote nothing, so the
  preservation claim is trivial.
-/
import proofs.«127111_j36644660969674_2_alg».proof.Defs
import proofs.«127111_j36644660969674_2_alg».proof.Proof.Gen.Kernel
import proofs.«127111_j36644660969674_2_alg».proof.Proof.Gen.KernelIdeal
import proofs.«127111_j36644660969674_2_alg».proof.Proof.Gen.ReferenceIdeal
import proofs.«127111_j36644660969674_2_alg».proof.Proof.Gen.Pre_finite_inputs
import proofs.«127111_j36644660969674_2_alg».proof.Proof.Gen.ReferenceIdeal.Run
import proofs.«127111_j36644660969674_2_alg».proof.Proof.Gen.ReferenceIdeal.Read
import proofs.«127111_j36644660969674_2_alg».proof.Proof.K.Frame
import proofs.«127111_j36644660969674_2_alg».proof.Proof.KI.GlueB
import proofs.«127111_j36644660969674_2_alg».proof.Proof.RefIsSpec

noncomputable section

namespace Cert.Proof

open Idealize.ShloMosaic Idealize.ShloMosaic.TcCoe Idealize.SL.Sem

theorem frame_k : Cert.frame_Kernel := fun m ρ _ => Cert.Kernel.Val.frame_run (F := Bits) m ρ

theorem frame_ki : Cert.frame_KernelIdeal := fun m ρ _ =>
  (θ_run Cert.KernelIdeal.defs _ _).mono (fun _ h c => (h c).2.2.2) (Cert.KernelIdeal.Val.run_spec m ρ)

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories agreeing on the arguments both programs end with the three results at the specification's functions
    of the arguments: the kernel program by its run read region by region, the reference by its run read operation by
    operation. -/
theorem algebraic : Cert.algebraic_KernelIdeal_ReferenceIdeal := by
  intro m ρ m' ρ' _ hagree
  refine ⟨fun c => Cert.Spec.att1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.att2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.att3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Val.run_spec m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v32_eq, Cert.RefSpec.ref_att1, (hagree c).1, (hagree c).2.1, (hagree c).2.2.1, (hagree c).2.2.2.1, (hagree c).2.2.2.2.1, (hagree c).2.2.2.2.2.1, (hagree c).2.2.2.2.2.2]
  · rw [(h c).2.1, Cert.ReferenceIdeal.Read.val_main_v34_eq, Cert.RefSpec.ref_att2, (hagree c).1, (hagree c).2.1, (hagree c).2.2.1, (hagree c).2.2.2.1, (hagree c).2.2.2.2.1, (hagree c).2.2.2.2.2.1, (hagree c).2.2.2.2.2.2]
  · rw [(h c).2.2.1, Cert.ReferenceIdeal.Read.val_main_v36_eq, Cert.RefSpec.ref_att3, (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
